-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v287)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v287) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v345) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S40000x256 : Shape := ⟨2, ![40000, 256]⟩
abbrev S60000x256 : Shape := ⟨2, ![60000, 256]⟩
abbrev S250000 : Shape := ⟨1, ![250000]⟩
abbrev S40000 : Shape := ⟨1, ![40000]⟩
abbrev S64x32 : Shape := ⟨2, ![64, 32]⟩
abbrev S2x5x256x256 : Shape := ⟨4, ![2, 5, 256, 256]⟩
abbrev S2x5x256 : Shape := ⟨3, ![2, 5, 256]⟩
abbrev S288x128 : Shape := ⟨2, ![288, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S40000x256 : S_.BroadcastsInDim S40000x256 (![] : Fin 0 → Fin S40000x256.rank)
  reducesTo_S40000x256_S_d0_1 : S40000x256.ReducesTo [0, 1] S_
  bcast_S_S60000x256 : S_.BroadcastsInDim S60000x256 (![] : Fin 0 → Fin S60000x256.rank)
  reducesTo_S60000x256_S_d0_1 : S60000x256.ReducesTo [0, 1] S_
  bcast_S_S64x32 : S_.BroadcastsInDim S64x32 (![] : Fin 0 → Fin S64x32.rank)
  reducesTo_S64x32_S_d0_1 : S64x32.ReducesTo [0, 1] S_
  bcast_S_S2x5x256x256 : S_.BroadcastsInDim S2x5x256x256 (![] : Fin 0 → Fin S2x5x256x256.rank)
  reducesTo_S2x5x256x256_S_d0_1_2_3 : S2x5x256x256.ReducesTo [0, 1, 2, 3] S_
  bcast_S_S2x5x256 : S_.BroadcastsInDim S2x5x256 (![] : Fin 0 → Fin S2x5x256.rank)
  reducesTo_S2x5x256_S_d0_1_2 : S2x5x256.ReducesTo [0, 1, 2] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg18 : FVec F S288x128 .f32) (main_arg19 : FVec F S128 .f32) (main_arg20 : FVec F S128x16 .f32) (main_arg21 : FVec F S16 .f32) (main_v33 : IVec S_ 1) : IVec S_ 1 :=
  let main_v34 : FVec F S288x128 .f32 := Host.absf main_arg18
  let main_cst_12 : FVec F S_ .f32 := constant S_ .f32 0x7F800000#32
  let main_v35 : FVec F S288x128 .f32 := broadcastInDim S288x128 ![] bcast_S_S288x128 main_cst_12
  let main_v36 : IVec S288x128 1 := cmpf .olt main_v34 main_v35
  let main_c_13 : IVec S_ 1 := constantI S_ 1 1#1
  let main_v37 : IVec S_ 1 := (fun x v => Host.reduce IntOp.andi x v reducesTo_S288x128_S_d0_1 h_S_) main_v36 main_c_13
  let main_v38 : IVec S_ 1 := andi main_v33 main_v37
  let main_v39 : FVec F S128 .f32 := Host.absf main_arg19
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg20
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg21
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg15 : FVec F S2x5x256x256 .f32) (main_arg16 : FVec F S2x5x256x256 .f32) (main_arg17 : FVec F S2x5x256 .f32) (main_arg18 : FVec F S288x128 .f32) (main_arg19 : FVec F S128 .f32) (main_arg20 : FVec F S128x16 .f32) (main_arg21 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S2x5x256x256 .f32 := Host.absf main_arg15
  let main_cst_6 : FVec F S_ .f32 := constant S_ .f32 0x7F800000#32
  let main_v20 : FVec F S2x5x256x256 .f32 := broadcastInDim S2x5x256x256 ![] bcast_S_S2x5x256x256 main_cst_6
  let main_v21 : IVec S2x5x256x256 1 := cmpf .olt main_v19 main_v20
  let main_c_7 : IVec S_ 1 := constantI S_ 1 1#1
  let main_v22 : IVec S_ 1 := (fun x v => Host.reduce IntOp.andi x v reducesTo_S2x5x256x256_S_d0_1_2_3 h_S_) main_v21 main_c_7
  let main_v23 : IVec S_ 1 := andi main_v18 main_v22
  let main_v24 : FVec F S2x5x256x256 .f32 := Host.absf main_arg16
  let main_cst_8 : FVec F S_ .f32 := constant S_ .f32 0x7F800000#32
  let main_v25 : FVec F S2x5x256x256 .f32 := broadcastInDim S2x5x256x256 ![] bcast_S_S2x5x256x256 main_cst_8
  let main_v26 : IVec S2x5x256x256 1 := cmpf .olt main_v24 main_v25
  let main_c_9 : IVec S_ 1 := constantI S_ 1 1#1
  let main_v27 : IVec S_ 1 := (fun x v => Host.reduce IntOp.andi x v reducesTo_S2x5x256x256_S_d0_1_2_3 h_S_) main_v26 main_c_9
  let main_v28 : IVec S_ 1 := andi main_v23 main_v27
  let main_v29 : FVec F S2x5x256 .f32 := Host.absf main_arg17
  let main_cst_10 : FVec F S_ .f32 := constant S_ .f32 0x7F800000#32
  let main_v30 : FVec F S2x5x256 .f32 := broadcastInDim S2x5x256 ![] bcast_S_S2x5x256 main_cst_10
  let main_v31 : IVec S2x5x256 1 := cmpf .olt main_v29 main_v30
  let main_c_11 : IVec S_ 1 := constantI S_ 1 1#1
  let main_v32 : IVec S_ 1 := (fun x v => Host.reduce IntOp.andi x v reducesTo_S2x5x256_S_d0_1_2 h_S_) main_v31 main_c_11
  let main_v33 : IVec S_ 1 := andi main_v28 main_v32
  fn_part2 (F := F) main_arg18 main_arg19 main_arg20 main_arg21 main_v33

def fn {F : FTy → Type} [FloatOps F] (main_arg0 : FVec F S100000x256 .f32) (main_arg1 : FVec F S40000x256 .f32) (main_arg2 : FVec F S60000x256 .f32) (main_arg3 : IVec S250000 32) (main_arg4 : IVec S250000 32) (main_arg5 : IVec S250000 32) (main_arg6 : IVec S250000 32) (main_arg7 : IVec S250000 32) (main_arg8 : IVec S250000 32) (main_arg9 : IVec S250000 32) (main_arg10 : IVec S250000 32) (main_arg11 : IVec S250000 32) (main_arg12 : IVec S250000 32) (main_arg13 : IVec S40000 32) (main_arg14 : FVec F S64x32 .f32) (main_arg15 : FVec F S2x5x256x256 .f32) (main_arg16 : FVec F S2x5x256x256 .f32) (main_arg17 : FVec F S2x5x256 .f32) (main_arg18 : FVec F S288x128 .f32) (main_arg19 : FVec F S128 .f32) (main_arg20 : FVec F S128x16 .f32) (main_arg21 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S40000x256 .f32 := Host.absf main_arg1
  let main_cst_0 : FVec F S_ .f32 := constant S_ .f32 0x7F800000#32
  let main_v5 : FVec F S40000x256 .f32 := broadcastInDim S40000x256 ![] bcast_S_S40000x256 main_cst_0
  let main_v6 : IVec S40000x256 1 := cmpf .olt main_v4 main_v5
  let main_c_1 : IVec S_ 1 := constantI S_ 1 1#1
  let main_v7 : IVec S_ 1 := (fun x v => Host.reduce IntOp.andi x v reducesTo_S40000x256_S_d0_1 h_S_) main_v6 main_c_1
  let main_v8 : IVec S_ 1 := andi main_v3 main_v7
  let main_v9 : FVec F S60000x256 .f32 := Host.absf main_arg2
  let main_cst_2 : FVec F S_ .f32 := constant S_ .f32 0x7F800000#32
  let main_v10 : FVec F S60000x256 .f32 := broadcastInDim S60000x256 ![] bcast_S_S60000x256 main_cst_2
  let main_v11 : IVec S60000x256 1 := cmpf .olt main_v9 main_v10
  let main_c_3 : IVec S_ 1 := constantI S_ 1 1#1
  let main_v12 : IVec S_ 1 := (fun x v => Host.reduce IntOp.andi x v reducesTo_S60000x256_S_d0_1 h_S_) main_v11 main_c_3
  let main_v13 : IVec S_ 1 := andi main_v8 main_v12
  let main_v14 : FVec F S64x32 .f32 := Host.absf main_arg14
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg15 main_arg16 main_arg17 main_arg18 main_arg19 main_arg20 main_arg21 main_v13 main_v16
-- ==== Kernel.lean ====
abbrev S100000x256 : Shape := ⟨2, ![100000, 256]⟩
abbrev S40000x256 : Shape := ⟨2, ![40000, 256]⟩
abbrev S60000x256 : Shape := ⟨2, ![60000, 256]⟩
abbrev S250000 : Shape := ⟨1, ![250000]⟩
abbrev S40000 : Shape := ⟨1, ![40000]⟩
abbrev S64x32 : Shape := ⟨2, ![64, 32]⟩
abbrev S2x5x256x256 : Shape := ⟨4, ![2, 5, 256, 256]⟩
abbrev S2x5x256 : Shape := ⟨3, ![2, 5, 256]⟩
abbrev S288x128 : Shape := ⟨2, ![288, 128]⟩
abbrev S128 : Shape := ⟨1, ![128]⟩
abbrev S128x16 : Shape := ⟨2, ![128, 16]⟩
abbrev S16 : Shape := ⟨1, ![16]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S_ : Shape := ⟨0, ![]⟩
abbrev S250000x1 : Shape := ⟨2, ![250000, 1]⟩
abbrev S250000x256 : Shape := ⟨2, ![250000, 256]⟩
abbrev S60000 : Shape := ⟨1, ![60000]⟩
abbrev S60000x1 : Shape := ⟨2, ![60000, 1]⟩
abbrev S1x256 : Shape := ⟨2, ![1, 256]⟩
abbrev S2000x256 : Shape := ⟨2, ![2000, 256]⟩
abbrev S40000x1 : Shape := ⟨2, ![40000, 1]⟩
abbrev S100000 : Shape := ⟨1, ![100000]⟩
abbrev S100000x1 : Shape := ⟨2, ![100000, 1]⟩
abbrev S64x256 : Shape := ⟨2, ![64, 256]⟩
abbrev S64 : Shape := ⟨1, ![64]⟩
abbrev S64x1 : Shape := ⟨2, ![64, 1]⟩
abbrev S64x288 : Shape := ⟨2, ![64, 288]⟩
abbrev S1x128 : Shape := ⟨2, ![1, 128]⟩
abbrev S1x16 : Shape := ⟨2, ![1, 16]⟩
abbrev S64x16 : Shape := ⟨2, ![64, 16]⟩
abbrev S64x128 : Shape := ⟨2, ![64, 128]⟩

abbrev nBuf : Space → Nat
  | .hbm => 400
  | .vmem => 96
  | .smem => 0
  | _ => 0

abbrev hbmTy0_0 (i : Nat) : BufTy := match i % 128 with
  | 0 => ⟨S100000x256, .f32⟩
  | 1 => ⟨S40000x256, .f32⟩
  | 2 => ⟨S60000x256, .f32⟩
  | 3 => ⟨S250000, .i32⟩
  | 4 => ⟨S250000, .i32⟩
  | 5 => ⟨S250000, .i32⟩
  | 6 => ⟨S250000, .i32⟩
  | 7 => ⟨S250000, .i32⟩
  | 8 => ⟨S250000, .i32⟩
  | 9 => ⟨S250000, .i32⟩
  | 10 => ⟨S250000, .i32⟩
  | 11 => ⟨S250000, .i32⟩
  | 12 => ⟨S250000, .i32⟩
  | 13 => ⟨S40000, .i32⟩
  | 14 => ⟨S64x32, .f32⟩
  | 15 => ⟨S2x5x256x256, .f32⟩
  | 16 => ⟨S2x5x256x256, .f32⟩
  | 17 => ⟨S2x5x256, .f32⟩
  | 18 => ⟨S288x128, .f32⟩
  | 19 => ⟨S128, .f32⟩
  | 20 => ⟨S128x16, .f32⟩
  | 21 => ⟨S16, .f32⟩
  | 22 => ⟨S1x1x256x256, .f32⟩
  | 23 => ⟨S256x256, .f32⟩
  | 24 => ⟨S1x1x256x256, .f32⟩
  | 25 => ⟨S256x256, .f32⟩
  | 26 => ⟨S1x1x256, .f32⟩
  | 27 => ⟨S256, .f32⟩
  | 28 => ⟨S_, .i32⟩
  | 29 => ⟨S250000, .i32⟩
  | 30 => ⟨S250000, .i1⟩
  | 31 => ⟨S_, .i32⟩
  | 32 => ⟨S250000, .i32⟩
  | 33 => ⟨S250000, .i32⟩
  | 34 => ⟨S250000, .i32⟩
  | 35 => ⟨S250000x1, .i32⟩
  | 36 => ⟨S250000x256, .f32⟩
  | 37 => ⟨S_, .f32⟩
  | 38 => ⟨S60000x256, .f32⟩
  | 39 => ⟨S250000x1, .i32⟩
  | 40 => ⟨S60000x256, .f32⟩
  | 41 => ⟨S_, .f32⟩
  | 42 => ⟨S250000, .f32⟩
  | 43 => ⟨S_, .f32⟩
  | 44 => ⟨S60000, .f32⟩
  | 45 => ⟨S250000x1, .i32⟩
  | 46 => ⟨S60000, .f32⟩
  | 47 => ⟨S_, .f32⟩
  | 48 => ⟨S60000, .f32⟩
  | 49 => ⟨S60000, .f32⟩
  | 50 => ⟨S60000x1, .f32⟩
  | 51 => ⟨S60000x256, .f32⟩
  | 52 => ⟨S60000x256, .f32⟩
  | 53 => ⟨S1x256, .f32⟩
  | 54 => ⟨S60000x256, .f32⟩
  | 55 => ⟨S1x1x256x256, .f32⟩
  | 56 => ⟨S256x256, .f32⟩
  | 57 => ⟨S1x1x256x256, .f32⟩
  | 58 => ⟨S256x256, .f32⟩
  | 59 => ⟨S1x1x256, .f32⟩
  | 60 => ⟨S256, .f32⟩
  | 61 => ⟨S_, .i32⟩
  | 62 => ⟨S250000, .i32⟩
  | 63 => ⟨S250000, .i1⟩
  | 64 => ⟨S_, .i32⟩
  | 65 => ⟨S250000, .i32⟩
  | 66 => ⟨S250000, .i32⟩
  | 67 => ⟨S250000, .i32⟩
  | 68 => ⟨S250000x1, .i32⟩
  | 69 => ⟨S250000x256, .f32⟩
  | 70 => ⟨S_, .f32⟩
  | 71 => ⟨S40000x256, .f32⟩
  | 72 => ⟨S250000x1, .i32⟩
  | 73 => ⟨S40000x256, .f32⟩
  | 74 => ⟨S_, .f32⟩
  | 75 => ⟨S250000, .f32⟩
  | 76 => ⟨S_, .f32⟩
  | 77 => ⟨S40000, .f32⟩
  | 78 => ⟨S250000x1, .i32⟩
  | 79 => ⟨S40000, .f32⟩
  | 80 => ⟨S_, .f32⟩
  | 81 => ⟨S40000, .f32⟩
  | 82 => ⟨S40000, .f32⟩
  | 83 => ⟨S40000x1, .f32⟩
  | 84 => ⟨S40000x256, .f32⟩
  | 85 => ⟨S40000x256, .f32⟩
  | 86 => ⟨S1x256, .f32⟩
  | 87 => ⟨S40000x256, .f32⟩
  | 88 => ⟨S1x1x256x256, .f32⟩
  | 89 => ⟨S256x256, .f32⟩
  | 90 => ⟨S1x1x256x256, .f32⟩
  | 91 => ⟨S256x256, .f32⟩
  | 92 => ⟨S1x1x256, .f32⟩
  | 93 => ⟨S256, .f32⟩
  | 94 => ⟨S_, .i32⟩
  | 95 => ⟨S250000, .i32⟩
  | 96 => ⟨S250000, .i1⟩
  | 97 => ⟨S_, .i32⟩
  | 98 => ⟨S250000, .i32⟩
  | 99 => ⟨S250000, .i32⟩
  | 100 => ⟨S250000, .i32⟩
  | 101 => ⟨S250000x1, .i32⟩
  | 102 => ⟨S250000x256, .f32⟩
  | 103 => ⟨S_, .f32⟩
  | 104 => ⟨S40000x256, .f32⟩
  | 105 => ⟨S250000x1, .i32⟩
  | 106 => ⟨S40000x256, .f32⟩
  | 107 => ⟨S_, .f32⟩
  | 108 => ⟨S250000, .f32⟩
  | 109 => ⟨S_, .f32⟩
  | 110 => ⟨S40000, .f32⟩
  | 111 => ⟨S250000x1, .i32⟩
  | 112 => ⟨S40000, .f32⟩
  | 113 => ⟨S_, .f32⟩
  | 114 => ⟨S40000, .f32⟩
  | 115 => ⟨S40000, .f32⟩
  | 116 => ⟨S40000x1, .f32⟩
  | 117 => ⟨S40000x256, .f32⟩
  | 118 => ⟨S40000x256, .f32⟩
  | 119 => ⟨S1x256, .f32⟩
  | 120 => ⟨S40000x256, .f32⟩
  | 121 => ⟨S1x1x256x256, .f32⟩
  | 122 => ⟨S256x256, .f32⟩
  | 123 => ⟨S1x1x256x256, .f32⟩
  | 124 => ⟨S256x256, .f32⟩
  | 125 => ⟨S1x1x256, .f32⟩
  | 126 => ⟨S256, .f32⟩
  | 127 => ⟨S_, .i32⟩
  | _ => ⟨S100000x256, .f32⟩

abbrev hbmTy0_1 (i : Nat) : BufTy := match i % 128 with
  | 0 => ⟨S250000, .i32⟩
  | 1 => ⟨S250000, .i1⟩
  | 2 => ⟨S_, .i32⟩
  | 3 => ⟨S250000, .i32⟩
  | 4 => ⟨S250000, .i32⟩
  | 5 => ⟨S250000, .i32⟩
  | 6 => ⟨S250000x1, .i32⟩
  | 7 => ⟨S250000x256, .f32⟩
  | 8 => ⟨S_, .f32⟩
  | 9 => ⟨S40000x256, .f32⟩
  | 10 => ⟨S250000x1, .i32⟩
  | 11 => ⟨S40000x256, .f32⟩
  | 12 => ⟨S_, .f32⟩
  | 13 => ⟨S250000, .f32⟩
  | 14 => ⟨S_, .f32⟩
  | 15 => ⟨S40000, .f32⟩
  | 16 => ⟨S250000x1, .i32⟩
  | 17 => ⟨S40000, .f32⟩
  | 18 => ⟨S_, .f32⟩
  | 19 => ⟨S40000, .f32⟩
  | 20 => ⟨S40000, .f32⟩
  | 21 => ⟨S40000x1, .f32⟩
  | 22 => ⟨S40000x256, .f32⟩
  | 23 => ⟨S40000x256, .f32⟩
  | 24 => ⟨S1x256, .f32⟩
  | 25 => ⟨S40000x256, .f32⟩
  | 26 => ⟨S40000x256, .f32⟩
  | 27 => ⟨S40000x256, .f32⟩
  | 28 => ⟨S_, .f32⟩
  | 29 => ⟨S40000x256, .f32⟩
  | 30 => ⟨S40000x256, .f32⟩
  | 31 => ⟨S1x1x256x256, .f32⟩
  | 32 => ⟨S256x256, .f32⟩
  | 33 => ⟨S1x1x256x256, .f32⟩
  | 34 => ⟨S256x256, .f32⟩
  | 35 => ⟨S1x1x256, .f32⟩
  | 36 => ⟨S256, .f32⟩
  | 37 => ⟨S_, .i32⟩
  | 38 => ⟨S250000, .i32⟩
  | 39 => ⟨S250000, .i1⟩
  | 40 => ⟨S_, .i32⟩
  | 41 => ⟨S250000, .i32⟩
  | 42 => ⟨S250000, .i32⟩
  | 43 => ⟨S250000, .i32⟩
  | 44 => ⟨S250000x1, .i32⟩
  | 45 => ⟨S250000x256, .f32⟩
  | 46 => ⟨S_, .f32⟩
  | 47 => ⟨S100000x256, .f32⟩
  | 48 => ⟨S250000x1, .i32⟩
  | 49 => ⟨S100000x256, .f32⟩
  | 50 => ⟨S_, .f32⟩
  | 51 => ⟨S250000, .f32⟩
  | 52 => ⟨S_, .f32⟩
  | 53 => ⟨S100000, .f32⟩
  | 54 => ⟨S250000x1, .i32⟩
  | 55 => ⟨S100000, .f32⟩
  | 56 => ⟨S_, .f32⟩
  | 57 => ⟨S100000, .f32⟩
  | 58 => ⟨S100000, .f32⟩
  | 59 => ⟨S100000x1, .f32⟩
  | 60 => ⟨S100000x256, .f32⟩
  | 61 => ⟨S100000x256, .f32⟩
  | 62 => ⟨S1x256, .f32⟩
  | 63 => ⟨S100000x256, .f32⟩
  | 64 => ⟨S_, .f32⟩
  | 65 => ⟨S100000x256, .f32⟩
  | 66 => ⟨S100000x256, .f32⟩
  | 67 => ⟨S_, .f32⟩
  | 68 => ⟨S40000x256, .f32⟩
  | 69 => ⟨S40000x256, .f32⟩
  | 70 => ⟨S_, .f32⟩
  | 71 => ⟨S60000x256, .f32⟩
  | 72 => ⟨S60000x256, .f32⟩
  | 73 => ⟨S1x1x256x256, .f32⟩
  | 74 => ⟨S256x256, .f32⟩
  | 75 => ⟨S1x1x256x256, .f32⟩
  | 76 => ⟨S256x256, .f32⟩
  | 77 => ⟨S1x1x256, .f32⟩
  | 78 => ⟨S256, .f32⟩
  | 79 => ⟨S_, .i32⟩
  | 80 => ⟨S250000, .i32⟩
  | 81 => ⟨S250000, .i1⟩
  | 82 => ⟨S_, .i32⟩
  | 83 => ⟨S250000, .i32⟩
  | 84 => ⟨S250000, .i32⟩
  | 85 => ⟨S250000, .i32⟩
  | 86 => ⟨S250000x1, .i32⟩
  | 87 => ⟨S250000x256, .f32⟩
  | 88 => ⟨S_, .f32⟩
  | 89 => ⟨S60000x256, .f32⟩
  | 90 => ⟨S250000x1, .i32⟩
  | 91 => ⟨S60000x256, .f32⟩
  | 92 => ⟨S_, .f32⟩
  | 93 => ⟨S250000, .f32⟩
  | 94 => ⟨S_, .f32⟩
  | 95 => ⟨S60000, .f32⟩
  | 96 => ⟨S250000x1, .i32⟩
  | 97 => ⟨S60000, .f32⟩
  | 98 => ⟨S_, .f32⟩
  | 99 => ⟨S60000, .f32⟩
  | 100 => ⟨S60000, .f32⟩
  | 101 => ⟨S60000x1, .f32⟩
  | 102 => ⟨S60000x256, .f32⟩
  | 103 => ⟨S60000x256, .f32⟩
  | 104 => ⟨S1x256, .f32⟩
  | 105 => ⟨S60000x256, .f32⟩
  | 106 => ⟨S1x1x256x256, .f32⟩
  | 107 => ⟨S256x256, .f32⟩
  | 108 => ⟨S1x1x256x256, .f32⟩
  | 109 => ⟨S256x256, .f32⟩
  | 110 => ⟨S1x1x256, .f32⟩
  | 111 => ⟨S256, .f32⟩
  | 112 => ⟨S_, .i32⟩
  | 113 => ⟨S250000, .i32⟩
  | 114 => ⟨S250000, .i1⟩
  | 115 => ⟨S_, .i32⟩
  | 116 => ⟨S250000, .i32⟩
  | 117 => ⟨S250000, .i32⟩
  | 118 => ⟨S250000, .i32⟩
  | 119 => ⟨S250000x1, .i32⟩
  | 120 => ⟨S250000x256, .f32⟩
  | 121 => ⟨S_, .f32⟩
  | 122 => ⟨S40000x256, .f32⟩
  | 123 => ⟨S250000x1, .i32⟩
  | 124 => ⟨S40000x256, .f32⟩
  | 125 => ⟨S_, .f32⟩
  | 126 => ⟨S250000, .f32⟩
  | 127 => ⟨S_, .f32⟩
  | _ => ⟨S100000x256, .f32⟩

abbrev hbmTy0_2 (i : Nat) : BufTy := match i % 128 with
  | 0 => ⟨S40000, .f32⟩
  | 1 => ⟨S250000x1, .i32⟩
  | 2 => ⟨S40000, .f32⟩
  | 3 => ⟨S_, .f32⟩
  | 4 => ⟨S40000, .f32⟩
  | 5 => ⟨S40000, .f32⟩
  | 6 => ⟨S40000x1, .f32⟩
  | 7 => ⟨S40000x256, .f32⟩
  | 8 => ⟨S40000x256, .f32⟩
  | 9 => ⟨S1x256, .f32⟩
  | 10 => ⟨S40000x256, .f32⟩
  | 11 => ⟨S1x1x256x256, .f32⟩
  | 12 => ⟨S256x256, .f32⟩
  | 13 => ⟨S1x1x256x256, .f32⟩
  | 14 => ⟨S256x256, .f32⟩
  | 15 => ⟨S1x1x256, .f32⟩
  | 16 => ⟨S256, .f32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S250000x256, .f32⟩
  | 26 => ⟨S_, .f32⟩
  | 27 => ⟨S40000x256, .f32⟩
  | 28 => ⟨S250000x1, .i32⟩
  | 29 => ⟨S40000x256, .f32⟩
  | 30 => ⟨S_, .f32⟩
  | 31 => ⟨S250000, .f32⟩
  | 32 => ⟨S_, .f32⟩
  | 33 => ⟨S40000, .f32⟩
  | 34 => ⟨S250000x1, .i32⟩
  | 35 => ⟨S40000, .f32⟩
  | 36 => ⟨S_, .f32⟩
  | 37 => ⟨S40000, .f32⟩
  | 38 => ⟨S40000, .f32⟩
  | 39 => ⟨S40000x1, .f32⟩
  | 40 => ⟨S40000x256, .f32⟩
  | 41 => ⟨S40000x256, .f32⟩
  | 42 => ⟨S1x256, .f32⟩
  | 43 => ⟨S40000x256, .f32⟩
  | 44 => ⟨S1x1x256x256, .f32⟩
  | 45 => ⟨S256x256, .f32⟩
  | 46 => ⟨S1x1x256x256, .f32⟩
  | 47 => ⟨S256x256, .f32⟩
  | 48 => ⟨S1x1x256, .f32⟩
  | 49 => ⟨S256, .f32⟩
  | 50 => ⟨S_, .i32⟩
  | 51 => ⟨S250000, .i32⟩
  | 52 => ⟨S250000, .i1⟩
  | 53 => ⟨S_, .i32⟩
  | 54 => ⟨S250000, .i32⟩
  | 55 => ⟨S250000, .i32⟩
  | 56 => ⟨S250000, .i32⟩
  | 57 => ⟨S250000x1, .i32⟩
  | 58 => ⟨S250000x256, .f32⟩
  | 59 => ⟨S_, .f32⟩
  | 60 => ⟨S40000x256, .f32⟩
  | 61 => ⟨S250000x1, .i32⟩
  | 62 => ⟨S40000x256, .f32⟩
  | 63 => ⟨S_, .f32⟩
  | 64 => ⟨S250000, .f32⟩
  | 65 => ⟨S_, .f32⟩
  | 66 => ⟨S40000, .f32⟩
  | 67 => ⟨S250000x1, .i32⟩
  | 68 => ⟨S40000, .f32⟩
  | 69 => ⟨S_, .f32⟩
  | 70 => ⟨S40000, .f32⟩
  | 71 => ⟨S40000, .f32⟩
  | 72 => ⟨S40000x1, .f32⟩
  | 73 => ⟨S40000x256, .f32⟩
  | 74 => ⟨S40000x256, .f32⟩
  | 75 => ⟨S1x256, .f32⟩
  | 76 => ⟨S40000x256, .f32⟩
  | 77 => ⟨S40000x256, .f32⟩
  | 78 => ⟨S40000x256, .f32⟩
  | 79 => ⟨S_, .f32⟩
  | 80 => ⟨S40000x256, .f32⟩
  | 81 => ⟨S40000x256, .f32⟩
  | 82 => ⟨S1x1x256x256, .f32⟩
  | 83 => ⟨S256x256, .f32⟩
  | 84 => ⟨S1x1x256x256, .f32⟩
  | 85 => ⟨S256x256, .f32⟩
  | 86 => ⟨S1x1x256, .f32⟩
  | 87 => ⟨S256, .f32⟩
  | 88 => ⟨S_, .i32⟩
  | 89 => ⟨S250000, .i32⟩
  | 90 => ⟨S250000, .i1⟩
  | 91 => ⟨S_, .i32⟩
  | 92 => ⟨S250000, .i32⟩
  | 93 => ⟨S250000, .i32⟩
  | 94 => ⟨S250000, .i32⟩
  | 95 => ⟨S250000x1, .i32⟩
  | 96 => ⟨S250000x256, .f32⟩
  | 97 => ⟨S_, .f32⟩
  | 98 => ⟨S100000x256, .f32⟩
  | 99 => ⟨S250000x1, .i32⟩
  | 100 => ⟨S100000x256, .f32⟩
  | 101 => ⟨S_, .f32⟩
  | 102 => ⟨S250000, .f32⟩
  | 103 => ⟨S_, .f32⟩
  | 104 => ⟨S100000, .f32⟩
  | 105 => ⟨S250000x1, .i32⟩
  | 106 => ⟨S100000, .f32⟩
  | 107 => ⟨S_, .f32⟩
  | 108 => ⟨S100000, .f32⟩
  | 109 => ⟨S100000, .f32⟩
  | 110 => ⟨S100000x1, .f32⟩
  | 111 => ⟨S100000x256, .f32⟩
  | 112 => ⟨S100000x256, .f32⟩
  | 113 => ⟨S1x256, .f32⟩
  | 114 => ⟨S100000x256, .f32⟩
  | 115 => ⟨S_, .f32⟩
  | 116 => ⟨S100000x256, .f32⟩
  | 117 => ⟨S100000x256, .f32⟩
  | 118 => ⟨S_, .f32⟩
  | 119 => ⟨S40000x256, .f32⟩
  | 120 => ⟨S40000x256, .f32⟩
  | 121 => ⟨S_, .f32⟩
  | 122 => ⟨S60000x256, .f32⟩
  | 123 => ⟨S60000x256, .f32⟩
  | 124 => ⟨S_, .f32⟩
  | 125 => ⟨S64x256, .f32⟩
  | 126 => ⟨S40000x1, .i32⟩
  | 127 => ⟨S64x256, .f32⟩
  | _ => ⟨S100000x256, .f32⟩

abbrev hbmTy0_3 (i : Nat) : BufTy := match i % 128 with
  | 0 => ⟨S_, .f32⟩
  | 1 => ⟨S40000, .f32⟩
  | 2 => ⟨S_, .f32⟩
  | 3 => ⟨S64, .f32⟩
  | 4 => ⟨S40000x1, .i32⟩
  | 5 => ⟨S64, .f32⟩
  | 6 => ⟨S_, .f32⟩
  | 7 => ⟨S64, .f32⟩
  | 8 => ⟨S64, .f32⟩
  | 9 => ⟨S64x1, .f32⟩
  | 10 => ⟨S64x256, .f32⟩
  | 11 => ⟨S64x256, .f32⟩
  | 12 => ⟨S64x288, .f32⟩
  | 13 => ⟨S1x128, .f32⟩
  | 14 => ⟨S1x16, .f32⟩
  | 15 => ⟨S64x16, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S256x256, .f32⟩
  | .local _ .vmem, ⟨32, _⟩ => ⟨S256x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S2000x256, .f32⟩
  | .local _ .vmem, ⟨40, _⟩ => ⟨S256x256, .f32⟩
  | .local _ .vmem, ⟨41, _⟩ => ⟨S256x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S2000x256, .f32⟩
  | .local _ .vmem, ⟨49, _⟩ => ⟨S256x256, .f32⟩
  | .local _ .vmem, ⟨50, _⟩ => ⟨S256x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S2000x256, .f32⟩
  | .local _ .vmem, ⟨55, _⟩ => ⟨S2000x256, .f32⟩
  | .local _ .vmem, ⟨56, _⟩ => ⟨S2000x256, .f32⟩
  | .local _ .vmem, ⟨57, _⟩ => ⟨S2000x256, .f32⟩
  | .local _ .vmem, ⟨58, _⟩ => ⟨S256x256, .f32⟩
  | .local _ .vmem, ⟨59, _⟩ => ⟨S256x256, .f32⟩
  | .local _ .vmem, ⟨60, _⟩ => ⟨S1x256, .f32⟩
  | .local _ .vmem, ⟨61, _⟩ => ⟨S2000x256, .f32⟩
  | .local _ .vmem, ⟨62, _⟩ => ⟨S2000x256, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S2000x256, .f32⟩
  | .local _ .vmem, ⟨67, _⟩ => ⟨S256x256, .f32⟩
  | .local _ .vmem, ⟨68, _⟩ => ⟨S256x256, .f32⟩
  | .local _ .vmem, ⟨69, _⟩ => ⟨S1x256, .f32⟩
  | .local _ .vmem, ⟨70, _⟩ => ⟨S2000x256, .f32⟩
  | .local _ .vmem, ⟨71, _⟩ => ⟨S2000x256, .f32⟩
  | .local _ .vmem, ⟨72, _⟩ => ⟨S2000x256, .f32⟩
  | .local _ .vmem, ⟨73, _⟩ => ⟨S2000x256, .f32⟩
  | .local _ .vmem, ⟨74, _⟩ => ⟨S2000x256, .f32⟩
  | .local _ .vmem, ⟨75, _⟩ => ⟨S2000x256, .f32⟩
  | .local _ .vmem, ⟨76, _⟩ => ⟨S256x256, .f32⟩
  | .local _ .vmem, ⟨77, _⟩ => ⟨S256x256, .f32⟩
  | .local _ .vmem, ⟨78, _⟩ => ⟨S1x256, .f32⟩
  | .local _ .vmem, ⟨79, _⟩ => ⟨S2000x256, .f32⟩
  | .local _ .vmem, ⟨80, _⟩ => ⟨S2000x256, .f32⟩
  | .local _ .vmem, ⟨81, _⟩ => ⟨S2000x256, .f32⟩
  | .local _ .vmem, ⟨82, _⟩ => ⟨S2000x256, .f32⟩
  | .local _ .vmem, ⟨83, _⟩ => ⟨S2000x256, .f32⟩
  | .local _ .vmem, ⟨84, _⟩ => ⟨S2000x256, .f32⟩
  | .local _ .vmem, ⟨85, _⟩ => ⟨S256x256, .f32⟩
  | .local _ .vmem, ⟨86, _⟩ => ⟨S256x256, .f32⟩
  | .local _ .vmem, ⟨87, _⟩ => ⟨S1x256, .f32⟩
  | .local _ .vmem, ⟨88, _⟩ => ⟨S2000x256, .f32⟩
  | .local _ .vmem, ⟨89, _⟩ => ⟨S2000x256, .f32⟩
  | .local _ .vmem, ⟨90, _⟩ => ⟨S64x288, .f32⟩
  | .local _ .vmem, ⟨91, _⟩ => ⟨S288x128, .f32⟩
  | .local _ .vmem, ⟨92, _⟩ => ⟨S1x128, .f32⟩
  | .local _ .vmem, ⟨93, _⟩ => ⟨S128x16, .f32⟩
  | .local _ .vmem, ⟨94, _⟩ => ⟨S1x16, .f32⟩
  | .local _ .vmem, ⟨95, _⟩ => ⟨S64x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_call0_v0 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_c_4 : Ref sig .tc := ⟨.hbm, 61, rfl⟩
abbrev main_v32 : Ref sig .tc := ⟨.hbm, 62, rfl⟩
abbrev main_v33 : Ref sig .tc := ⟨.hbm, 63, rfl⟩
abbrev main_c_5 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_6 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_7 : Ref sig .tc := ⟨.hbm, 74, rfl⟩
abbrev main_v42 : Ref sig .tc := ⟨.hbm, 75, rfl⟩
abbrev main_cst_8 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_call1_v0 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_10 : Ref sig .tc := ⟨.hbm, 94, rfl⟩
abbrev main_v58 : Ref sig .tc := ⟨.hbm, 95, rfl⟩
abbrev main_v59 : Ref sig .tc := ⟨.hbm, 96, rfl⟩
abbrev main_c_11 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_12 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_13 : Ref sig .tc := ⟨.hbm, 107, rfl⟩
abbrev main_v68 : Ref sig .tc := ⟨.hbm, 108, rfl⟩
abbrev main_cst_14 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_15 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_call2_v0 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_16 : Ref sig .tc := ⟨.hbm, 127, rfl⟩
abbrev main_v84 : Ref sig .tc := ⟨.hbm, 128, rfl⟩
abbrev main_v85 : Ref sig .tc := ⟨.hbm, 129, rfl⟩
abbrev main_c_17 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_18 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_19 : Ref sig .tc := ⟨.hbm, 140, rfl⟩
abbrev main_v94 : Ref sig .tc := ⟨.hbm, 141, rfl⟩
abbrev main_cst_20 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_cst_21 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_call3_v0 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_cst_22 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_c_23 : Ref sig .tc := ⟨.hbm, 165, rfl⟩
abbrev main_v114 : Ref sig .tc := ⟨.hbm, 166, rfl⟩
abbrev main_v115 : Ref sig .tc := ⟨.hbm, 167, rfl⟩
abbrev main_c_24 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_25 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_cst_26 : Ref sig .tc := ⟨.hbm, 178, rfl⟩
abbrev main_v124 : Ref sig .tc := ⟨.hbm, 179, rfl⟩
abbrev main_cst_27 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_cst_28 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_call4_v0 : Ref sig .tc := ⟨.hbm, 190, rfl⟩
abbrev main_v133 : Ref sig .tc := ⟨.hbm, 191, rfl⟩
abbrev main_call5_cst : Ref sig .tc := ⟨.hbm, 192, rfl⟩
abbrev main_call5_v0 : Ref sig .tc := ⟨.hbm, 193, rfl⟩
abbrev main_v134 : Ref sig .tc := ⟨.hbm, 194, rfl⟩
abbrev main_call6_cst : Ref sig .tc := ⟨.hbm, 195, rfl⟩
abbrev main_call6_v0 : Ref sig .tc := ⟨.hbm, 196, rfl⟩
abbrev main_v135 : Ref sig .tc := ⟨.hbm, 197, rfl⟩
abbrev main_call7_cst : Ref sig .tc := ⟨.hbm, 198, rfl⟩
abbrev main_call7_v0 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_c_29 : Ref sig .tc := ⟨.hbm, 207, rfl⟩
abbrev main_v143 : Ref sig .tc := ⟨.hbm, 208, rfl⟩
abbrev main_v144 : Ref sig .tc := ⟨.hbm, 209, rfl⟩
abbrev main_c_30 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_31 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_cst_32 : Ref sig .tc := ⟨.hbm, 220, rfl⟩
abbrev main_v153 : Ref sig .tc := ⟨.hbm, 221, rfl⟩
abbrev main_cst_33 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_cst_34 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_call8_v0 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_c_35 : Ref sig .tc := ⟨.hbm, 240, rfl⟩
abbrev main_v169 : Ref sig .tc := ⟨.hbm, 241, rfl⟩
abbrev main_v170 : Ref sig .tc := ⟨.hbm, 242, rfl⟩
abbrev main_c_36 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_cst_37 : Ref sig .tc := ⟨.hbm, 249, rfl⟩
abbrev main_v176 : Ref sig .tc := ⟨.hbm, 250, rfl⟩
abbrev main_v177 : Ref sig .tc := ⟨.hbm, 251, rfl⟩
abbrev main_v178 : Ref sig .tc := ⟨.hbm, 252, rfl⟩
abbrev main_cst_38 : Ref sig .tc := ⟨.hbm, 253, rfl⟩
abbrev main_v179 : Ref sig .tc := ⟨.hbm, 254, rfl⟩
abbrev main_cst_39 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_cst_40 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_call9_v0 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_c_41 : Ref sig .tc := ⟨.hbm, 273, rfl⟩
abbrev main_v195 : Ref sig .tc := ⟨.hbm, 274, rfl⟩
abbrev main_v196 : Ref sig .tc := ⟨.hbm, 275, rfl⟩
abbrev main_c_42 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_43 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_44 : Ref sig .tc := ⟨.hbm, 286, rfl⟩
abbrev main_v205 : Ref sig .tc := ⟨.hbm, 287, rfl⟩
abbrev main_cst_45 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_cst_46 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_call10_v0 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_c_47 : Ref sig .tc := ⟨.hbm, 306, rfl⟩
abbrev main_v221 : Ref sig .tc := ⟨.hbm, 307, rfl⟩
abbrev main_v222 : Ref sig .tc := ⟨.hbm, 308, rfl⟩
abbrev main_c_48 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_cst_49 : Ref sig .tc := ⟨.hbm, 315, rfl⟩
abbrev main_v228 : Ref sig .tc := ⟨.hbm, 316, rfl⟩
abbrev main_v229 : Ref sig .tc := ⟨.hbm, 317, rfl⟩
abbrev main_v230 : Ref sig .tc := ⟨.hbm, 318, rfl⟩
abbrev main_cst_50 : Ref sig .tc := ⟨.hbm, 319, rfl⟩
abbrev main_v231 : Ref sig .tc := ⟨.hbm, 320, rfl⟩
abbrev main_cst_51 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_cst_52 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_call11_v0 : Ref sig .tc := ⟨.hbm, 331, rfl⟩
abbrev main_v240 : Ref sig .tc := ⟨.hbm, 332, rfl⟩
abbrev main_v241 : Ref sig .tc := ⟨.hbm, 333, rfl⟩
abbrev main_v242 : Ref sig .tc := ⟨.hbm, 334, rfl⟩
abbrev main_cst_53 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_c_54 : Ref sig .tc := ⟨.hbm, 344, rfl⟩
abbrev main_v251 : Ref sig .tc := ⟨.hbm, 345, rfl⟩
abbrev main_v252 : Ref sig .tc := ⟨.hbm, 346, rfl⟩
abbrev main_c_55 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_cst_56 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_cst_57 : Ref sig .tc := ⟨.hbm, 357, rfl⟩
abbrev main_v261 : Ref sig .tc := ⟨.hbm, 358, rfl⟩
abbrev main_cst_58 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_cst_59 : Ref sig .tc := ⟨.hbm, 363, rfl⟩
abbrev main_v265 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_call12_v0 : Ref sig .tc := ⟨.hbm, 369, rfl⟩
abbrev main_v270 : Ref sig .tc := ⟨.hbm, 370, rfl⟩
abbrev main_call13_cst : Ref sig .tc := ⟨.hbm, 371, rfl⟩
abbrev main_call13_v0 : Ref sig .tc := ⟨.hbm, 372, rfl⟩
abbrev main_v271 : Ref sig .tc := ⟨.hbm, 373, rfl⟩
abbrev main_call14_cst : Ref sig .tc := ⟨.hbm, 374, rfl⟩
abbrev main_call14_v0 : Ref sig .tc := ⟨.hbm, 375, rfl⟩
abbrev main_v272 : Ref sig .tc := ⟨.hbm, 376, rfl⟩
abbrev main_call15_cst : Ref sig .tc := ⟨.hbm, 377, rfl⟩
abbrev main_call15_v0 : Ref sig .tc := ⟨.hbm, 378, rfl⟩
abbrev main_v273 : Ref sig .tc := ⟨.hbm, 379, rfl⟩
abbrev main_cst_60 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_cst_61 : Ref sig .tc := ⟨.hbm, 384, rfl⟩
abbrev main_v277 : Ref sig .tc := ⟨.hbm, 385, rfl⟩
abbrev main_cst_62 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_cst_63 : Ref sig .tc := ⟨.hbm, 390, rfl⟩
abbrev main_v281 : Ref sig .tc := ⟨.hbm, 391, rfl⟩
abbrev main_v282 : Ref sig .tc := ⟨.hbm, 392, rfl⟩
abbrev main_v283 : Ref sig .tc := ⟨.hbm, 393, rfl⟩
abbrev main_v284 : Ref sig .tc := ⟨.hbm, 394, rfl⟩
abbrev main_v285 : Ref sig .tc := ⟨.hbm, 395, rfl⟩
abbrev main_v286 : Ref sig .tc := ⟨.hbm, 396, rfl⟩
abbrev main_call16_v0 : Ref sig .tc := ⟨.hbm, 397, rfl⟩
abbrev main_call16_v1 : Ref sig .tc := ⟨.hbm, 398, rfl⟩
abbrev main_v287 : Ref sig .tc := ⟨.hbm, 399, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg3_0 : Ref sig .tc := ⟨.vmem, 77, rfl⟩
abbrev cc8_stg4_0 : Ref sig .tc := ⟨.vmem, 78, rfl⟩
abbrev cc8_stg5_0 : Ref sig .tc := ⟨.vmem, 79, rfl⟩
abbrev cc8_stg5_1 : Ref sig .tc := ⟨.vmem, 80, rfl⟩
abbrev cc9_stg0_0 : Ref sig .tc := ⟨.vmem, 81, rfl⟩
abbrev cc9_stg0_1 : Ref sig .tc := ⟨.vmem, 82, rfl⟩
abbrev cc9_stg1_0 : Ref sig .tc := ⟨.vmem, 83, rfl⟩
abbrev cc9_stg1_1 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg1_0 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem5_1 : DmaSem sig := 80
abbrev cc9_sem0_0 : DmaSem sig := 81
abbrev cc9_sem0_1 : DmaSem sig := 82
abbrev cc9_sem1_0 : DmaSem sig := 83
abbrev cc9_sem1_1 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem1_0 : DmaSem sig := 91
abbrev cc10_sem2_0 : DmaSem sig := 92
abbrev cc10_sem3_0 : DmaSem sig := 93
abbrev cc10_sem4_0 : DmaSem sig := 94
abbrev cc10_sem5_0 : DmaSem sig := 95

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![30], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S256x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S256x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S2000x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S64x288 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S288x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S128x16 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x16 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S64x16 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  slices_S2x5x256x256_S1x1x256x256_0_0_0_0 : S2x5x256x256.Slices ![0, 0, 0, 0] S1x1x256x256
  shapeCasts_S1x1x256x256_S256x256 : S1x1x256x256.ShapeCasts S256x256
  slices_S2x5x256_S1x1x256_0_0_0 : S2x5x256.Slices ![0, 0, 0] S1x1x256
  shapeCasts_S1x1x256_S256 : S1x1x256.ShapeCasts S256
  bcast_S_S250000 : S_.BroadcastsInDim S250000 (![] : Fin 0 → Fin S250000.rank)
  bcast_S250000_S250000x1_0 : S250000.BroadcastsInDim S250000x1 (![0] : Fin 1 → Fin S250000x1.rank)
  bcast_S_S60000x256 : S_.BroadcastsInDim S60000x256 (![] : Fin 0 → Fin S60000x256.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x256_0_1 : S60000x1.BroadcastsInDim S60000x256 (![0, 1] : Fin 2 → Fin S60000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2x5x256x256_S1x1x256x256_0_1_0_0 : S2x5x256x256.Slices ![0, 1, 0, 0] S1x1x256x256
  slices_S2x5x256_S1x1x256_0_1_0 : S2x5x256.Slices ![0, 1, 0] S1x1x256
  bcast_S_S40000x256 : S_.BroadcastsInDim S40000x256 (![] : Fin 0 → Fin S40000x256.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  slices_S2x5x256x256_S1x1x256x256_0_2_0_0 : S2x5x256x256.Slices ![0, 2, 0, 0] S1x1x256x256
  slices_S2x5x256_S1x1x256_0_2_0 : S2x5x256.Slices ![0, 2, 0] S1x1x256
  slices_S2x5x256x256_S1x1x256x256_0_3_0_0 : S2x5x256x256.Slices ![0, 3, 0, 0] S1x1x256x256
  slices_S2x5x256_S1x1x256_0_3_0 : S2x5x256.Slices ![0, 3, 0] S1x1x256
  slices_S2x5x256x256_S1x1x256x256_0_4_0_0 : S2x5x256x256.Slices ![0, 4, 0, 0] S1x1x256x256
  slices_S2x5x256_S1x1x256_0_4_0 : S2x5x256.Slices ![0, 4, 0] S1x1x256
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S2x5x256x256_S1x1x256x256_1_0_0_0 : S2x5x256x256.Slices ![1, 0, 0, 0] S1x1x256x256
  slices_S2x5x256_S1x1x256_1_0_0 : S2x5x256.Slices ![1, 0, 0] S1x1x256
  slices_S2x5x256x256_S1x1x256x256_1_1_0_0 : S2x5x256x256.Slices ![1, 1, 0, 0] S1x1x256x256
  slices_S2x5x256_S1x1x256_1_1_0 : S2x5x256.Slices ![1, 1, 0] S1x1x256
  slices_S2x5x256x256_S1x1x256x256_1_2_0_0 : S2x5x256x256.Slices ![1, 2, 0, 0] S1x1x256x256
  slices_S2x5x256_S1x1x256_1_2_0 : S2x5x256.Slices ![1, 2, 0] S1x1x256
  slices_S2x5x256x256_S1x1x256x256_1_3_0_0 : S2x5x256x256.Slices ![1, 3, 0, 0] S1x1x256x256
  slices_S2x5x256_S1x1x256_1_3_0 : S2x5x256.Slices ![1, 3, 0] S1x1x256
  slices_S2x5x256x256_S1x1x256x256_1_4_0_0 : S2x5x256x256.Slices ![1, 4, 0, 0] S1x1x256x256
  slices_S2x5x256_S1x1x256_1_4_0 : S2x5x256.Slices ![1, 4, 0] S1x1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x32_S64x288_d1 : Shape.Concatenates [S64x256, S64x32] S64x288 1
  shapeCasts_S128_S1x128 : S128.ShapeCasts S1x128
  shapeCasts_S16_S1x16 : S16.ShapeCasts S1x16
  inb_S64x288_S64x288_0_0 : ∀ a, (![0, 0] : Fin 2 → Nat) a + S64x288.size a ≤ S64x288.size a
  h_S64x288 : 0 < S64x288.numel
  shapeCasts_S64x288_S64x288 : S64x288.ShapeCasts S64x288
  inb_S288x128_S288x128_0_0 : ∀ a, (![0, 0] : Fin 2 → Nat) a + S288x128.size a ≤ S288x128.size a
  h_S288x128 : 0 < S288x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  gather_S100000x256_S250000x1_S250000x256_1_0_n_n_0_1_1256_wf : GatherDims.WF S100000x256 S250000x1 S250000x256 [1] [0] [] [0] [] 1 ![1, 256]
  scatter_S60000x256_S250000x1_S250000x256_1_0_0_1_wf : ScatterDims.WF S60000x256 S250000x1 S250000x256 [1] [0] [0] 1
  scatter_S60000_S250000x1_S250000_n_0_0_1_wf : ScatterDims.WF S60000 S250000x1 S250000 [] [0] [0] 1
  dot_S2000x256_S256x256_S2000x256_1_0_0_1_n_n_wf : DotDims.WF S2000x256 S256x256 S2000x256 [1] [0] [0] [1] [] []
  gather_S40000x256_S250000x1_S250000x256_1_0_n_n_0_1_1256_wf : GatherDims.WF S40000x256 S250000x1 S250000x256 [1] [0] [] [0] [] 1 ![1, 256]
  scatter_S40000x256_S250000x1_S250000x256_1_0_0_1_wf : ScatterDims.WF S40000x256 S250000x1 S250000x256 [1] [0] [0] 1
  scatter_S40000_S250000x1_S250000_n_0_0_1_wf : ScatterDims.WF S40000 S250000x1 S250000 [] [0] [0] 1
  gather_S60000x256_S250000x1_S250000x256_1_0_n_n_0_1_1256_wf : GatherDims.WF S60000x256 S250000x1 S250000x256 [1] [0] [] [0] [] 1 ![1, 256]
  scatter_S100000x256_S250000x1_S250000x256_1_0_0_1_wf : ScatterDims.WF S100000x256 S250000x1 S250000x256 [1] [0] [0] 1
  scatter_S100000_S250000x1_S250000_n_0_0_1_wf : ScatterDims.WF S100000 S250000x1 S250000 [] [0] [0] 1
  scatter_S64x256_S40000x1_S40000x256_1_0_0_1_wf : ScatterDims.WF S64x256 S40000x1 S40000x256 [1] [0] [0] 1
  scatter_S64_S40000x1_S40000_n_0_0_1_wf : ScatterDims.WF S64 S40000x1 S40000 [] [0] [0] 1
  dot_S64x288_S288x128_S64x128_1_0_0_1_n_n_wf : DotDims.WF S64x288 S288x128 S64x128 [1] [0] [0] [1] [] []
  dot_S64x128_S128x16_S64x16_1_0_0_1_n_n_wf : DotDims.WF S64x128 S128x16 S64x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S60000x256.size a
  hwx0_0 : ∀ i : grid0.Coords, EltTy.bits .f32 = 32 ∨ (Rect.block (s := S60000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S60000x256.size a
  hwx0_1 : ∀ i : grid0.Coords, EltTy.bits .f32 = 32 ∨ (Rect.block (s := S60000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S60000x256.size a
  hwx0_5 : ∀ i : grid0.Coords, EltTy.bits .f32 = 32 ∨ (Rect.block (s := S60000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S40000x256.size a
  hwx1_0 : ∀ i : grid1.Coords, EltTy.bits .f32 = 32 ∨ (Rect.block (s := S40000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S40000x256.size a
  hwx1_1 : ∀ i : grid1.Coords, EltTy.bits .f32 = 32 ∨ (Rect.block (s := S40000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S40000x256.size a
  hwx1_5 : ∀ i : grid1.Coords, EltTy.bits .f32 = 32 ∨ (Rect.block (s := S40000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S40000x256.size a
  hwx2_0 : ∀ i : grid2.Coords, EltTy.bits .f32 = 32 ∨ (Rect.block (s := S40000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S40000x256.size a
  hwx2_1 : ∀ i : grid2.Coords, EltTy.bits .f32 = 32 ∨ (Rect.block (s := S40000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S40000x256.size a
  hwx2_5 : ∀ i : grid2.Coords, EltTy.bits .f32 = 32 ∨ (Rect.block (s := S40000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S40000x256.size a
  hwx3_0 : ∀ i : grid3.Coords, EltTy.bits .f32 = 32 ∨ (Rect.block (s := S40000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S40000x256.size a
  hwx3_1 : ∀ i : grid3.Coords, EltTy.bits .f32 = 32 ∨ (Rect.block (s := S40000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S40000x256.size a
  hwx3_5 : ∀ i : grid3.Coords, EltTy.bits .f32 = 32 ∨ (Rect.block (s := S40000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S100000x256.size a
  hwx4_1 : ∀ i : grid4.Coords, EltTy.bits .f32 = 32 ∨ (Rect.block (s := S100000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S100000x256.size a
  hwx4_5 : ∀ i : grid4.Coords, EltTy.bits .f32 = 32 ∨ (Rect.block (s := S100000x256) S2000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S60000x256.size a
  hwx5_0 : ∀ i : grid5.Coords, EltTy.bits .f32 = 32 ∨ (Rect.block (s := S60000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S60000x256.size a
  hwx5_1 : ∀ i : grid5.Coords, EltTy.bits .f32 = 32 ∨ (Rect.block (s := S60000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S60000x256.size a
  hwx5_5 : ∀ i : grid5.Coords, EltTy.bits .f32 = 32 ∨ (Rect.block (s := S60000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S40000x256.size a
  hwx6_0 : ∀ i : grid6.Coords, EltTy.bits .f32 = 32 ∨ (Rect.block (s := S40000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S40000x256.size a
  hwx6_1 : ∀ i : grid6.Coords, EltTy.bits .f32 = 32 ∨ (Rect.block (s := S40000x256) S2000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x256.size a ≤ S40000x256.size a
  hwx6_5 : ∀ i : grid6.Coords, EltTy.bits .f32 = 32 ∨ (Rect.block (s := S40000x256) S2000x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S40000x256.size a
  hwx7_0 : ∀ i : grid7.Coords, EltTy.bits .f32 = 32 ∨ (Rect.block (s := S40000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S40000x256.size a
  hwx7_1 : ∀ i : grid7.Coords, EltTy.bits .f32 = 32 ∨ (Rect.block (s := S40000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x256.size a ≤ S256x256.size a
  hwx7_2 : ∀ i : grid7.Coords, EltTy.bits .f32 = 32 ∨ (Rect.block (s := S256x256) S256x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .f32 = 32 ∨ (Rect.block (s := S256x256) S256x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x256.size a ≤ S40000x256.size a
  hwx7_5 : ∀ i : grid7.Coords, EltTy.bits .f32 = 32 ∨ (Rect.block (s := S40000x256) S2000x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S40000x256.size a
  hwx8_0 : ∀ i : grid8.Coords, EltTy.bits .f32 = 32 ∨ (Rect.block (s := S40000x256) S2000x256.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x256.size a ≤ S40000x256.size a
  hwx8_1 : ∀ i : grid8.Coords, EltTy.bits .f32 = 32 ∨ (Rect.block (s := S40000x256) S2000x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256x256.size a ≤ S256x256.size a
  hwx8_2 : ∀ i : grid8.Coords, EltTy.bits .f32 = 32 ∨ (Rect.block (s := S256x256) S256x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x256.size a ≤ S256x256.size a
  hwx8_3 : ∀ i : grid8.Coords, EltTy.bits .f32 = 32 ∨ (Rect.block (s := S256x256) S256x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S40000x256.size a
  hwx8_5 : ∀ i : grid8.Coords, EltTy.bits .f32 = 32 ∨ (Rect.block (s := S40000x256) S2000x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x256.size a ≤ S100000x256.size a
  hwx9_0 : ∀ i : grid9.Coords, EltTy.bits .f32 = 32 ∨ (Rect.block (s := S100000x256) S2000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x256.size a ≤ S100000x256.size a
  hwx9_1 : ∀ i : grid9.Coords, EltTy.bits .f32 = 32 ∨ (Rect.block (s := S100000x256) S2000x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S256x256.size a ≤ S256x256.size a
  hwx9_2 : ∀ i : grid9.Coords, EltTy.bits .f32 = 32 ∨ (Rect.block (s := S256x256) S256x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x256.size a ≤ S100000x256.size a
  hwx9_5 : ∀ i : grid9.Coords, EltTy.bits .f32 = 32 ∨ (Rect.block (s := S100000x256) S2000x256.size (cc9_transform_5 i) (hinb9_5 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S64x288.size a ≤ S64x288.size a
  hwx10_0 : ∀ i : grid10.Coords, EltTy.bits .f32 = 32 ∨ (Rect.block (s := S64x288) S64x288.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S288x128.size a ≤ S288x128.size a
  hwx10_1 : ∀ i : grid10.Coords, EltTy.bits .f32 = 32 ∨ (Rect.block (s := S288x128) S288x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S128x16.size a ≤ S128x16.size a
  hwx10_3 : ∀ i : grid10.Coords, EltTy.bits .f32 = 32 ∨ (Rect.block (s := S128x16) S128x16.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x16.size a ≤ S1x16.size a
  hwx10_4 : ∀ i : grid10.Coords, EltTy.bits .f32 = 32 ∨ (Rect.block (s := S1x16) S1x16.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S64x16.size a ≤ S64x16.size a
  hwx10_5 : ∀ i : grid10.Coords, EltTy.bits .f32 = 32 ∨ (Rect.block (s := S64x16) S64x16.size (cc10_transform_5 i) (hinb10_5 i)).WholeWords (EltTy.packing .f32)

variable [Facts₀]

def gather_S100000x256_S250000x1_S250000x256_1_0_n_n_0_1_1256 : GatherDims S100000x256 S250000x1 S250000x256 where
  offsetDims := [1]
  collapsedSliceDims := [0]
  operandBatchingDims := []
  startIndicesBatchingDims := []
  startIndexMap := [0]
  indexVectorDim := 1
  sliceSizes := ![1, 256]
  wf := gather_S100000x256_S250000x1_S250000x256_1_0_n_n_0_1_1256_wf
def scatter_S60000x256_S250000x1_S250000x256_1_0_0_1 : ScatterDims S60000x256 S250000x1 S250000x256 where
  updateWindowDims := [1]
  insertedWindowDims := [0]
  scatterDimsToOperandDims := [0]
  indexVectorDim := 1
  wf := scatter_S60000x256_S250000x1_S250000x256_1_0_0_1_wf
def scatter_S60000_S250000x1_S250000_n_0_0_1 : ScatterDims S60000 S250000x1 S250000 where
  updateWindowDims := []
  insertedWindowDims := [0]
  scatterDimsToOperandDims := [0]
  indexVectorDim := 1
  wf := scatter_S60000_S250000x1_S250000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S40000x256_S250000x1_S250000x256_1_0_n_n_0_1_1256 : GatherDims S40000x256 S250000x1 S250000x256 where
  offsetDims := [1]
  collapsedSliceDims := [0]
  operandBatchingDims := []
  startIndicesBatchingDims := []
  startIndexMap := [0]
  indexVectorDim := 1
  sliceSizes := ![1, 256]
  wf := gather_S40000x256_S250000x1_S250000x256_1_0_n_n_0_1_1256_wf
def scatter_S40000x256_S250000x1_S250000x256_1_0_0_1 : ScatterDims S40000x256 S250000x1 S250000x256 where
  updateWindowDims := [1]
  insertedWindowDims := [0]
  scatterDimsToOperandDims := [0]
  indexVectorDim := 1
  wf := scatter_S40000x256_S250000x1_S250000x256_1_0_0_1_wf
def scatter_S40000_S250000x1_S250000_n_0_0_1 : ScatterDims S40000 S250000x1 S250000 where
  updateWindowDims := []
  insertedWindowDims := [0]
  scatterDimsToOperandDims := [0]
  indexVectorDim := 1
  wf := scatter_S40000_S250000x1_S250000_n_0_0_1_wf
def gather_S60000x256_S250000x1_S250000x256_1_0_n_n_0_1_1256 : GatherDims S60000x256 S250000x1 S250000x256 where
  offsetDims := [1]
  collapsedSliceDims := [0]
  operandBatchingDims := []
  startIndicesBatchingDims := []
  startIndexMap := [0]
  indexVectorDim := 1
  sliceSizes := ![1, 256]
  wf := gather_S60000x256_S250000x1_S250000x256_1_0_n_n_0_1_1256_wf
def scatter_S100000x256_S250000x1_S250000x256_1_0_0_1 : ScatterDims S100000x256 S250000x1 S250000x256 where
  updateWindowDims := [1]
  insertedWindowDims := [0]
  scatterDimsToOperandDims := [0]
  indexVectorDim := 1
  wf := scatter_S100000x256_S250000x1_S250000x256_1_0_0_1_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def scatter_S64x256_S40000x1_S40000x256_1_0_0_1 : ScatterDims S64x256 S40000x1 S40000x256 where
  updateWindowDims := [1]
  insertedWindowDims := [0]
  scatterDimsToOperandDims := [0]
  indexVectorDim := 1
  wf := scatter_S64x256_S40000x1_S40000x256_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x288_S288x128_S64x128_1_0_0_1_n_n : DotDims S64x288 S288x128 S64x128 where
  lhsContracting := [1]
  rhsContracting := [0]
  lhsNonContracting := [0]
  rhsNonContracting := [1]
  lhsBatch := []
  rhsBatch := []
  wf := dot_S64x288_S288x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

abbrev win0_0 : Pipeline.Window sig grid0 :=
  Pipeline.Window.ofSpec (Memref.whole main_v24) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call1_v0) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v76) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call2_v0) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v77) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v102) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call3_v0) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v132) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v109) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call4_v0) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v133) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v161) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v136) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v138) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v140) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_call8_v0) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v162) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v187) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v135) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v164) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v166) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call9_v0) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v188) S2000x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v213) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v135) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v190) S256x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v192) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call10_v0) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v214) S2000x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v239) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v135) S2000x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v216) S256x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v218) S256x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_call11_v0) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v240) S2000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v269) S2000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v134) S2000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v246) S256x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v248) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_call12_v0) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v270) S2000x256.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v286) S64x288.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg18) S288x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_call16_v0) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg20) S128x16.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_call16_v1) S1x16.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v287) S64x16.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x256 : Shape := ⟨2, ![100000, 256]⟩
abbrev S40000x256 : Shape := ⟨2, ![40000, 256]⟩
abbrev S60000x256 : Shape := ⟨2, ![60000, 256]⟩
abbrev S250000 : Shape := ⟨1, ![250000]⟩
abbrev S40000 : Shape := ⟨1, ![40000]⟩
abbrev S64x32 : Shape := ⟨2, ![64, 32]⟩
abbrev S2x5x256x256 : Shape := ⟨4, ![2, 5, 256, 256]⟩
abbrev S2x5x256 : Shape := ⟨3, ![2, 5, 256]⟩
abbrev S288x128 : Shape := ⟨2, ![288, 128]⟩
abbrev S128 : Shape := ⟨1, ![128]⟩
abbrev S128x16 : Shape := ⟨2, ![128, 16]⟩
abbrev S16 : Shape := ⟨1, ![16]⟩
abbrev S1x1x256x256 : Shape := ⟨4, ![1, 1, 256, 256]⟩
abbrev S256x256 : Shape := ⟨2, ![256, 256]⟩
abbrev S1x1x256 : Shape := ⟨3, ![1, 1, 256]⟩
abbrev S256 : Shape := ⟨1, ![256]⟩
abbrev S_ : Shape := ⟨0, ![]⟩
abbrev S250000x1 : Shape := ⟨2, ![250000, 1]⟩
abbrev S250000x256 : Shape := ⟨2, ![250000, 256]⟩
abbrev S60000 : Shape := ⟨1, ![60000]⟩
abbrev S60000x1 : Shape := ⟨2, ![60000, 1]⟩
abbrev S1x256 : Shape := ⟨2, ![1, 256]⟩
abbrev S40000x1 : Shape := ⟨2, ![40000, 1]⟩
abbrev S100000 : Shape := ⟨1, ![100000]⟩
abbrev S100000x1 : Shape := ⟨2, ![100000, 1]⟩
abbrev S64x256 : Shape := ⟨2, ![64, 256]⟩
abbrev S64 : Shape := ⟨1, ![64]⟩
abbrev S64x1 : Shape := ⟨2, ![64, 1]⟩
abbrev S64x288 : Shape := ⟨2, ![64, 288]⟩
abbrev S64x128 : Shape := ⟨2, ![64, 128]⟩
abbrev S1x128 : Shape := ⟨2, ![1, 128]⟩
abbrev S64x16 : Shape := ⟨2, ![64, 16]⟩
abbrev S1x16 : Shape := ⟨2, ![1, 16]⟩

abbrev nBuf : Space → Nat
  | .hbm => 448
  | .vmem => 0
  | .smem => 0
  | _ => 0

abbrev hbmTy0_0 (i : Nat) : BufTy := match i % 128 with
  | 0 => ⟨S100000x256, .f32⟩
  | 1 => ⟨S40000x256, .f32⟩
  | 2 => ⟨S60000x256, .f32⟩
  | 3 => ⟨S250000, .i32⟩
  | 4 => ⟨S250000, .i32⟩
  | 5 => ⟨S250000, .i32⟩
  | 6 => ⟨S250000, .i32⟩
  | 7 => ⟨S250000, .i32⟩
  | 8 => ⟨S250000, .i32⟩
  | 9 => ⟨S250000, .i32⟩
  | 10 => ⟨S250000, .i32⟩
  | 11 => ⟨S250000, .i32⟩
  | 12 => ⟨S250000, .i32⟩
  | 13 => ⟨S40000, .i32⟩
  | 14 => ⟨S64x32, .f32⟩
  | 15 => ⟨S2x5x256x256, .f32⟩
  | 16 => ⟨S2x5x256x256, .f32⟩
  | 17 => ⟨S2x5x256, .f32⟩
  | 18 => ⟨S288x128, .f32⟩
  | 19 => ⟨S128, .f32⟩
  | 20 => ⟨S128x16, .f32⟩
  | 21 => ⟨S16, .f32⟩
  | 22 => ⟨S1x1x256x256, .f32⟩
  | 23 => ⟨S256x256, .f32⟩
  | 24 => ⟨S1x1x256x256, .f32⟩
  | 25 => ⟨S256x256, .f32⟩
  | 26 => ⟨S1x1x256, .f32⟩
  | 27 => ⟨S256, .f32⟩
  | 28 => ⟨S_, .i32⟩
  | 29 => ⟨S250000, .i32⟩
  | 30 => ⟨S250000, .i1⟩
  | 31 => ⟨S_, .i32⟩
  | 32 => ⟨S250000, .i32⟩
  | 33 => ⟨S250000, .i32⟩
  | 34 => ⟨S250000, .i32⟩
  | 35 => ⟨S250000x1, .i32⟩
  | 36 => ⟨S250000x256, .f32⟩
  | 37 => ⟨S_, .f32⟩
  | 38 => ⟨S60000x256, .f32⟩
  | 39 => ⟨S250000x1, .i32⟩
  | 40 => ⟨S60000x256, .f32⟩
  | 41 => ⟨S_, .f32⟩
  | 42 => ⟨S250000, .f32⟩
  | 43 => ⟨S_, .f32⟩
  | 44 => ⟨S60000, .f32⟩
  | 45 => ⟨S250000x1, .i32⟩
  | 46 => ⟨S60000, .f32⟩
  | 47 => ⟨S_, .f32⟩
  | 48 => ⟨S60000, .f32⟩
  | 49 => ⟨S60000, .f32⟩
  | 50 => ⟨S60000x1, .f32⟩
  | 51 => ⟨S60000x256, .f32⟩
  | 52 => ⟨S60000x256, .f32⟩
  | 53 => ⟨S60000x256, .f32⟩
  | 54 => ⟨S1x256, .f32⟩
  | 55 => ⟨S60000x256, .f32⟩
  | 56 => ⟨S60000x256, .f32⟩
  | 57 => ⟨S60000x256, .f32⟩
  | 58 => ⟨S60000x256, .f32⟩
  | 59 => ⟨S1x1x256x256, .f32⟩
  | 60 => ⟨S256x256, .f32⟩
  | 61 => ⟨S1x1x256x256, .f32⟩
  | 62 => ⟨S256x256, .f32⟩
  | 63 => ⟨S1x1x256, .f32⟩
  | 64 => ⟨S256, .f32⟩
  | 65 => ⟨S_, .i32⟩
  | 66 => ⟨S250000, .i32⟩
  | 67 => ⟨S250000, .i1⟩
  | 68 => ⟨S_, .i32⟩
  | 69 => ⟨S250000, .i32⟩
  | 70 => ⟨S250000, .i32⟩
  | 71 => ⟨S250000, .i32⟩
  | 72 => ⟨S250000x1, .i32⟩
  | 73 => ⟨S250000x256, .f32⟩
  | 74 => ⟨S_, .f32⟩
  | 75 => ⟨S40000x256, .f32⟩
  | 76 => ⟨S250000x1, .i32⟩
  | 77 => ⟨S40000x256, .f32⟩
  | 78 => ⟨S_, .f32⟩
  | 79 => ⟨S250000, .f32⟩
  | 80 => ⟨S_, .f32⟩
  | 81 => ⟨S40000, .f32⟩
  | 82 => ⟨S250000x1, .i32⟩
  | 83 => ⟨S40000, .f32⟩
  | 84 => ⟨S_, .f32⟩
  | 85 => ⟨S40000, .f32⟩
  | 86 => ⟨S40000, .f32⟩
  | 87 => ⟨S40000x1, .f32⟩
  | 88 => ⟨S40000x256, .f32⟩
  | 89 => ⟨S40000x256, .f32⟩
  | 90 => ⟨S40000x256, .f32⟩
  | 91 => ⟨S1x256, .f32⟩
  | 92 => ⟨S40000x256, .f32⟩
  | 93 => ⟨S40000x256, .f32⟩
  | 94 => ⟨S40000x256, .f32⟩
  | 95 => ⟨S40000x256, .f32⟩
  | 96 => ⟨S1x1x256x256, .f32⟩
  | 97 => ⟨S256x256, .f32⟩
  | 98 => ⟨S1x1x256x256, .f32⟩
  | 99 => ⟨S256x256, .f32⟩
  | 100 => ⟨S1x1x256, .f32⟩
  | 101 => ⟨S256, .f32⟩
  | 102 => ⟨S_, .i32⟩
  | 103 => ⟨S250000, .i32⟩
  | 104 => ⟨S250000, .i1⟩
  | 105 => ⟨S_, .i32⟩
  | 106 => ⟨S250000, .i32⟩
  | 107 => ⟨S250000, .i32⟩
  | 108 => ⟨S250000, .i32⟩
  | 109 => ⟨S250000x1, .i32⟩
  | 110 => ⟨S250000x256, .f32⟩
  | 111 => ⟨S_, .f32⟩
  | 112 => ⟨S40000x256, .f32⟩
  | 113 => ⟨S250000x1, .i32⟩
  | 114 => ⟨S40000x256, .f32⟩
  | 115 => ⟨S_, .f32⟩
  | 116 => ⟨S250000, .f32⟩
  | 117 => ⟨S_, .f32⟩
  | 118 => ⟨S40000, .f32⟩
  | 119 => ⟨S250000x1, .i32⟩
  | 120 => ⟨S40000, .f32⟩
  | 121 => ⟨S_, .f32⟩
  | 122 => ⟨S40000, .f32⟩
  | 123 => ⟨S40000, .f32⟩
  | 124 => ⟨S40000x1, .f32⟩
  | 125 => ⟨S40000x256, .f32⟩
  | 126 => ⟨S40000x256, .f32⟩
  | 127 => ⟨S40000x256, .f32⟩
  | _ => ⟨S100000x256, .f32⟩

abbrev hbmTy0_1 (i : Nat) : BufTy := match i % 128 with
  | 0 => ⟨S1x256, .f32⟩
  | 1 => ⟨S40000x256, .f32⟩
  | 2 => ⟨S40000x256, .f32⟩
  | 3 => ⟨S40000x256, .f32⟩
  | 4 => ⟨S40000x256, .f32⟩
  | 5 => ⟨S1x1x256x256, .f32⟩
  | 6 => ⟨S256x256, .f32⟩
  | 7 => ⟨S1x1x256x256, .f32⟩
  | 8 => ⟨S256x256, .f32⟩
  | 9 => ⟨S1x1x256, .f32⟩
  | 10 => ⟨S256, .f32⟩
  | 11 => ⟨S_, .i32⟩
  | 12 => ⟨S250000, .i32⟩
  | 13 => ⟨S250000, .i1⟩
  | 14 => ⟨S_, .i32⟩
  | 15 => ⟨S250000, .i32⟩
  | 16 => ⟨S250000, .i32⟩
  | 17 => ⟨S250000, .i32⟩
  | 18 => ⟨S250000x1, .i32⟩
  | 19 => ⟨S250000x256, .f32⟩
  | 20 => ⟨S_, .f32⟩
  | 21 => ⟨S40000x256, .f32⟩
  | 22 => ⟨S250000x1, .i32⟩
  | 23 => ⟨S40000x256, .f32⟩
  | 24 => ⟨S_, .f32⟩
  | 25 => ⟨S250000, .f32⟩
  | 26 => ⟨S_, .f32⟩
  | 27 => ⟨S40000, .f32⟩
  | 28 => ⟨S250000x1, .i32⟩
  | 29 => ⟨S40000, .f32⟩
  | 30 => ⟨S_, .f32⟩
  | 31 => ⟨S40000, .f32⟩
  | 32 => ⟨S40000, .f32⟩
  | 33 => ⟨S40000x1, .f32⟩
  | 34 => ⟨S40000x256, .f32⟩
  | 35 => ⟨S40000x256, .f32⟩
  | 36 => ⟨S40000x256, .f32⟩
  | 37 => ⟨S1x256, .f32⟩
  | 38 => ⟨S40000x256, .f32⟩
  | 39 => ⟨S40000x256, .f32⟩
  | 40 => ⟨S40000x256, .f32⟩
  | 41 => ⟨S40000x256, .f32⟩
  | 42 => ⟨S40000x256, .f32⟩
  | 43 => ⟨S40000x256, .f32⟩
  | 44 => ⟨S_, .f32⟩
  | 45 => ⟨S40000x256, .f32⟩
  | 46 => ⟨S40000x256, .f32⟩
  | 47 => ⟨S1x1x256x256, .f32⟩
  | 48 => ⟨S256x256, .f32⟩
  | 49 => ⟨S1x1x256x256, .f32⟩
  | 50 => ⟨S256x256, .f32⟩
  | 51 => ⟨S1x1x256, .f32⟩
  | 52 => ⟨S256, .f32⟩
  | 53 => ⟨S_, .i32⟩
  | 54 => ⟨S250000, .i32⟩
  | 55 => ⟨S250000, .i1⟩
  | 56 => ⟨S_, .i32⟩
  | 57 => ⟨S250000, .i32⟩
  | 58 => ⟨S250000, .i32⟩
  | 59 => ⟨S250000, .i32⟩
  | 60 => ⟨S250000x1, .i32⟩
  | 61 => ⟨S250000x256, .f32⟩
  | 62 => ⟨S_, .f32⟩
  | 63 => ⟨S100000x256, .f32⟩
  | 64 => ⟨S250000x1, .i32⟩
  | 65 => ⟨S100000x256, .f32⟩
  | 66 => ⟨S_, .f32⟩
  | 67 => ⟨S250000, .f32⟩
  | 68 => ⟨S_, .f32⟩
  | 69 => ⟨S100000, .f32⟩
  | 70 => ⟨S250000x1, .i32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x256, .f32⟩
  | 77 => ⟨S100000x256, .f32⟩
  | 78 => ⟨S100000x256, .f32⟩
  | 79 => ⟨S1x256, .f32⟩
  | 80 => ⟨S100000x256, .f32⟩
  | 81 => ⟨S100000x256, .f32⟩
  | 82 => ⟨S100000x256, .f32⟩
  | 83 => ⟨S100000x256, .f32⟩
  | 84 => ⟨S_, .f32⟩
  | 85 => ⟨S100000x256, .f32⟩
  | 86 => ⟨S100000x256, .f32⟩
  | 87 => ⟨S_, .f32⟩
  | 88 => ⟨S40000x256, .f32⟩
  | 89 => ⟨S40000x256, .f32⟩
  | 90 => ⟨S_, .f32⟩
  | 91 => ⟨S60000x256, .f32⟩
  | 92 => ⟨S60000x256, .f32⟩
  | 93 => ⟨S1x1x256x256, .f32⟩
  | 94 => ⟨S256x256, .f32⟩
  | 95 => ⟨S1x1x256x256, .f32⟩
  | 96 => ⟨S256x256, .f32⟩
  | 97 => ⟨S1x1x256, .f32⟩
  | 98 => ⟨S256, .f32⟩
  | 99 => ⟨S_, .i32⟩
  | 100 => ⟨S250000, .i32⟩
  | 101 => ⟨S250000, .i1⟩
  | 102 => ⟨S_, .i32⟩
  | 103 => ⟨S250000, .i32⟩
  | 104 => ⟨S250000, .i32⟩
  | 105 => ⟨S250000, .i32⟩
  | 106 => ⟨S250000x1, .i32⟩
  | 107 => ⟨S250000x256, .f32⟩
  | 108 => ⟨S_, .f32⟩
  | 109 => ⟨S60000x256, .f32⟩
  | 110 => ⟨S250000x1, .i32⟩
  | 111 => ⟨S60000x256, .f32⟩
  | 112 => ⟨S_, .f32⟩
  | 113 => ⟨S250000, .f32⟩
  | 114 => ⟨S_, .f32⟩
  | 115 => ⟨S60000, .f32⟩
  | 116 => ⟨S250000x1, .i32⟩
  | 117 => ⟨S60000, .f32⟩
  | 118 => ⟨S_, .f32⟩
  | 119 => ⟨S60000, .f32⟩
  | 120 => ⟨S60000, .f32⟩
  | 121 => ⟨S60000x1, .f32⟩
  | 122 => ⟨S60000x256, .f32⟩
  | 123 => ⟨S60000x256, .f32⟩
  | 124 => ⟨S60000x256, .f32⟩
  | 125 => ⟨S1x256, .f32⟩
  | 126 => ⟨S60000x256, .f32⟩
  | 127 => ⟨S60000x256, .f32⟩
  | _ => ⟨S100000x256, .f32⟩

abbrev hbmTy0_2 (i : Nat) : BufTy := match i % 128 with
  | 0 => ⟨S60000x256, .f32⟩
  | 1 => ⟨S60000x256, .f32⟩
  | 2 => ⟨S1x1x256x256, .f32⟩
  | 3 => ⟨S256x256, .f32⟩
  | 4 => ⟨S1x1x256x256, .f32⟩
  | 5 => ⟨S256x256, .f32⟩
  | 6 => ⟨S1x1x256, .f32⟩
  | 7 => ⟨S256, .f32⟩
  | 8 => ⟨S_, .i32⟩
  | 9 => ⟨S250000, .i32⟩
  | 10 => ⟨S250000, .i1⟩
  | 11 => ⟨S_, .i32⟩
  | 12 => ⟨S250000, .i32⟩
  | 13 => ⟨S250000, .i32⟩
  | 14 => ⟨S250000, .i32⟩
  | 15 => ⟨S250000x1, .i32⟩
  | 16 => ⟨S250000x256, .f32⟩
  | 17 => ⟨S_, .f32⟩
  | 18 => ⟨S40000x256, .f32⟩
  | 19 => ⟨S250000x1, .i32⟩
  | 20 => ⟨S40000x256, .f32⟩
  | 21 => ⟨S_, .f32⟩
  | 22 => ⟨S250000, .f32⟩
  | 23 => ⟨S_, .f32⟩
  | 24 => ⟨S40000, .f32⟩
  | 25 => ⟨S250000x1, .i32⟩
  | 26 => ⟨S40000, .f32⟩
  | 27 => ⟨S_, .f32⟩
  | 28 => ⟨S40000, .f32⟩
  | 29 => ⟨S40000, .f32⟩
  | 30 => ⟨S40000x1, .f32⟩
  | 31 => ⟨S40000x256, .f32⟩
  | 32 => ⟨S40000x256, .f32⟩
  | 33 => ⟨S40000x256, .f32⟩
  | 34 => ⟨S1x256, .f32⟩
  | 35 => ⟨S40000x256, .f32⟩
  | 36 => ⟨S40000x256, .f32⟩
  | 37 => ⟨S40000x256, .f32⟩
  | 38 => ⟨S40000x256, .f32⟩
  | 39 => ⟨S1x1x256x256, .f32⟩
  | 40 => ⟨S256x256, .f32⟩
  | 41 => ⟨S1x1x256x256, .f32⟩
  | 42 => ⟨S256x256, .f32⟩
  | 43 => ⟨S1x1x256, .f32⟩
  | 44 => ⟨S256, .f32⟩
  | 45 => ⟨S_, .i32⟩
  | 46 => ⟨S250000, .i32⟩
  | 47 => ⟨S250000, .i1⟩
  | 48 => ⟨S_, .i32⟩
  | 49 => ⟨S250000, .i32⟩
  | 50 => ⟨S250000, .i32⟩
  | 51 => ⟨S250000, .i32⟩
  | 52 => ⟨S250000x1, .i32⟩
  | 53 => ⟨S250000x256, .f32⟩
  | 54 => ⟨S_, .f32⟩
  | 55 => ⟨S40000x256, .f32⟩
  | 56 => ⟨S250000x1, .i32⟩
  | 57 => ⟨S40000x256, .f32⟩
  | 58 => ⟨S_, .f32⟩
  | 59 => ⟨S250000, .f32⟩
  | 60 => ⟨S_, .f32⟩
  | 61 => ⟨S40000, .f32⟩
  | 62 => ⟨S250000x1, .i32⟩
  | 63 => ⟨S40000, .f32⟩
  | 64 => ⟨S_, .f32⟩
  | 65 => ⟨S40000, .f32⟩
  | 66 => ⟨S40000, .f32⟩
  | 67 => ⟨S40000x1, .f32⟩
  | 68 => ⟨S40000x256, .f32⟩
  | 69 => ⟨S40000x256, .f32⟩
  | 70 => ⟨S40000x256, .f32⟩
  | 71 => ⟨S1x256, .f32⟩
  | 72 => ⟨S40000x256, .f32⟩
  | 73 => ⟨S40000x256, .f32⟩
  | 74 => ⟨S40000x256, .f32⟩
  | 75 => ⟨S40000x256, .f32⟩
  | 76 => ⟨S1x1x256x256, .f32⟩
  | 77 => ⟨S256x256, .f32⟩
  | 78 => ⟨S1x1x256x256, .f32⟩
  | 79 => ⟨S256x256, .f32⟩
  | 80 => ⟨S1x1x256, .f32⟩
  | 81 => ⟨S256, .f32⟩
  | 82 => ⟨S_, .i32⟩
  | 83 => ⟨S250000, .i32⟩
  | 84 => ⟨S250000, .i1⟩
  | 85 => ⟨S_, .i32⟩
  | 86 => ⟨S250000, .i32⟩
  | 87 => ⟨S250000, .i32⟩
  | 88 => ⟨S250000, .i32⟩
  | 89 => ⟨S250000x1, .i32⟩
  | 90 => ⟨S250000x256, .f32⟩
  | 91 => ⟨S_, .f32⟩
  | 92 => ⟨S40000x256, .f32⟩
  | 93 => ⟨S250000x1, .i32⟩
  | 94 => ⟨S40000x256, .f32⟩
  | 95 => ⟨S_, .f32⟩
  | 96 => ⟨S250000, .f32⟩
  | 97 => ⟨S_, .f32⟩
  | 98 => ⟨S40000, .f32⟩
  | 99 => ⟨S250000x1, .i32⟩
  | 100 => ⟨S40000, .f32⟩
  | 101 => ⟨S_, .f32⟩
  | 102 => ⟨S40000, .f32⟩
  | 103 => ⟨S40000, .f32⟩
  | 104 => ⟨S40000x1, .f32⟩
  | 105 => ⟨S40000x256, .f32⟩
  | 106 => ⟨S40000x256, .f32⟩
  | 107 => ⟨S40000x256, .f32⟩
  | 108 => ⟨S1x256, .f32⟩
  | 109 => ⟨S40000x256, .f32⟩
  | 110 => ⟨S40000x256, .f32⟩
  | 111 => ⟨S40000x256, .f32⟩
  | 112 => ⟨S40000x256, .f32⟩
  | 113 => ⟨S40000x256, .f32⟩
  | 114 => ⟨S40000x256, .f32⟩
  | 115 => ⟨S_, .f32⟩
  | 116 => ⟨S40000x256, .f32⟩
  | 117 => ⟨S40000x256, .f32⟩
  | 118 => ⟨S1x1x256x256, .f32⟩
  | 119 => ⟨S256x256, .f32⟩
  | 120 => ⟨S1x1x256x256, .f32⟩
  | 121 => ⟨S256x256, .f32⟩
  | 122 => ⟨S1x1x256, .f32⟩
  | 123 => ⟨S256, .f32⟩
  | 124 => ⟨S_, .i32⟩
  | 125 => ⟨S250000, .i32⟩
  | 126 => ⟨S250000, .i1⟩
  | 127 => ⟨S_, .i32⟩
  | _ => ⟨S100000x256, .f32⟩

abbrev hbmTy0_3 (i : Nat) : BufTy := match i % 128 with
  | 0 => ⟨S250000, .i32⟩
  | 1 => ⟨S250000, .i32⟩
  | 2 => ⟨S250000, .i32⟩
  | 3 => ⟨S250000x1, .i32⟩
  | 4 => ⟨S250000x256, .f32⟩
  | 5 => ⟨S_, .f32⟩
  | 6 => ⟨S100000x256, .f32⟩
  | 7 => ⟨S250000x1, .i32⟩
  | 8 => ⟨S100000x256, .f32⟩
  | 9 => ⟨S_, .f32⟩
  | 10 => ⟨S250000, .f32⟩
  | 11 => ⟨S_, .f32⟩
  | 12 => ⟨S100000, .f32⟩
  | 13 => ⟨S250000x1, .i32⟩
  | 14 => ⟨S100000, .f32⟩
  | 15 => ⟨S_, .f32⟩
  | 16 => ⟨S100000, .f32⟩
  | 17 => ⟨S100000, .f32⟩
  | 18 => ⟨S100000x1, .f32⟩
  | 19 => ⟨S100000x256, .f32⟩
  | 20 => ⟨S100000x256, .f32⟩
  | 21 => ⟨S100000x256, .f32⟩
  | 22 => ⟨S1x256, .f32⟩
  | 23 => ⟨S100000x256, .f32⟩
  | 24 => ⟨S100000x256, .f32⟩
  | 25 => ⟨S100000x256, .f32⟩
  | 26 => ⟨S100000x256, .f32⟩
  | 27 => ⟨S_, .f32⟩
  | 28 => ⟨S100000x256, .f32⟩
  | 29 => ⟨S100000x256, .f32⟩
  | 30 => ⟨S_, .f32⟩
  | 31 => ⟨S40000x256, .f32⟩
  | 32 => ⟨S40000x256, .f32⟩
  | 33 => ⟨S_, .f32⟩
  | 34 => ⟨S60000x256, .f32⟩
  | 35 => ⟨S60000x256, .f32⟩
  | 36 => ⟨S_, .f32⟩
  | 37 => ⟨S64x256, .f32⟩
  | 38 => ⟨S40000x1, .i32⟩
  | 39 => ⟨S64x256, .f32⟩
  | 40 => ⟨S_, .f32⟩
  | 41 => ⟨S40000, .f32⟩
  | 42 => ⟨S_, .f32⟩
  | 43 => ⟨S64, .f32⟩
  | 44 => ⟨S40000x1, .i32⟩
  | 45 => ⟨S64, .f32⟩
  | 46 => ⟨S_, .f32⟩
  | 47 => ⟨S64, .f32⟩
  | 48 => ⟨S64, .f32⟩
  | 49 => ⟨S64x1, .f32⟩
  | 50 => ⟨S64x256, .f32⟩
  | 51 => ⟨S64x256, .f32⟩
  | 52 => ⟨S64x288, .f32⟩
  | 53 => ⟨S64x128, .f32⟩
  | 54 => ⟨S1x128, .f32⟩
  | 55 => ⟨S64x128, .f32⟩
  | 56 => ⟨S64x128, .f32⟩
  | 57 => ⟨S_, .f32⟩
  | 58 => ⟨S64x128, .f32⟩
  | 59 => ⟨S64x128, .f32⟩
  | 60 => ⟨S64x16, .f32⟩
  | 61 => ⟨S1x16, .f32⟩
  | 62 => ⟨S64x16, .f32⟩
  | 63 => ⟨S64x16, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_c_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_4 : Ref sig .tc := ⟨.hbm, 65, rfl⟩
abbrev main_v37 : Ref sig .tc := ⟨.hbm, 66, rfl⟩
abbrev main_v38 : Ref sig .tc := ⟨.hbm, 67, rfl⟩
abbrev main_c_5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_6 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_7 : Ref sig .tc := ⟨.hbm, 78, rfl⟩
abbrev main_v47 : Ref sig .tc := ⟨.hbm, 79, rfl⟩
abbrev main_cst_8 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_10 : Ref sig .tc := ⟨.hbm, 102, rfl⟩
abbrev main_v68 : Ref sig .tc := ⟨.hbm, 103, rfl⟩
abbrev main_v69 : Ref sig .tc := ⟨.hbm, 104, rfl⟩
abbrev main_c_11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_13 : Ref sig .tc := ⟨.hbm, 115, rfl⟩
abbrev main_v78 : Ref sig .tc := ⟨.hbm, 116, rfl⟩
abbrev main_cst_14 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_15 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_16 : Ref sig .tc := ⟨.hbm, 139, rfl⟩
abbrev main_v99 : Ref sig .tc := ⟨.hbm, 140, rfl⟩
abbrev main_v100 : Ref sig .tc := ⟨.hbm, 141, rfl⟩
abbrev main_c_17 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_18 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_19 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_21 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_22 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_c_23 : Ref sig .tc := ⟨.hbm, 181, rfl⟩
abbrev main_v134 : Ref sig .tc := ⟨.hbm, 182, rfl⟩
abbrev main_v135 : Ref sig .tc := ⟨.hbm, 183, rfl⟩
abbrev main_c_24 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_25 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_26 : Ref sig .tc := ⟨.hbm, 194, rfl⟩
abbrev main_v144 : Ref sig .tc := ⟨.hbm, 195, rfl⟩
abbrev main_cst_27 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_28 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_call0_cst : Ref sig .tc := ⟨.hbm, 212, rfl⟩
abbrev main_call0_v0 : Ref sig .tc := ⟨.hbm, 213, rfl⟩
abbrev main_v159 : Ref sig .tc := ⟨.hbm, 214, rfl⟩
abbrev main_call1_cst : Ref sig .tc := ⟨.hbm, 215, rfl⟩
abbrev main_call1_v0 : Ref sig .tc := ⟨.hbm, 216, rfl⟩
abbrev main_v160 : Ref sig .tc := ⟨.hbm, 217, rfl⟩
abbrev main_call2_cst : Ref sig .tc := ⟨.hbm, 218, rfl⟩
abbrev main_call2_v0 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_c_29 : Ref sig .tc := ⟨.hbm, 227, rfl⟩
abbrev main_v168 : Ref sig .tc := ⟨.hbm, 228, rfl⟩
abbrev main_v169 : Ref sig .tc := ⟨.hbm, 229, rfl⟩
abbrev main_c_30 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_cst_31 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_32 : Ref sig .tc := ⟨.hbm, 240, rfl⟩
abbrev main_v178 : Ref sig .tc := ⟨.hbm, 241, rfl⟩
abbrev main_cst_33 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_34 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_c_35 : Ref sig .tc := ⟨.hbm, 264, rfl⟩
abbrev main_v199 : Ref sig .tc := ⟨.hbm, 265, rfl⟩
abbrev main_v200 : Ref sig .tc := ⟨.hbm, 266, rfl⟩
abbrev main_c_36 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_cst_37 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_cst_38 : Ref sig .tc := ⟨.hbm, 277, rfl⟩
abbrev main_v209 : Ref sig .tc := ⟨.hbm, 278, rfl⟩
abbrev main_cst_39 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_40 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_c_41 : Ref sig .tc := ⟨.hbm, 301, rfl⟩
abbrev main_v230 : Ref sig .tc := ⟨.hbm, 302, rfl⟩
abbrev main_v231 : Ref sig .tc := ⟨.hbm, 303, rfl⟩
abbrev main_c_42 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_cst_43 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_cst_44 : Ref sig .tc := ⟨.hbm, 314, rfl⟩
abbrev main_v240 : Ref sig .tc := ⟨.hbm, 315, rfl⟩
abbrev main_cst_45 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_cst_46 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_c_47 : Ref sig .tc := ⟨.hbm, 338, rfl⟩
abbrev main_v261 : Ref sig .tc := ⟨.hbm, 339, rfl⟩
abbrev main_v262 : Ref sig .tc := ⟨.hbm, 340, rfl⟩
abbrev main_c_48 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_v266 : Ref sig .tc := ⟨.hbm, 345, rfl⟩
abbrev main_v267 : Ref sig .tc := ⟨.hbm, 346, rfl⟩
abbrev main_cst_49 : Ref sig .tc := ⟨.hbm, 347, rfl⟩
abbrev main_v268 : Ref sig .tc := ⟨.hbm, 348, rfl⟩
abbrev main_v269 : Ref sig .tc := ⟨.hbm, 349, rfl⟩
abbrev main_v270 : Ref sig .tc := ⟨.hbm, 350, rfl⟩
abbrev main_cst_50 : Ref sig .tc := ⟨.hbm, 351, rfl⟩
abbrev main_v271 : Ref sig .tc := ⟨.hbm, 352, rfl⟩
abbrev main_cst_51 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_cst_52 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_v285 : Ref sig .tc := ⟨.hbm, 368, rfl⟩
abbrev main_v286 : Ref sig .tc := ⟨.hbm, 369, rfl⟩
abbrev main_v287 : Ref sig .tc := ⟨.hbm, 370, rfl⟩
abbrev main_cst_53 : Ref sig .tc := ⟨.hbm, 371, rfl⟩
abbrev main_v288 : Ref sig .tc := ⟨.hbm, 372, rfl⟩
abbrev main_v289 : Ref sig .tc := ⟨.hbm, 373, rfl⟩
abbrev main_v290 : Ref sig .tc := ⟨.hbm, 374, rfl⟩
abbrev main_v291 : Ref sig .tc := ⟨.hbm, 375, rfl⟩
abbrev main_v292 : Ref sig .tc := ⟨.hbm, 376, rfl⟩
abbrev main_v293 : Ref sig .tc := ⟨.hbm, 377, rfl⟩
abbrev main_v294 : Ref sig .tc := ⟨.hbm, 378, rfl⟩
abbrev main_v295 : Ref sig .tc := ⟨.hbm, 379, rfl⟩
abbrev main_c_54 : Ref sig .tc := ⟨.hbm, 380, rfl⟩
abbrev main_v296 : Ref sig .tc := ⟨.hbm, 381, rfl⟩
abbrev main_v297 : Ref sig .tc := ⟨.hbm, 382, rfl⟩
abbrev main_c_55 : Ref sig .tc := ⟨.hbm, 383, rfl⟩
abbrev main_v298 : Ref sig .tc := ⟨.hbm, 384, rfl⟩
abbrev main_v299 : Ref sig .tc := ⟨.hbm, 385, rfl⟩
abbrev main_v300 : Ref sig .tc := ⟨.hbm, 386, rfl⟩
abbrev main_v301 : Ref sig .tc := ⟨.hbm, 387, rfl⟩
abbrev main_v302 : Ref sig .tc := ⟨.hbm, 388, rfl⟩
abbrev main_cst_56 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_cst_57 : Ref sig .tc := ⟨.hbm, 393, rfl⟩
abbrev main_v306 : Ref sig .tc := ⟨.hbm, 394, rfl⟩
abbrev main_cst_58 : Ref sig .tc := ⟨.hbm, 395, rfl⟩
abbrev main_v307 : Ref sig .tc := ⟨.hbm, 396, rfl⟩
abbrev main_v308 : Ref sig .tc := ⟨.hbm, 397, rfl⟩
abbrev main_v309 : Ref sig .tc := ⟨.hbm, 398, rfl⟩
abbrev main_cst_59 : Ref sig .tc := ⟨.hbm, 399, rfl⟩
abbrev main_v310 : Ref sig .tc := ⟨.hbm, 400, rfl⟩
abbrev main_v311 : Ref sig .tc := ⟨.hbm, 401, rfl⟩
abbrev main_v312 : Ref sig .tc := ⟨.hbm, 402, rfl⟩
abbrev main_v313 : Ref sig .tc := ⟨.hbm, 403, rfl⟩
abbrev main_v314 : Ref sig .tc := ⟨.hbm, 404, rfl⟩
abbrev main_v315 : Ref sig .tc := ⟨.hbm, 405, rfl⟩
abbrev main_v316 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_call3_cst : Ref sig .tc := ⟨.hbm, 411, rfl⟩
abbrev main_call3_v0 : Ref sig .tc := ⟨.hbm, 412, rfl⟩
abbrev main_v321 : Ref sig .tc := ⟨.hbm, 413, rfl⟩
abbrev main_call4_cst : Ref sig .tc := ⟨.hbm, 414, rfl⟩
abbrev main_call4_v0 : Ref sig .tc := ⟨.hbm, 415, rfl⟩
abbrev main_v322 : Ref sig .tc := ⟨.hbm, 416, rfl⟩
abbrev main_call5_cst : Ref sig .tc := ⟨.hbm, 417, rfl⟩
abbrev main_call5_v0 : Ref sig .tc := ⟨.hbm, 418, rfl⟩
abbrev main_v323 : Ref sig .tc := ⟨.hbm, 419, rfl⟩
abbrev main_cst_60 : Ref sig .tc := ⟨.hbm, 420, rfl⟩
abbrev main_v324 : Ref sig .tc := ⟨.hbm, 421, rfl⟩
abbrev main_v325 : Ref sig .tc := ⟨.hbm, 422, rfl⟩
abbrev main_v326 : Ref sig .tc := ⟨.hbm, 423, rfl⟩
abbrev main_cst_61 : Ref sig .tc := ⟨.hbm, 424, rfl⟩
abbrev main_v327 : Ref sig .tc := ⟨.hbm, 425, rfl⟩
abbrev main_cst_62 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_cst_63 : Ref sig .tc := ⟨.hbm, 430, rfl⟩
abbrev main_v331 : Ref sig .tc := ⟨.hbm, 431, rfl⟩
abbrev main_v332 : Ref sig .tc := ⟨.hbm, 432, rfl⟩
abbrev main_v333 : Ref sig .tc := ⟨.hbm, 433, rfl⟩
abbrev main_v334 : Ref sig .tc := ⟨.hbm, 434, rfl⟩
abbrev main_v335 : Ref sig .tc := ⟨.hbm, 435, rfl⟩
abbrev main_v336 : Ref sig .tc := ⟨.hbm, 436, rfl⟩
abbrev main_v337 : Ref sig .tc := ⟨.hbm, 437, rfl⟩
abbrev main_v338 : Ref sig .tc := ⟨.hbm, 438, rfl⟩
abbrev main_v339 : Ref sig .tc := ⟨.hbm, 439, rfl⟩
abbrev main_v340 : Ref sig .tc := ⟨.hbm, 440, rfl⟩
abbrev main_call6_cst : Ref sig .tc := ⟨.hbm, 441, rfl⟩
abbrev main_call6_v0 : Ref sig .tc := ⟨.hbm, 442, rfl⟩
abbrev main_v341 : Ref sig .tc := ⟨.hbm, 443, rfl⟩
abbrev main_v342 : Ref sig .tc := ⟨.hbm, 444, rfl⟩
abbrev main_v343 : Ref sig .tc := ⟨.hbm, 445, rfl⟩
abbrev main_v344 : Ref sig .tc := ⟨.hbm, 446, rfl⟩
abbrev main_v345 : Ref sig .tc := ⟨.hbm, 447, rfl⟩

abbrev nD : Nat := 1
abbrev τ : Topo := Topo.v7x

variable {F : FTy → Type} [FloatOps F]

class Facts₀ : Prop where
  slices_S2x5x256x256_S1x1x256x256_0_0_0_0 : S2x5x256x256.Slices ![0, 0, 0, 0] S1x1x256x256
  shapeCasts_S1x1x256x256_S256x256 : S1x1x256x256.ShapeCasts S256x256
  slices_S2x5x256_S1x1x256_0_0_0 : S2x5x256.Slices ![0, 0, 0] S1x1x256
  shapeCasts_S1x1x256_S256 : S1x1x256.ShapeCasts S256
  bcast_S_S250000 : S_.BroadcastsInDim S250000 (![] : Fin 0 → Fin S250000.rank)
  bcast_S250000_S250000x1_0 : S250000.BroadcastsInDim S250000x1 (![0] : Fin 1 → Fin S250000x1.rank)
  bcast_S_S60000x256 : S_.BroadcastsInDim S60000x256 (![] : Fin 0 → Fin S60000x256.rank)
  bcast_S_S60000 : S_.BroadcastsInDim S60000 (![] : Fin 0 → Fin S60000.rank)
  bcast_S60000_S60000x1_0 : S60000.BroadcastsInDim S60000x1 (![0] : Fin 1 → Fin S60000x1.rank)
  bcast_S60000x1_S60000x256_0_1 : S60000x1.BroadcastsInDim S60000x256 (![0, 1] : Fin 2 → Fin S60000x256.rank)
  bcast_S256_S1x256_1 : S256.BroadcastsInDim S1x256 (![1] : Fin 1 → Fin S1x256.rank)
  bcast_S1x256_S60000x256_0_1 : S1x256.BroadcastsInDim S60000x256 (![0, 1] : Fin 2 → Fin S60000x256.rank)
  slices_S2x5x256x256_S1x1x256x256_0_1_0_0 : S2x5x256x256.Slices ![0, 1, 0, 0] S1x1x256x256
  slices_S2x5x256_S1x1x256_0_1_0 : S2x5x256.Slices ![0, 1, 0] S1x1x256
  bcast_S_S40000x256 : S_.BroadcastsInDim S40000x256 (![] : Fin 0 → Fin S40000x256.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x256_0_1 : S40000x1.BroadcastsInDim S40000x256 (![0, 1] : Fin 2 → Fin S40000x256.rank)
  bcast_S1x256_S40000x256_0_1 : S1x256.BroadcastsInDim S40000x256 (![0, 1] : Fin 2 → Fin S40000x256.rank)
  slices_S2x5x256x256_S1x1x256x256_0_2_0_0 : S2x5x256x256.Slices ![0, 2, 0, 0] S1x1x256x256
  slices_S2x5x256_S1x1x256_0_2_0 : S2x5x256.Slices ![0, 2, 0] S1x1x256
  slices_S2x5x256x256_S1x1x256x256_0_3_0_0 : S2x5x256x256.Slices ![0, 3, 0, 0] S1x1x256x256
  slices_S2x5x256_S1x1x256_0_3_0 : S2x5x256.Slices ![0, 3, 0] S1x1x256
  slices_S2x5x256x256_S1x1x256x256_0_4_0_0 : S2x5x256x256.Slices ![0, 4, 0, 0] S1x1x256x256
  slices_S2x5x256_S1x1x256_0_4_0 : S2x5x256.Slices ![0, 4, 0] S1x1x256
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S1x256_S100000x256_0_1 : S1x256.BroadcastsInDim S100000x256 (![0, 1] : Fin 2 → Fin S100000x256.rank)
  slices_S2x5x256x256_S1x1x256x256_1_0_0_0 : S2x5x256x256.Slices ![1, 0, 0, 0] S1x1x256x256
  slices_S2x5x256_S1x1x256_1_0_0 : S2x5x256.Slices ![1, 0, 0] S1x1x256
  slices_S2x5x256x256_S1x1x256x256_1_1_0_0 : S2x5x256x256.Slices ![1, 1, 0, 0] S1x1x256x256
  slices_S2x5x256_S1x1x256_1_1_0 : S2x5x256.Slices ![1, 1, 0] S1x1x256
  slices_S2x5x256x256_S1x1x256x256_1_2_0_0 : S2x5x256x256.Slices ![1, 2, 0, 0] S1x1x256x256
  slices_S2x5x256_S1x1x256_1_2_0 : S2x5x256.Slices ![1, 2, 0] S1x1x256
  slices_S2x5x256x256_S1x1x256x256_1_3_0_0 : S2x5x256x256.Slices ![1, 3, 0, 0] S1x1x256x256
  slices_S2x5x256_S1x1x256_1_3_0 : S2x5x256.Slices ![1, 3, 0] S1x1x256
  slices_S2x5x256x256_S1x1x256x256_1_4_0_0 : S2x5x256x256.Slices ![1, 4, 0, 0] S1x1x256x256
  slices_S2x5x256_S1x1x256_1_4_0 : S2x5x256.Slices ![1, 4, 0] S1x1x256
  bcast_S_S64x256 : S_.BroadcastsInDim S64x256 (![] : Fin 0 → Fin S64x256.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x32_S64x288_d1 : Shape.Concatenates [S64x256, S64x32] S64x288 1
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S16_S1x16_1 : S16.BroadcastsInDim S1x16 (![1] : Fin 1 → Fin S1x16.rank)
  bcast_S1x16_S64x16_0_1 : S1x16.BroadcastsInDim S64x16 (![0, 1] : Fin 2 → Fin S64x16.rank)
  gather_S100000x256_S250000x1_S250000x256_1_0_n_n_0_1_1256_wf : GatherDims.WF S100000x256 S250000x1 S250000x256 [1] [0] [] [0] [] 1 ![1, 256]
  scatter_S60000x256_S250000x1_S250000x256_1_0_0_1_wf : ScatterDims.WF S60000x256 S250000x1 S250000x256 [1] [0] [0] 1
  scatter_S60000_S250000x1_S250000_n_0_0_1_wf : ScatterDims.WF S60000 S250000x1 S250000 [] [0] [0] 1
  dot_S60000x256_S256x256_S60000x256_1_0_0_1_n_n_wf : DotDims.WF S60000x256 S256x256 S60000x256 [1] [0] [0] [1] [] []
  gather_S40000x256_S250000x1_S250000x256_1_0_n_n_0_1_1256_wf : GatherDims.WF S40000x256 S250000x1 S250000x256 [1] [0] [] [0] [] 1 ![1, 256]
  scatter_S40000x256_S250000x1_S250000x256_1_0_0_1_wf : ScatterDims.WF S40000x256 S250000x1 S250000x256 [1] [0] [0] 1
  scatter_S40000_S250000x1_S250000_n_0_0_1_wf : ScatterDims.WF S40000 S250000x1 S250000 [] [0] [0] 1
  dot_S40000x256_S256x256_S40000x256_1_0_0_1_n_n_wf : DotDims.WF S40000x256 S256x256 S40000x256 [1] [0] [0] [1] [] []
  gather_S60000x256_S250000x1_S250000x256_1_0_n_n_0_1_1256_wf : GatherDims.WF S60000x256 S250000x1 S250000x256 [1] [0] [] [0] [] 1 ![1, 256]
  scatter_S100000x256_S250000x1_S250000x256_1_0_0_1_wf : ScatterDims.WF S100000x256 S250000x1 S250000x256 [1] [0] [0] 1
  scatter_S100000_S250000x1_S250000_n_0_0_1_wf : ScatterDims.WF S100000 S250000x1 S250000 [] [0] [0] 1
  dot_S100000x256_S256x256_S100000x256_1_0_0_1_n_n_wf : DotDims.WF S100000x256 S256x256 S100000x256 [1] [0] [0] [1] [] []
  scatter_S64x256_S40000x1_S40000x256_1_0_0_1_wf : ScatterDims.WF S64x256 S40000x1 S40000x256 [1] [0] [0] 1
  scatter_S64_S40000x1_S40000_n_0_0_1_wf : ScatterDims.WF S64 S40000x1 S40000 [] [0] [0] 1
  dot_S64x288_S288x128_S64x128_1_0_0_1_n_n_wf : DotDims.WF S64x288 S288x128 S64x128 [1] [0] [0] [1] [] []
  dot_S64x128_S128x16_S64x16_1_0_0_1_n_n_wf : DotDims.WF S64x128 S128x16 S64x16 [1] [0] [0] [1] [] []

variable [Facts₀]

def gather_S100000x256_S250000x1_S250000x256_1_0_n_n_0_1_1256 : GatherDims S100000x256 S250000x1 S250000x256 where
  offsetDims := [1]
  collapsedSliceDims := [0]
  operandBatchingDims := []
  startIndicesBatchingDims := []
  startIndexMap := [0]
  indexVectorDim := 1
  sliceSizes := ![1, 256]
  wf := gather_S100000x256_S250000x1_S250000x256_1_0_n_n_0_1_1256_wf
def scatter_S60000x256_S250000x1_S250000x256_1_0_0_1 : ScatterDims S60000x256 S250000x1 S250000x256 where
  updateWindowDims := [1]
  insertedWindowDims := [0]
  scatterDimsToOperandDims := [0]
  indexVectorDim := 1
  wf := scatter_S60000x256_S250000x1_S250000x256_1_0_0_1_wf
def scatter_S60000_S250000x1_S250000_n_0_0_1 : ScatterDims S60000 S250000x1 S250000 where
  updateWindowDims := []
  insertedWindowDims := [0]
  scatterDimsToOperandDims := [0]
  indexVectorDim := 1
  wf := scatter_S60000_S250000x1_S250000_n_0_0_1_wf
def dot_S60000x256_S256x256_S60000x256_1_0_0_1_n_n : DotDims S60000x256 S256x256 S60000x256 where
  lhsContracting := [1]
  rhsContracting := [0]
  lhsNonContracting := [0]
  rhsNonContracting := [1]
  lhsBatch := []
  rhsBatch := []
  wf := dot_S60000x256_S256x256_S60000x256_1_0_0_1_n_n_wf
def gather_S40000x256_S250000x1_S250000x256_1_0_n_n_0_1_1256 : GatherDims S40000x256 S250000x1 S250000x256 where
  offsetDims := [1]
  collapsedSliceDims := [0]
  operandBatchingDims := []
  startIndicesBatchingDims := []
  startIndexMap := [0]
  indexVectorDim := 1
  sliceSizes := ![1, 256]
  wf := gather_S40000x256_S250000x1_S250000x256_1_0_n_n_0_1_1256_wf
def scatter_S40000x256_S250000x1_S250000x256_1_0_0_1 : ScatterDims S40000x256 S250000x1 S250000x256 where
  updateWindowDims := [1]
  insertedWindowDims := [0]
  scatterDimsToOperandDims := [0]
  indexVectorDim := 1
  wf := scatter_S40000x256_S250000x1_S250000x256_1_0_0_1_wf
def scatter_S40000_S250000x1_S250000_n_0_0_1 : ScatterDims S40000 S250000x1 S250000 where
  updateWindowDims := []
  insertedWindowDims := [0]
  scatterDimsToOperandDims := [0]
  indexVectorDim := 1
  wf := scatter_S40000_S250000x1_S250000_n_0_0_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S60000x256_S250000x1_S250000x256_1_0_n_n_0_1_1256 : GatherDims S60000x256 S250000x1 S250000x256 where
  offsetDims := [1]
  collapsedSliceDims := [0]
  operandBatchingDims := []
  startIndicesBatchingDims := []
  startIndexMap := [0]
  indexVectorDim := 1
  sliceSizes := ![1, 256]
  wf := gather_S60000x256_S250000x1_S250000x256_1_0_n_n_0_1_1256_wf
def scatter_S100000x256_S250000x1_S250000x256_1_0_0_1 : ScatterDims S100000x256 S250000x1 S250000x256 where
  updateWindowDims := [1]
  insertedWindowDims := [0]
  scatterDimsToOperandDims := [0]
  indexVectorDim := 1
  wf := scatter_S100000x256_S250000x1_S250000x256_1_0_0_1_wf
def scatter_S100000_S250000x1_S250000_n_0_0_1 : ScatterDims S100000 S250000x1 S250000 where
  updateWindowDims := []
  insertedWindowDims := [0]
  scatterDimsToOperandDims := [0]
  indexVectorDim := 1
  wf := scatter_S100000_S250000x1_S250000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S64x256_S40000x1_S40000x256_1_0_0_1 : ScatterDims S64x256 S40000x1 S40000x256 where
  updateWindowDims := [1]
  insertedWindowDims := [0]
  scatterDimsToOperandDims := [0]
  indexVectorDim := 1
  wf := scatter_S64x256_S40000x1_S40000x256_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x288_S288x128_S64x128_1_0_0_1_n_n : DotDims S64x288 S288x128 S64x128 where
  lhsContracting := [1]
  rhsContracting := [0]
  lhsNonContracting := [0]
  rhsNonContracting := [1]
  lhsBatch := []
  rhsBatch := []
  wf := dot_S64x288_S288x128_S64x128_1_0_0_1_n_n_wf
def dot_S64x128_S128x16_S64x16_1_0_0_1_n_n : DotDims S64x128 S128x16 S64x16 where
  lhsContracting := [1]
  rhsContracting := [0]
  lhsNonContracting := [0]
  rhsNonContracting := [1]
  lhsBatch := []
  rhsBatch := []
  wf := dot_S64x128_S128x16_S64x16_1_0_0_1_n_n_wf

class Facts : Prop extends Facts₀ where

variable [Facts]
-- ==== Proof.KernelRun.lean ====
import proofs.«142914_j49752901157176_1_alg».proof.Proof.FrameKernelIdealP
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The kernel's run, with the result array named

The frame theorem `GenP.frame` states that the argument arrays end as launched. The run it is about determines more: at
its end every unscoped buffer of a TensorCore holds the contents the final valuation `GenP.W39` assigns it. Here that fact
is kept for the result array as well as for the arguments. -/

set_option maxRecDepth 16384

noncomputable section

namespace Cert.KernelIdeal.KernelRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
set_option backward.isDefEq.respectTransparency.types false in
/-- At the compiled mesh, from any memory with zero counters, every weakly fair execution of the kernel program on the
    TensorCores terminates and none faults; in every final state, on every core, the result array holds the contents the
    final valuation `GenP.W39` assigns it, and each of the 22 argument arrays holds what it held at launch. The run is that
    of the 39 segments of the program; at its end every unscoped buffer of a core is read against the final state, which
    gives the result array directly and each argument through the valuation's value at that argument. -/
theorem run_result (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v287) = GenP.W39 m ρ c (Proc.devRef .tc main_v287)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W39 m ρ c b)
    (hfin := fun c s' => by
      iintro ⟨⟨Hh, -⟩, HSI⟩
      unfold StableHlo.held
      imodintro
      iapply (pointsTo_read_all (Pipeline.ucRefs τ sig) (fun b => (((c : Thread nD τ)).1, b)) (W39 m ρ c) s')
      isplitl [Hh] <;> iassumption)
    (hQ := fun s h c =>
      ⟨h c _ (mem_uc main_v287 (by decide)),
       (h c _ (mem_uc main_arg0 (by decide))).trans (W39_main_arg0 m ρ c),
       (h c _ (mem_uc main_arg1 (by decide))).trans (W39_main_arg1 m ρ c),
       (h c _ (mem_uc main_arg2 (by decide))).trans (W39_main_arg2 m ρ c),
       (h c _ (mem_uc main_arg3 (by decide))).trans (W39_main_arg3 m ρ c),
       (h c _ (mem_uc main_arg4 (by decide))).trans (W39_main_arg4 m ρ c),
       (h c _ (mem_uc main_arg5 (by decide))).trans (W39_main_arg5 m ρ c),
       (h c _ (mem_uc main_arg6 (by decide))).trans (W39_main_arg6 m ρ c),
       (h c _ (mem_uc main_arg7 (by decide))).trans (W39_main_arg7 m ρ c),
       (h c _ (mem_uc main_arg8 (by decide))).trans (W39_main_arg8 m ρ c),
       (h c _ (mem_uc main_arg9 (by decide))).trans (W39_main_arg9 m ρ c),
       (h c _ (mem_uc main_arg10 (by decide))).trans (W39_main_arg10 m ρ c),
       (h c _ (mem_uc main_arg11 (by decide))).trans (W39_main_arg11 m ρ c),
       (h c _ (mem_uc main_arg12 (by decide))).trans (W39_main_arg12 m ρ c),
       (h c _ (mem_uc main_arg13 (by decide))).trans (W39_main_arg13 m ρ c),
       (h c _ (mem_uc main_arg14 (by decide))).trans (W39_main_arg14 m ρ c),
       (h c _ (mem_uc main_arg15 (by decide))).trans (W39_main_arg15 m ρ c),
       (h c _ (mem_uc main_arg16 (by decide))).trans (W39_main_arg16 m ρ c),
       (h c _ (mem_uc main_arg17 (by decide))).trans (W39_main_arg17 m ρ c),
       (h c _ (mem_uc main_arg18 (by decide))).trans (W39_main_arg18 m ρ c),
       (h c _ (mem_uc main_arg19 (by decide))).trans (W39_main_arg19 m ρ c),
       (h c _ (mem_uc main_arg20 (by decide))).trans (W39_main_arg20 m ρ c),
       (h c _ (mem_uc main_arg21 (by decide))).trans (W39_main_arg21 m ρ c)⟩)

end Cert.KernelIdeal.KernelRun

end
-- ==== Proof.RefPieces.lean ====
/-
  The reference program's composed result, named piece by piece.

  The result is one long composition of the arguments. Its pieces: for each layer and each kind of edge that feeds the
  result, the combination step  mean · Wl + b + x_dst · Wr  of the features below it; the channel nodes' average of three
  such steps followed by the positive part; the positive part on the other two kinds of nodes; and the head (average,
  positive part, pooling per graph, the per-graph inputs joined on, two dense layers). Each piece is the text of the
  program's own composed term with the pieces below it replaced by parameters, so composing the pieces again gives that
  term back, symbol for symbol.
-/
import proofs.«142914_j49752901157176_1_alg».proof.Proof.RunReferenceIdealP

set_option maxRecDepth 16384

noncomputable section

namespace Cert.ReferenceIdeal.Pieces

open Cert.ReferenceIdeal Cert.ReferenceIdeal.Gen Idealize.ShloMosaic Idealize.ShloMosaic.TcCoe Idealize.SL.Sem Idealize.ShloMosaic.StableHlo

variable {F : FTy → Type} [FloatOps F]

/-- Layer 1, groundwater nodes: the combination step fed by the surface-water nodes, before the positive part. -/
def gw (a0 : (⟨S100000x256, .f32⟩ : BufTy).Contents (Elt F)) (a2 : (⟨S60000x256, .f32⟩ : BufTy).Contents (Elt F)) (a3 : (⟨S250000, .i32⟩ : BufTy).Contents (Elt F)) (a4 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S60000x256, .f32⟩ : BufTy).Contents (Elt F) :=
  (addf (addf (Host.dotGeneral dot_S60000x256_S256x256_S60000x256_1_0_0_1_n_n none (Host.divf (Host.scatterAdd scatter_S60000x256_S250000x1_S250000x256_1_0_0_1 (broadcastInDim S60000x256 ![] bcast_S_S60000x256 (constant S_ .f32 0x00000000#32)) (broadcastInDim S250000x1 ![0] bcast_S250000_S250000x1_0 a4) (Host.gather gather_S100000x256_S250000x1_S250000x256_1_0_n_n_0_1_1256 a0 (broadcastInDim S250000x1 ![0] bcast_S250000_S250000x1_0 (select (cmpi .slt a3 (broadcastInDim S250000 ![] bcast_S_S250000 (constantI S_ 32 0#32))) (addi a3 (broadcastInDim S250000 ![] bcast_S_S250000 (constantI S_ 32 100000#32))) a3)))) (broadcastInDim S60000x256 ![0, 1] bcast_S60000x1_S60000x256_0_1 (broadcastInDim S60000x1 ![0] bcast_S60000_S60000x1_0 (maximumf (Host.scatterAdd scatter_S60000_S250000x1_S250000_n_0_0_1 (broadcastInDim S60000 ![] bcast_S_S60000 (constant S_ .f32 0x00000000#32)) (broadcastInDim S250000x1 ![0] bcast_S250000_S250000x1_0 a4) (broadcastInDim S250000 ![] bcast_S_S250000 (constant S_ .f32 0x3F800000#32))) (broadcastInDim S60000 ![] bcast_S_S60000 (constant S_ .f32 0x3F800000#32)))))) (shapeCast _ (extractStridedSlice S1x1x256x256 ![0, 0, 0, 0] a15 slices_S2x5x256x256_S1x1x256x256_0_0_0_0) shapeCasts_S1x1x256x256_S256x256)) (broadcastInDim S60000x256 ![0, 1] bcast_S1x256_S60000x256_0_1 (broadcastInDim S1x256 ![1] bcast_S256_S1x256_1 (shapeCast _ (extractStridedSlice S1x1x256 ![0, 0, 0] a17 slices_S2x5x256_S1x1x256_0_0_0) shapeCasts_S1x1x256_S256)))) (Host.dotGeneral dot_S60000x256_S256x256_S60000x256_1_0_0_1_n_n none a2 (shapeCast _ (extractStridedSlice S1x1x256x256 ![0, 0, 0, 0] a16 slices_S2x5x256x256_S1x1x256x256_0_0_0_0) shapeCasts_S1x1x256x256_S256x256)))

/-- Layer 1, channel nodes, from channel neighbours. -/
def o1 (a1 : (⟨S40000x256, .f32⟩ : BufTy).Contents (Elt F)) (a5 : (⟨S250000, .i32⟩ : BufTy).Contents (Elt F)) (a6 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S40000x256, .f32⟩ : BufTy).Contents (Elt F) :=
  (addf (addf (Host.dotGeneral dot_S40000x256_S256x256_S40000x256_1_0_0_1_n_n none (Host.divf (Host.scatterAdd scatter_S40000x256_S250000x1_S250000x256_1_0_0_1 (broadcastInDim S40000x256 ![] bcast_S_S40000x256 (constant S_ .f32 0x00000000#32)) (broadcastInDim S250000x1 ![0] bcast_S250000_S250000x1_0 a6) (Host.gather gather_S40000x256_S250000x1_S250000x256_1_0_n_n_0_1_1256 a1 (broadcastInDim S250000x1 ![0] bcast_S250000_S250000x1_0 (select (cmpi .slt a5 (broadcastInDim S250000 ![] bcast_S_S250000 (constantI S_ 32 0#32))) (addi a5 (broadcastInDim S250000 ![] bcast_S_S250000 (constantI S_ 32 40000#32))) a5)))) (broadcastInDim S40000x256 ![0, 1] bcast_S40000x1_S40000x256_0_1 (broadcastInDim S40000x1 ![0] bcast_S40000_S40000x1_0 (maximumf (Host.scatterAdd scatter_S40000_S250000x1_S250000_n_0_0_1 (broadcastInDim S40000 ![] bcast_S_S40000 (constant S_ .f32 0x00000000#32)) (broadcastInDim S250000x1 ![0] bcast_S250000_S250000x1_0 a6) (broadcastInDim S250000 ![] bcast_S_S250000 (constant S_ .f32 0x3F800000#32))) (broadcastInDim S40000 ![] bcast_S_S40000 (constant S_ .f32 0x3F800000#32)))))) (shapeCast _ (extractStridedSlice S1x1x256x256 ![0, 1, 0, 0] a15 slices_S2x5x256x256_S1x1x256x256_0_1_0_0) shapeCasts_S1x1x256x256_S256x256)) (broadcastInDim S40000x256 ![0, 1] bcast_S1x256_S40000x256_0_1 (broadcastInDim S1x256 ![1] bcast_S256_S1x256_1 (shapeCast _ (extractStridedSlice S1x1x256 ![0, 1, 0] a17 slices_S2x5x256_S1x1x256_0_1_0) shapeCasts_S1x1x256_S256)))) (Host.dotGeneral dot_S40000x256_S256x256_S40000x256_1_0_0_1_n_n none a1 (shapeCast _ (extractStridedSlice S1x1x256x256 ![0, 1, 0, 0] a16 slices_S2x5x256x256_S1x1x256x256_0_1_0_0) shapeCasts_S1x1x256x256_S256x256)))

/-- Layer 1, channel nodes, from surface-water neighbours. -/
def o2 (a0 : (⟨S100000x256, .f32⟩ : BufTy).Contents (Elt F)) (a1 : (⟨S40000x256, .f32⟩ : BufTy).Contents (Elt F)) (a7 : (⟨S250000, .i32⟩ : BufTy).Contents (Elt F)) (a8 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S40000x256, .f32⟩ : BufTy).Contents (Elt F) :=
  (addf (addf (Host.dotGeneral dot_S40000x256_S256x256_S40000x256_1_0_0_1_n_n none (Host.divf (Host.scatterAdd scatter_S40000x256_S250000x1_S250000x256_1_0_0_1 (broadcastInDim S40000x256 ![] bcast_S_S40000x256 (constant S_ .f32 0x00000000#32)) (broadcastInDim S250000x1 ![0] bcast_S250000_S250000x1_0 a8) (Host.gather gather_S100000x256_S250000x1_S250000x256_1_0_n_n_0_1_1256 a0 (broadcastInDim S250000x1 ![0] bcast_S250000_S250000x1_0 (select (cmpi .slt a7 (broadcastInDim S250000 ![] bcast_S_S250000 (constantI S_ 32 0#32))) (addi a7 (broadcastInDim S250000 ![] bcast_S_S250000 (constantI S_ 32 100000#32))) a7)))) (broadcastInDim S40000x256 ![0, 1] bcast_S40000x1_S40000x256_0_1 (broadcastInDim S40000x1 ![0] bcast_S40000_S40000x1_0 (maximumf (Host.scatterAdd scatter_S40000_S250000x1_S250000_n_0_0_1 (broadcastInDim S40000 ![] bcast_S_S40000 (constant S_ .f32 0x00000000#32)) (broadcastInDim S250000x1 ![0] bcast_S250000_S250000x1_0 a8) (broadcastInDim S250000 ![] bcast_S_S250000 (constant S_ .f32 0x3F800000#32))) (broadcastInDim S40000 ![] bcast_S_S40000 (constant S_ .f32 0x3F800000#32)))))) (shapeCast _ (extractStridedSlice S1x1x256x256 ![0, 2, 0, 0] a15 slices_S2x5x256x256_S1x1x256x256_0_2_0_0) shapeCasts_S1x1x256x256_S256x256)) (broadcastInDim S40000x256 ![0, 1] bcast_S1x256_S40000x256_0_1 (broadcastInDim S1x256 ![1] bcast_S256_S1x256_1 (shapeCast _ (extractStridedSlice S1x1x256 ![0, 2, 0] a17 slices_S2x5x256_S1x1x256_0_2_0) shapeCasts_S1x1x256_S256)))) (Host.dotGeneral dot_S40000x256_S256x256_S40000x256_1_0_0_1_n_n none a1 (shapeCast _ (extractStridedSlice S1x1x256x256 ![0, 2, 0, 0] a16 slices_S2x5x256x256_S1x1x256x256_0_2_0_0) shapeCasts_S1x1x256x256_S256x256)))

/-- Layer 1, channel nodes, from groundwater neighbours. -/
def o3 (a1 : (⟨S40000x256, .f32⟩ : BufTy).Contents (Elt F)) (a2 : (⟨S60000x256, .f32⟩ : BufTy).Contents (Elt F)) (a9 : (⟨S250000, .i32⟩ : BufTy).Contents (Elt F)) (a10 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S40000x256, .f32⟩ : BufTy).Contents (Elt F) :=
  (addf (addf (Host.dotGeneral dot_S40000x256_S256x256_S40000x256_1_0_0_1_n_n none (Host.divf (Host.scatterAdd scatter_S40000x256_S250000x1_S250000x256_1_0_0_1 (broadcastInDim S40000x256 ![] bcast_S_S40000x256 (constant S_ .f32 0x00000000#32)) (broadcastInDim S250000x1 ![0] bcast_S250000_S250000x1_0 a10) (Host.gather gather_S60000x256_S250000x1_S250000x256_1_0_n_n_0_1_1256 a2 (broadcastInDim S250000x1 ![0] bcast_S250000_S250000x1_0 (select (cmpi .slt a9 (broadcastInDim S250000 ![] bcast_S_S250000 (constantI S_ 32 0#32))) (addi a9 (broadcastInDim S250000 ![] bcast_S_S250000 (constantI S_ 32 60000#32))) a9)))) (broadcastInDim S40000x256 ![0, 1] bcast_S40000x1_S40000x256_0_1 (broadcastInDim S40000x1 ![0] bcast_S40000_S40000x1_0 (maximumf (Host.scatterAdd scatter_S40000_S250000x1_S250000_n_0_0_1 (broadcastInDim S40000 ![] bcast_S_S40000 (constant S_ .f32 0x00000000#32)) (broadcastInDim S250000x1 ![0] bcast_S250000_S250000x1_0 a10) (broadcastInDim S250000 ![] bcast_S_S250000 (constant S_ .f32 0x3F800000#32))) (broadcastInDim S40000 ![] bcast_S_S40000 (constant S_ .f32 0x3F800000#32)))))) (shapeCast _ (extractStridedSlice S1x1x256x256 ![0, 3, 0, 0] a15 slices_S2x5x256x256_S1x1x256x256_0_3_0_0) shapeCasts_S1x1x256x256_S256x256)) (broadcastInDim S40000x256 ![0, 1] bcast_S1x256_S40000x256_0_1 (broadcastInDim S1x256 ![1] bcast_S256_S1x256_1 (shapeCast _ (extractStridedSlice S1x1x256 ![0, 3, 0] a17 slices_S2x5x256_S1x1x256_0_3_0) shapeCasts_S1x1x256_S256)))) (Host.dotGeneral dot_S40000x256_S256x256_S40000x256_1_0_0_1_n_n none a1 (shapeCast _ (extractStridedSlice S1x1x256x256 ![0, 3, 0, 0] a16 slices_S2x5x256x256_S1x1x256x256_0_3_0_0) shapeCasts_S1x1x256x256_S256x256)))

/-- Layer 1, surface-water nodes: the self-loop combination step, before the positive part. -/
def hru (a0 : (⟨S100000x256, .f32⟩ : BufTy).Contents (Elt F)) (a11 : (⟨S250000, .i32⟩ : BufTy).Contents (Elt F)) (a12 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S100000x256, .f32⟩ : BufTy).Contents (Elt F) :=
  (addf (addf (Host.dotGeneral dot_S100000x256_S256x256_S100000x256_1_0_0_1_n_n none (Host.divf (Host.scatterAdd scatter_S100000x256_S250000x1_S250000x256_1_0_0_1 (broadcastInDim S100000x256 ![] bcast_S_S100000x256 (constant S_ .f32 0x00000000#32)) (broadcastInDim S250000x1 ![0] bcast_S250000_S250000x1_0 a12) (Host.gather gather_S100000x256_S250000x1_S250000x256_1_0_n_n_0_1_1256 a0 (broadcastInDim S250000x1 ![0] bcast_S250000_S250000x1_0 (select (cmpi .slt a11 (broadcastInDim S250000 ![] bcast_S_S250000 (constantI S_ 32 0#32))) (addi a11 (broadcastInDim S250000 ![] bcast_S_S250000 (constantI S_ 32 100000#32))) a11)))) (broadcastInDim S100000x256 ![0, 1] bcast_S100000x1_S100000x256_0_1 (broadcastInDim S100000x1 ![0] bcast_S100000_S100000x1_0 (maximumf (Host.scatterAdd scatter_S100000_S250000x1_S250000_n_0_0_1 (broadcastInDim S100000 ![] bcast_S_S100000 (constant S_ .f32 0x00000000#32)) (broadcastInDim S250000x1 ![0] bcast_S250000_S250000x1_0 a12) (broadcastInDim S250000 ![] bcast_S_S250000 (constant S_ .f32 0x3F800000#32))) (broadcastInDim S100000 ![] bcast_S_S100000 (constant S_ .f32 0x3F800000#32)))))) (shapeCast _ (extractStridedSlice S1x1x256x256 ![0, 4, 0, 0] a15 slices_S2x5x256x256_S1x1x256x256_0_4_0_0) shapeCasts_S1x1x256x256_S256x256)) (broadcastInDim S100000x256 ![0, 1] bcast_S1x256_S100000x256_0_1 (broadcastInDim S1x256 ![1] bcast_S256_S1x256_1 (shapeCast _ (extractStridedSlice S1x1x256 ![0, 4, 0] a17 slices_S2x5x256_S1x1x256_0_4_0) shapeCasts_S1x1x256_S256)))) (Host.dotGeneral dot_S100000x256_S256x256_S100000x256_1_0_0_1_n_n none a0 (shapeCast _ (extractStridedSlice S1x1x256x256 ![0, 4, 0, 0] a16 slices_S2x5x256x256_S1x1x256x256_0_4_0_0) shapeCasts_S1x1x256x256_S256x256)))

/-- The channel nodes' layer output: the three contributions averaged, then the positive part. -/
def chan (x1 x2 x3 : (⟨S40000x256, .f32⟩ : BufTy).Contents (Elt F)) : (⟨S40000x256, .f32⟩ : BufTy).Contents (Elt F) :=
  (maximumf (Host.divf (addf (addf x1 x2) x3) (broadcastInDim S40000x256 ![] bcast_S_S40000x256 (constant S_ .f32 0x40400000#32))) (broadcastInDim S40000x256 ![] bcast_S_S40000x256 (constant S_ .f32 0x00000000#32)))

/-- The positive part on the surface-water nodes. -/
def posH (x : (⟨S100000x256, .f32⟩ : BufTy).Contents (Elt F)) : (⟨S100000x256, .f32⟩ : BufTy).Contents (Elt F) :=
  (maximumf x (broadcastInDim S100000x256 ![] bcast_S_S100000x256 (constant S_ .f32 0x00000000#32)))

/-- The positive part on the groundwater nodes. -/
def posG (x : (⟨S60000x256, .f32⟩ : BufTy).Contents (Elt F)) : (⟨S60000x256, .f32⟩ : BufTy).Contents (Elt F) :=
  (maximumf x (broadcastInDim S60000x256 ![] bcast_S_S60000x256 (constant S_ .f32 0x00000000#32)))

/-- Layer 2, channel nodes, from channel neighbours, over the layer-1 channel features. -/
def p1 (vC : (⟨S40000x256, .f32⟩ : BufTy).Contents (Elt F)) (a5 : (⟨S250000, .i32⟩ : BufTy).Contents (Elt F)) (a6 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S40000x256, .f32⟩ : BufTy).Contents (Elt F) :=
  (addf (addf (Host.dotGeneral dot_S40000x256_S256x256_S40000x256_1_0_0_1_n_n none (Host.divf (Host.scatterAdd scatter_S40000x256_S250000x1_S250000x256_1_0_0_1 (broadcastInDim S40000x256 ![] bcast_S_S40000x256 (constant S_ .f32 0x00000000#32)) (broadcastInDim S250000x1 ![0] bcast_S250000_S250000x1_0 a6) (Host.gather gather_S40000x256_S250000x1_S250000x256_1_0_n_n_0_1_1256 vC (broadcastInDim S250000x1 ![0] bcast_S250000_S250000x1_0 (select (cmpi .slt a5 (broadcastInDim S250000 ![] bcast_S_S250000 (constantI S_ 32 0#32))) (addi a5 (broadcastInDim S250000 ![] bcast_S_S250000 (constantI S_ 32 40000#32))) a5)))) (broadcastInDim S40000x256 ![0, 1] bcast_S40000x1_S40000x256_0_1 (broadcastInDim S40000x1 ![0] bcast_S40000_S40000x1_0 (maximumf (Host.scatterAdd scatter_S40000_S250000x1_S250000_n_0_0_1 (broadcastInDim S40000 ![] bcast_S_S40000 (constant S_ .f32 0x00000000#32)) (broadcastInDim S250000x1 ![0] bcast_S250000_S250000x1_0 a6) (broadcastInDim S250000 ![] bcast_S_S250000 (constant S_ .f32 0x3F800000#32))) (broadcastInDim S40000 ![] bcast_S_S40000 (constant S_ .f32 0x3F800000#32)))))) (shapeCast _ (extractStridedSlice S1x1x256x256 ![1, 1, 0, 0] a15 slices_S2x5x256x256_S1x1x256x256_1_1_0_0) shapeCasts_S1x1x256x256_S256x256)) (broadcastInDim S40000x256 ![0, 1] bcast_S1x256_S40000x256_0_1 (broadcastInDim S1x256 ![1] bcast_S256_S1x256_1 (shapeCast _ (extractStridedSlice S1x1x256 ![1, 1, 0] a17 slices_S2x5x256_S1x1x256_1_1_0) shapeCasts_S1x1x256_S256)))) (Host.dotGeneral dot_S40000x256_S256x256_S40000x256_1_0_0_1_n_n none vC (shapeCast _ (extractStridedSlice S1x1x256x256 ![1, 1, 0, 0] a16 slices_S2x5x256x256_S1x1x256x256_1_1_0_0) shapeCasts_S1x1x256x256_S256x256)))

/-- Layer 2, channel nodes, from surface-water neighbours. -/
def p2 (vH : (⟨S100000x256, .f32⟩ : BufTy).Contents (Elt F)) (vC : (⟨S40000x256, .f32⟩ : BufTy).Contents (Elt F)) (a7 : (⟨S250000, .i32⟩ : BufTy).Contents (Elt F)) (a8 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S40000x256, .f32⟩ : BufTy).Contents (Elt F) :=
  (addf (addf (Host.dotGeneral dot_S40000x256_S256x256_S40000x256_1_0_0_1_n_n none (Host.divf (Host.scatterAdd scatter_S40000x256_S250000x1_S250000x256_1_0_0_1 (broadcastInDim S40000x256 ![] bcast_S_S40000x256 (constant S_ .f32 0x00000000#32)) (broadcastInDim S250000x1 ![0] bcast_S250000_S250000x1_0 a8) (Host.gather gather_S100000x256_S250000x1_S250000x256_1_0_n_n_0_1_1256 vH (broadcastInDim S250000x1 ![0] bcast_S250000_S250000x1_0 (select (cmpi .slt a7 (broadcastInDim S250000 ![] bcast_S_S250000 (constantI S_ 32 0#32))) (addi a7 (broadcastInDim S250000 ![] bcast_S_S250000 (constantI S_ 32 100000#32))) a7)))) (broadcastInDim S40000x256 ![0, 1] bcast_S40000x1_S40000x256_0_1 (broadcastInDim S40000x1 ![0] bcast_S40000_S40000x1_0 (maximumf (Host.scatterAdd scatter_S40000_S250000x1_S250000_n_0_0_1 (broadcastInDim S40000 ![] bcast_S_S40000 (constant S_ .f32 0x00000000#32)) (broadcastInDim S250000x1 ![0] bcast_S250000_S250000x1_0 a8) (broadcastInDim S250000 ![] bcast_S_S250000 (constant S_ .f32 0x3F800000#32))) (broadcastInDim S40000 ![] bcast_S_S40000 (constant S_ .f32 0x3F800000#32)))))) (shapeCast _ (extractStridedSlice S1x1x256x256 ![1, 2, 0, 0] a15 slices_S2x5x256x256_S1x1x256x256_1_2_0_0) shapeCasts_S1x1x256x256_S256x256)) (broadcastInDim S40000x256 ![0, 1] bcast_S1x256_S40000x256_0_1 (broadcastInDim S1x256 ![1] bcast_S256_S1x256_1 (shapeCast _ (extractStridedSlice S1x1x256 ![1, 2, 0] a17 slices_S2x5x256_S1x1x256_1_2_0) shapeCasts_S1x1x256_S256)))) (Host.dotGeneral dot_S40000x256_S256x256_S40000x256_1_0_0_1_n_n none vC (shapeCast _ (extractStridedSlice S1x1x256x256 ![1, 2, 0, 0] a16 slices_S2x5x256x256_S1x1x256x256_1_2_0_0) shapeCasts_S1x1x256x256_S256x256)))

/-- Layer 2, channel nodes, from groundwater neighbours. -/
def p3 (vG : (⟨S60000x256, .f32⟩ : BufTy).Contents (Elt F)) (vC : (⟨S40000x256, .f32⟩ : BufTy).Contents (Elt F)) (a9 : (⟨S250000, .i32⟩ : BufTy).Contents (Elt F)) (a10 : (⟨S250000, .i32⟩ : BufTy).Contents (Elt F)) (a15 : (⟨S2x5x256x256, .f32⟩ : BufTy).Contents (Elt F)) (a16 : (⟨S2x5x256x256, .f32⟩ : BufTy).Contents (Elt F)) (a17 : (⟨S2x5x256, .f32⟩ : BufTy).Contents (Elt F)) : (⟨S40000x256, .f32⟩ : BufTy).Contents (Elt F) :=
  (addf (addf (Host.dotGeneral dot_S40000x256_S256x256_S40000x256_1_0_0_1_n_n none (Host.divf (Host.scatterAdd scatter_S40000x256_S250000x1_S250000x256_1_0_0_1 (broadcastInDim S40000x256 ![] bcast_S_S40000x256 (constant S_ .f32 0x00000000#32)) (broadcastInDim S250000x1 ![0] bcast_S250000_S250000x1_0 a10) (Host.gather gather_S60000x256_S250000x1_S250000x256_1_0_n_n_0_1_1256 vG (broadcastInDim S250000x1 ![0] bcast_S250000_S250000x1_0 (select (cmpi .slt a9 (broadcastInDim S250000 ![] bcast_S_S250000 (constantI S_ 32 0#32))) (addi a9 (broadcastInDim S250000 ![] bcast_S_S250000 (constantI S_ 32 60000#32))) a9)))) (broadcastInDim S40000x256 ![0, 1] bcast_S40000x1_S40000x256_0_1 (broadcastInDim S40000x1 ![0] bcast_S40000_S40000x1_0 (maximumf (Host.scatterAdd scatter_S40000_S250000x1_S250000_n_0_0_1 (broadcastInDim S40000 ![] bcast_S_S40000 (constant S_ .f32 0x00000000#32)) (broadcastInDim S250000x1 ![0] bcast_S250000_S250000x1_0 a10) (broadcastInDim S250000 ![] bcast_S_S250000 (constant S_ .f32 0x3F800000#32))) (broadcastInDim S40000 ![] bcast_S_S40000 (constant S_ .f32 0x3F800000#32)))))) (shapeCast _ (extractStridedSlice S1x1x256x256 ![1, 3, 0, 0] a15 slices_S2x5x256x256_S1x1x256x256_1_3_0_0) shapeCasts_S1x1x256x256_S256x256)) (broadcastInDim S40000x256 ![0, 1] bcast_S1x256_S40000x256_0_1 (broadcastInDim S1x256 ![1] bcast_S256_S1x256_1 (shapeCast _ (extractStridedSlice S1x1x256 ![1, 3, 0] a17 slices_S2x5x256_S1x1x256_1_3_0) shapeCasts_S1x1x256_S256)))) (Host.dotGeneral dot_S40000x256_S256x256_S40000x256_1_0_0_1_n_n none vC (shapeCast _ (extractStridedSlice S1x1x256x256 ![1, 3, 0, 0] a16 slices_S2x5x256x256_S1x1x256x256_1_3_0_0) shapeCasts_S1x1x256x256_S256x256)))

/-- The head: the layer-2 channel features averaged and made positive, pooled per graph, joined with the per-graph inputs, two dense layers. -/
def out (q1 q2 q3 : (⟨S40000x256, .f32⟩ : BufTy).Contents (Elt F)) (a13 : (⟨S40000, .i32⟩ : BufTy).Contents (Elt F)) (a14 : (⟨S64x32, .f32⟩ : BufTy).Contents (Elt F)) (a18 : (⟨S288x128, .f32⟩ : BufTy).Contents (Elt F)) (a19 : (⟨S128, .f32⟩ : BufTy).Contents (Elt F)) (a20 : (⟨S128x16, .f32⟩ : BufTy).Contents (Elt F)) (a21 : (⟨S16, .f32⟩ : BufTy).Contents (Elt F)) : (⟨S64x16, .f32⟩ : BufTy).Contents (Elt F) :=
  addf (Host.dotGeneral dot_S64x128_S128x16_S64x16_1_0_0_1_n_n none (maximumf (addf (Host.dotGeneral dot_S64x288_S288x128_S64x128_1_0_0_1_n_n none (concatenate S64x288 1 [⟨S64x256, (Host.divf (Host.scatterAdd scatter_S64x256_S40000x1_S40000x256_1_0_0_1 (broadcastInDim S64x256 ![] bcast_S_S64x256 (constant S_ .f32 0x00000000#32)) (broadcastInDim S40000x1 ![0] bcast_S40000_S40000x1_0 a13) (maximumf (Host.divf (addf (addf q1 q2) q3) (broadcastInDim S40000x256 ![] bcast_S_S40000x256 (constant S_ .f32 0x40400000#32))) (broadcastInDim S40000x256 ![] bcast_S_S40000x256 (constant S_ .f32 0x00000000#32)))) (broadcastInDim S64x256 ![0, 1] bcast_S64x1_S64x256_0_1 (broadcastInDim S64x1 ![0] bcast_S64_S64x1_0 (maximumf (Host.scatterAdd scatter_S64_S40000x1_S40000_n_0_0_1 (broadcastInDim S64 ![] bcast_S_S64 (constant S_ .f32 0x00000000#32)) (broadcastInDim S40000x1 ![0] bcast_S40000_S40000x1_0 a13) (broadcastInDim S40000 ![] bcast_S_S40000 (constant S_ .f32 0x3F800000#32))) (broadcastInDim S64 ![] bcast_S_S64 (constant S_ .f32 0x3F800000#32))))))⟩, ⟨S64x32, a14⟩] concatenates_S64x256_S64x32_S64x288_d1) a18) (broadcastInDim S64x128 ![0, 1] bcast_S1x128_S64x128_0_1 (broadcastInDim S1x128 ![1] bcast_S128_S1x128_1 a19))) (broadcastInDim S64x128 ![] bcast_S_S64x128 (constant S_ .f32 0x00000000#32))) a20) (broadcastInDim S64x16 ![0, 1] bcast_S1x16_S64x16_0_1 (broadcastInDim S1x16 ![1] bcast_S16_S1x16_1 a21))

set_option maxHeartbeats 4000000 in
/-- The program's composed result is the composition of its pieces. -/
theorem composed_eq (m : (ℓ : Loc nD τ sig) → Buf (Elt F) ℓ) (c : Dev nD) :
    Cert.ReferenceIdeal.ValueP.res_main_v345 m c = out (p1 (chan (o1 (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (o2 (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (o3 (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (p2 (posH (hru (m ((c.tc : Thread nD τ).loc main_arg0)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)))) (chan (o1 (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (o2 (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (o3 (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (p3 (posG (gw (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16)) (m ((c.tc : Thread nD τ).loc main_arg17)))) (chan (o1 (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (o2 (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (o3 (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17))) (m ((c.tc : Thread nD τ).loc main_arg13)) (m ((c.tc : Thread nD τ).loc main_arg14)) (m ((c.tc : Thread nD τ).loc main_arg18)) (m ((c.tc : Thread nD τ).loc main_arg19)) (m ((c.tc : Thread nD τ).loc main_arg20)) (m ((c.tc : Thread nD τ).loc main_arg21)) := rfl

end Cert.ReferenceIdeal.Pieces

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibPlainDotGeneral.lean ====
/-
  The host's product of an m × k matrix by a k × n matrix, read at an entry.

  A `dot_general` with the left operand contracted on its second axis and the right on its first has, at the exact
  extended reals, at entry (a, b) the sum over the k contracted coordinates c of A(a, c) · B(c, b). The general
  statement sums over the indices of a one-axis "contraction shape"; that index set is carried onto the k coordinates,
  and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- The host's `A · B`, at the exact extended reals, read at `(a, b)`: `∑ c, A (a, c) * B (c, b)`. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibMatrixProduct.lean ====
/-
  The product of two matrices over the extended reals, entry by entry, and the two machine forms of it.

  For an m × k array A and a k × n array B, `mm A B` has at entry (a, b) the sum over the k contracted
  coordinates c of A(a, c) · B(c, b). Both the host's `dot_general` (left operand contracted on its second axis, right
  operand on its first) and the matrix unit's product into an accumulator of zeros are this array: at the exact
  extended reals a product is a plain finite sum, whatever the order it is taken in and whatever float format the
  operands were narrowed to on the way in.
-/
import Idealize.ShloMosaic.PureOps.Ideal.Laws
import Idealize.ShloMosaic.Lib.ValueIdx
import proofs.«142914_j49752901157176_1_alg».proof.Proof.LibPlainMatmul
import proofs.«142914_j49752901157176_1_alg».proof.Proof.LibPlainDotGeneral

noncomputable section

open scoped BigOperators

namespace Cert.MatrixProduct

open Idealize.ShloMosaic Idealize.ShloMosaic.ValueIdx

/-- The matrix product, entry by entry: `(A · B)(a, b) = ∑ c, A(a, c) · B(c, b)`. -/
def mm {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

/-- The product read at an entry given by its coordinates. -/
theorem mm_apply {m k n : ℕ} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- A product read through a block of rows. If `x0` holds, at row `j 0`, row `i 0` of A, and `x1` holds, at
    column `j 1`, column `i 1` of B, then entry `j` of `x0 · x1` is entry `i` of `A · B`: an entry of a product
    depends on one row of the left factor and one column of the right factor only. -/
theorem mm_of_row_col {M K N R Q : ℕ} (A : (⟨2, ![M, K]⟩ : Shape).Idx → EReal) (B : (⟨2, ![K, N]⟩ : Shape).Idx → EReal)
    (x0 : (⟨2, ![R, K]⟩ : Shape).Idx → EReal) (x1 : (⟨2, ![K, Q]⟩ : Shape).Idx → EReal)
    (j : (⟨2, ![R, Q]⟩ : Shape).Idx) (i : (⟨2, ![M, N]⟩ : Shape).Idx)
    (h0 : ∀ c : Fin K, x0 (ix2 (j 0) c) = A (ix2 (i 0) c))
    (h1 : ∀ c : Fin K, x1 (ix2 c (j 1)) = B (ix2 c (i 1))) :
    mm x0 x1 j = mm A B i := by
  show ∑ c : Fin K, x0 (ix2 (j 0) c) * x1 (ix2 c (j 1)) = ∑ c : Fin K, A (ix2 (i 0) c) * B (ix2 c (i 1))
  exact Finset.sum_congr rfl fun c _ => by rw [h0 c, h1 c]

/-- The host's `dot_general` of an m × k by a k × n matrix is the matrix product. -/
theorem dotGeneral_eq_mm {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = mm A B := by
  funext i
  obtain ⟨a, b, rfl⟩ : ∃ (a : Fin m) (b : Fin n), i = ix2 a b := ⟨i 0, i 1, eq_ix2 i⟩
  exact dotGeneral_plain_apply w prec A B a b

/-- The matrix unit's product of an m × k by a k × n matrix into an accumulator of zeros is the matrix product,
    whatever float formats the two operands are held in. -/
theorem matmul_zero_eq_mm {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_plain_zero_apply w prec A B a b

end Cert.MatrixProduct

end
-- ==== Proof.LibLayerForms.lean ====
/-
  The whole-array forms of the three dense stages, over the extended reals, and the fact that makes them computable
  block by block: each entry depends on one row of the row-indexed operands only.

  * `scaledProduct X W D`: entry (r, q) is (Σ_k X(r, k) · W(k, q)) · D(r, 0) — a matrix product whose row r is scaled by
    the r-th entry of a one-column array.
  * `activated A D B`: entry (r, k) is max(A(r, k) · D(r, 0) + B(0, k), 0) — scale each row, add a row vector, take the
    positive part. The zero is kept as the float word both programs write.
  * `biasedProduct X W B`: entry (r, q) is Σ_k X(r, k) · W(k, q) + B(0, q).
-/
import proofs.«142914_j49752901157176_1_alg».proof.Proof.LibMatrixProduct

noncomputable section

namespace Cert.Gcn

open Idealize.ShloMosaic Idealize.ShloMosaic.ValueIdx Cert.MatrixProduct

/-- A matrix product with each row scaled by that row's entry of a one-column array. -/
def scaledProduct {M K N : ℕ} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => mm X W i * D (ix2 (i 0) (0 : Fin 1))

/-- Each row scaled by its entry of a one-column array, a row vector added, the positive part taken. -/
def activated {M K : ℕ} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (i 0) (0 : Fin 1)) + B (ix2 (0 : Fin 1) (i 1))) (Ideal.ofBits .f32 0x00000000#32)

/-- A matrix product plus a row vector. -/
def biasedProduct {M K N : ℕ} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => mm X W i + B (ix2 (0 : Fin 1) (i 1))

/-- Row `p` of the activation of a block is row `r` of the activation of the whole arrays, when row `p` of the block is
    row `r` of the array, its factor is that row's factor, and the row vectors agree. -/
theorem activated_row {M R K : ℕ} (A : (⟨2, ![M, K]⟩ : Shape).Idx → EReal) (D : (⟨2, ![M, 1]⟩ : Shape).Idx → EReal)
    (B : (⟨2, ![1, K]⟩ : Shape).Idx → EReal) (x0 : (⟨2, ![R, K]⟩ : Shape).Idx → EReal) (x1 : (⟨2, ![R, 1]⟩ : Shape).Idx → EReal)
    (x2 : (⟨2, ![1, K]⟩ : Shape).Idx → EReal) (p : Fin R) (r : Fin M)
    (h0 : ∀ k : Fin K, x0 (ix2 p k) = A (ix2 r k)) (h1 : x1 (ix2 p (0 : Fin 1)) = D (ix2 r (0 : Fin 1)))
    (h2 : ∀ k : Fin K, x2 (ix2 (0 : Fin 1) k) = B (ix2 (0 : Fin 1) k)) (k : Fin K) :
    activated x0 x1 x2 (ix2 p k) = activated A D B (ix2 r k) := by
  show max (x0 (ix2 p k) * x1 (ix2 p (0 : Fin 1)) + x2 (ix2 (0 : Fin 1) k)) _
    = max (A (ix2 r k) * D (ix2 r (0 : Fin 1)) + B (ix2 (0 : Fin 1) k)) _
  rw [h0 k, h1, h2 k]

/-- Entry `(p, q)` of a block's product, scaled by the block's factor of row `p`, is entry `(r, q)` of the whole scaled
    product, when row `p` of the block is row `r`, the right factors agree on column `q`, and the factors agree. -/
theorem scaledProduct_row {M R K N : ℕ} (X : (⟨2, ![M, K]⟩ : Shape).Idx → EReal) (W : (⟨2, ![K, N]⟩ : Shape).Idx → EReal)
    (D : (⟨2, ![M, 1]⟩ : Shape).Idx → EReal) (x0 : (⟨2, ![R, K]⟩ : Shape).Idx → EReal) (x1 : (⟨2, ![K, N]⟩ : Shape).Idx → EReal)
    (x2 : (⟨2, ![R, 1]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 p (0 : Fin 1)) = D (ix2 r (0 : Fin 1))) :
    mm x0 x1 (ix2 p q) * x2 (ix2 p (0 : Fin 1)) = scaledProduct X W D (ix2 r q) := by
  show _ = mm X W (ix2 r q) * D (ix2 r (0 : Fin 1))
  rw [h2]
  exact congrArg (· * D (ix2 r (0 : Fin 1))) (mm_of_row_col X W x0 x1 (ix2 p q) (ix2 r q) h0 h1)

/-- Entry `(p, q)` of a block's product plus a row vector is entry `(r, q)` of the whole biased product. -/
theorem biasedProduct_row {M R K N : ℕ} (X : (⟨2, ![M, K]⟩ : Shape).Idx → EReal) (W : (⟨2, ![K, N]⟩ : Shape).Idx → EReal)
    (B : (⟨2, ![1, N]⟩ : Shape).Idx → EReal) (x0 : (⟨2, ![R, K]⟩ : Shape).Idx → EReal) (x1 : (⟨2, ![K, N]⟩ : Shape).Idx → EReal)
    (x2 : (⟨2, ![1, N]⟩ : Shape).Idx → EReal) (p : Fin R) (q : Fin N) (r : Fin M)
    (h0 : ∀ k : Fin K, x0 (ix2 p k) = X (ix2 r k)) (h1 : ∀ k : Fin K, x1 (ix2 k q) = W (ix2 k q))
    (h2 : x2 (ix2 (0 : Fin 1) q) = B (ix2 (0 : Fin 1) q)) :
    mm x0 x1 (ix2 p q) + x2 (ix2 (0 : Fin 1) q) = biasedProduct X W B (ix2 r q) := by
  show _ = mm X W (ix2 r q) + B (ix2 (0 : Fin 1) q)
  rw [h2]
  exact congrArg (· + B (ix2 (0 : Fin 1) q)) (mm_of_row_col X W x0 x1 (ix2 p q) (ix2 r q) h0 h1)

end Cert.Gcn

end
-- ==== Proof.LibBiasedBlock.lean ====
/-
  One dense layer — a matrix product plus a row vector — in its three machine spellings.

  With X an M × K array, W a K × N array and b a vector of length N, the layer's value is the array whose entry (r, q) is
  Σ_k X(r, k) · W(k, q) + b(q). Over the extended reals three spellings of it are that one array:
    * the matrix unit's form on a block of rows: both operands narrowed to a shorter float format (the identity on
      the extended reals), multiplied into an accumulator of zeros, and a 1 × N row broadcast down the rows added;
    * the host's form: a `dot_general` plus the 1 × N row repeated M times;
    * the vector b written as a 1 × N row either by a reshape or by a broadcast along a new leading axis: the same row.
-/
import proofs.«142914_j49752901157176_1_alg».proof.Proof.LibLayerForms
import Idealize.ShloMosaic.Lib.ValueLayout
import Idealize.ShloMosaic.Lib.Pipeline.Value
import Idealize.ShloMosaic.Lib.ValueIdx

noncomputable section

namespace Cert.Gcn

open Idealize.ShloMosaic Idealize.ShloMosaic.ValueIdx Cert.MatrixProduct

/-- A vector of length `n` laid out as the one row of a 1 × n array. -/
def rowOf {n : ℕ} (b : (⟨1, ![n]⟩ : Shape).Idx → EReal) : (⟨2, ![1, n]⟩ : Shape).Idx → EReal :=
  fun i => b (ix1 (i 1))

/-- The matrix unit's layer on a block: operands narrowed to bf16, multiplied into zeros, plus the broadcast row. -/
theorem block_linear {R K N : ℕ}
    (w : DotDims.WF ⟨2, ![R, K]⟩ ⟨2, ![K, N]⟩ ⟨2, ![R, N]⟩ [1] [0] [0] [1] [] [])
    (hb : FTy.bits .bf16 < FTy.bits .f32)
    (h0 : (⟨2, ![R, K]⟩ : Shape).ShapeCasts ⟨2, ![R, K]⟩) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 (shapeCast ⟨2, ![R, K]⟩ x0 h0) hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, shapeCast_self, broadcastTo_1b_ab_apply]
  rfl

/-- The host's layer: a `dot_general` plus a 1 × N row repeated down the M rows. -/
theorem host_linear {M K N : ℕ}
    (w : DotDims.WF ⟨2, ![M, K]⟩ ⟨2, ![K, N]⟩ ⟨2, ![M, N]⟩ [1] [0] [0] [1] [] [])
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (B : FVec Ideal ⟨2, ![1, N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 B)
      = biasedProduct A W B := by
  funext j
  obtain ⟨p, q, rfl⟩ : ∃ (p : Fin M) (q : Fin N), j = ix2 p q := ⟨j 0, j 1, eq_ix2 j⟩
  rw [addf_apply, dotGeneral_eq_mm]
  refine congrArg (mm A W (ix2 p q) + ·) ?_
  refine broadcastInDim_apply _ h2 B (ix2 p q) (ix2 (0 : Fin 1) q) (fun ax => ?_)
  match ax with
  | ⟨0, _⟩ => show 0 = if (1 : ℕ) = 1 then 0 else p.val; rw [if_pos rfl]
  | ⟨1, _⟩ =>
    show q.val = if N = 1 then 0 else q.val
    split
    · have := q.isLt; omega
    · rfl

/-- A vector broadcast along a new leading axis is its one row. -/
theorem bcast_row_eq_rowOf {n : ℕ} (b : (⟨1, ![n]⟩ : Shape).Idx → EReal)
    (h1 : (⟨1, ![n]⟩ : Shape).BroadcastsInDim ⟨2, ![1, n]⟩ (![1] : Fin 1 → Fin 2)) :
    broadcastInDim ⟨2, ![1, n]⟩ (![1] : Fin 1 → Fin 2) h1 b = rowOf b := by
  funext j
  obtain ⟨u, a, rfl⟩ : ∃ (u : Fin 1) (a : Fin n), j = ix2 u a := ⟨j 0, j 1, eq_ix2 j⟩
  refine broadcastInDim_apply _ h1 b (ix2 u a) (ix1 a) (fun ax => ?_)
  match ax with
  | ⟨0, _⟩ =>
    show a.val = if n = 1 then 0 else a.val
    split
    · have := a.isLt; omega
    · rfl

/-- A vector reshaped to 1 × n is its one row. -/
theorem cast_row_eq_rowOf {n : ℕ} (b : (⟨1, ![n]⟩ : Shape).Idx → EReal)
    (h : (⟨1, ![n]⟩ : Shape).ShapeCasts ⟨2, ![1, n]⟩) :
    shapeCast ⟨2, ![1, n]⟩ b h = rowOf b := by
  funext j
  obtain ⟨u, a, rfl⟩ : ∃ (u : Fin 1) (a : Fin n), j = ix2 u a := ⟨j 0, j 1, eq_ix2 j⟩
  exact shapeCast_a_1a_apply b h u a

end Cert.Gcn

end
-- ==== Proof.LibTwoLayer.lean ====
/-
  Two dense layers with a positive part between them, over the extended reals:

      hidden X W1 B1 (r, k) = max (Σ_j X(r, j) · W1(j, k) + B1(0, k), 0)
      logits X W1 B1 W2 B2 (r, q) = Σ_k hidden(r, k) · W2(k, q) + B2(0, q)

  with the two bias vectors laid out as one-row arrays. Three facts. (1) What the matrix unit computes on a block of
  rows — operands narrowed to a shorter float format (the identity on the extended reals), products accumulated from
  zero, a one-row array broadcast down the rows added, the larger of the sum and zero taken — is `logits` of the blocks.
  (2) What the host computes — two `dot_general`s, each followed by the bias vector broadcast first to a row and then
  down the rows, with a maximum against a broadcast zero between — is `logits` of the whole arrays. (3) Row `p` of
  `logits` of a block of rows is row `r` of `logits` of the whole array when row `p` of the block is row `r` of the
  array: an entry depends on one row of X only, so the row-tiled computation assembles the whole one.
-/
import proofs.«142914_j49752901157176_1_alg».proof.Proof.LibBiasedBlock

noncomputable section

namespace Cert.Mlp

open Idealize.ShloMosaic Idealize.ShloMosaic.ValueIdx Cert.MatrixProduct Cert.Gcn

/-- The first layer: a biased product, then the larger of it and the zero word. -/
def hidden {M K N : ℕ} (X : (⟨2, ![M, K]⟩ : Shape).Idx → EReal) (W1 : (⟨2, ![K, N]⟩ : Shape).Idx → EReal)
    (B1 : (⟨2, ![1, N]⟩ : Shape).Idx → EReal) : (⟨2, ![M, N]⟩ : Shape).Idx → EReal :=
  fun i => max (biasedProduct X W1 B1 i) (Ideal.ofBits .f32 0x00000000#32)

/-- Both layers. -/
def logits {M K N Q : ℕ} (X : (⟨2, ![M, K]⟩ : Shape).Idx → EReal) (W1 : (⟨2, ![K, N]⟩ : Shape).Idx → EReal)
    (B1 : (⟨2, ![1, N]⟩ : Shape).Idx → EReal) (W2 : (⟨2, ![N, Q]⟩ : Shape).Idx → EReal) (B2 : (⟨2, ![1, Q]⟩ : Shape).Idx → EReal) :
    (⟨2, ![M, Q]⟩ : Shape).Idx → EReal :=
  biasedProduct (hidden X W1 B1) W2 B2

/-- The matrix unit's biased product of a block: operands narrowed, multiplied into zeros, plus the broadcast row. -/
theorem block_biased {R K N : ℕ}
    (w : DotDims.WF ⟨2, ![R, K]⟩ ⟨2, ![K, N]⟩ ⟨2, ![R, N]⟩ [1] [0] [0] [1] [] [])
    (hb : FTy.bits .bf16 < FTy.bits .f32) (h2 : (⟨2, ![1, N]⟩ : Shape).ShapeCasts ⟨2, ![1, N]⟩)
    (hbc : (⟨2, ![1, N]⟩ : Shape).Broadcasts ⟨2, ![R, N]⟩)
    (x0 : FVec Ideal ⟨2, ![R, K]⟩ .f32) (x1 : FVec Ideal ⟨2, ![K, N]⟩ .f32) (x2 : FVec Ideal ⟨2, ![1, N]⟩ .f32) :
    addf (matmul (⟨[1], [0], [0], [1], [], [], w⟩ : DotDims ⟨2, ![R, K]⟩ ⟨2, ![K, N]⟩ ⟨2, ![R, N]⟩) none
          (truncf .bf16 x0 hb) (truncf .bf16 x1 hb)
          (constant (F := Ideal) ⟨2, ![R, N]⟩ .f32 0x00000000#32))
        (broadcastTo ⟨2, ![R, N]⟩ (shapeCast ⟨2, ![1, N]⟩ x2 h2) hbc)
      = biasedProduct x0 x1 x2 := by
  funext j
  obtain ⟨p, q, rfl⟩ : ∃ (p : Fin R) (q : Fin N), j = ix2 p q := ⟨j 0, j 1, eq_ix2 j⟩
  rw [addf_apply, matmul_zero_eq_mm, shapeCast_self, broadcastTo_1b_ab_apply]
  rfl

/-- (1) The matrix unit's two layers on a block of rows are `logits` of the blocks. -/
theorem block_logits {R K N Q : ℕ}
    (w1 : DotDims.WF ⟨2, ![R, K]⟩ ⟨2, ![K, N]⟩ ⟨2, ![R, N]⟩ [1] [0] [0] [1] [] [])
    (w2 : DotDims.WF ⟨2, ![R, N]⟩ ⟨2, ![N, Q]⟩ ⟨2, ![R, Q]⟩ [1] [0] [0] [1] [] [])
    (hb : FTy.bits .bf16 < FTy.bits .f32)
    (h1 : (⟨2, ![1, N]⟩ : Shape).ShapeCasts ⟨2, ![1, N]⟩) (hbc1 : (⟨2, ![1, N]⟩ : Shape).Broadcasts ⟨2, ![R, N]⟩)
    (h2 : (⟨2, ![1, Q]⟩ : Shape).ShapeCasts ⟨2, ![1, Q]⟩) (hbc2 : (⟨2, ![1, Q]⟩ : Shape).Broadcasts ⟨2, ![R, Q]⟩)
    (x0 : FVec Ideal ⟨2, ![R, K]⟩ .f32) (x1 : FVec Ideal ⟨2, ![K, N]⟩ .f32) (x2 : FVec Ideal ⟨2, ![1, N]⟩ .f32)
    (x3 : FVec Ideal ⟨2, ![N, Q]⟩ .f32) (x4 : FVec Ideal ⟨2, ![1, Q]⟩ .f32) :
    addf (matmul (⟨[1], [0], [0], [1], [], [], w2⟩ : DotDims ⟨2, ![R, N]⟩ ⟨2, ![N, Q]⟩ ⟨2, ![R, Q]⟩) none
          (truncf .bf16
            (maximumf
              (addf (matmul (⟨[1], [0], [0], [1], [], [], w1⟩ : DotDims ⟨2, ![R, K]⟩ ⟨2, ![K, N]⟩ ⟨2, ![R, N]⟩) none
                    (truncf .bf16 x0 hb) (truncf .bf16 x1 hb) (constant (F := Ideal) ⟨2, ![R, N]⟩ .f32 0x00000000#32))
                (broadcastTo ⟨2, ![R, N]⟩ (shapeCast ⟨2, ![1, N]⟩ x2 h1) hbc1))
              (broadcast ⟨2, ![R, N]⟩ (Scalar.ofBits (F := Ideal) .f32 0x00000000#32))) hb)
          (truncf .bf16 x3 hb)
          (constant (F := Ideal) ⟨2, ![R, Q]⟩ .f32 0x00000000#32))
        (broadcastTo ⟨2, ![R, Q]⟩ (shapeCast ⟨2, ![1, Q]⟩ x4 h2) hbc2)
      = logits x0 x1 x2 x3 x4 := by
  rw [block_biased w1 hb h1 hbc1 x0 x1 x2]
  exact block_biased w2 hb h2 hbc2 _ x3 x4

/-- The host's biased product with the bias a VECTOR: broadcast to a row, then down the rows. -/
theorem host_biased {M K N : ℕ}
    (w : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (A : FVec Ideal ⟨2, ![M, K]⟩ .f32) (W : FVec Ideal ⟨2, ![K, N]⟩ .f32) (b : FVec Ideal ⟨1, ![N]⟩ .f32) :
    addf (Host.dotGeneral (⟨[1], [0], [0], [1], [], [], w⟩ : DotDims ⟨2, ![M, K]⟩ ⟨2, ![K, N]⟩ ⟨2, ![M, N]⟩) none A W)
        (broadcastInDim ⟨2, ![M, N]⟩ (![0, 1] : Fin 2 → Fin 2) h2 (broadcastInDim ⟨2, ![1, N]⟩ (![1] : Fin 1 → Fin 2) h1 b))
      = biasedProduct A W (rowOf b) := by
  rw [bcast_row_eq_rowOf b h1]
  exact host_linear w h2 A W (rowOf b)

/-- (2) The host's two layers are `logits` of the whole arrays, the bias vectors as rows. -/
theorem host_logits {M K N Q : ℕ}
    (w1 : DotDims.WF ⟨2, ![M, K]⟩ ⟨2, ![K, N]⟩ ⟨2, ![M, N]⟩ [1] [0] [0] [1] [] [])
    (w2 : DotDims.WF ⟨2, ![M, N]⟩ ⟨2, ![N, Q]⟩ ⟨2, ![M, Q]⟩ [1] [0] [0] [1] [] [])
    (h1 : (⟨1, ![N]⟩ : Shape).BroadcastsInDim ⟨2, ![1, N]⟩ (![1] : Fin 1 → Fin 2))
    (h1' : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2))
    (h2 : (⟨1, ![Q]⟩ : Shape).BroadcastsInDim ⟨2, ![1, Q]⟩ (![1] : Fin 1 → Fin 2))
    (h2' : (⟨2, ![1, Q]⟩ : Shape).BroadcastsInDim ⟨2, ![M, Q]⟩ (![0, 1] : Fin 2 → Fin 2))
    (X : FVec Ideal ⟨2, ![M, K]⟩ .f32) (W1 : FVec Ideal ⟨2, ![K, N]⟩ .f32) (b1 : FVec Ideal ⟨1, ![N]⟩ .f32)
    (W2 : FVec Ideal ⟨2, ![N, Q]⟩ .f32) (b2 : FVec Ideal ⟨1, ![Q]⟩ .f32) :
    addf (Host.dotGeneral (⟨[1], [0], [0], [1], [], [], w2⟩ : DotDims ⟨2, ![M, N]⟩ ⟨2, ![N, Q]⟩ ⟨2, ![M, Q]⟩) none
          (maximumf
            (addf (Host.dotGeneral (⟨[1], [0], [0], [1], [], [], w1⟩ : DotDims ⟨2, ![M, K]⟩ ⟨2, ![K, N]⟩ ⟨2, ![M, N]⟩) none X W1)
              (broadcastInDim ⟨2, ![M, N]⟩ (![0, 1] : Fin 2 → Fin 2) h1' (broadcastInDim ⟨2, ![1, N]⟩ (![1] : Fin 1 → Fin 2) h1 b1)))
            (broadcastInDim ⟨2, ![M, N]⟩ (![] : Fin 0 → Fin 2) h0 (constant (F := Ideal) ⟨0, ![]⟩ .f32 0x00000000#32)))
          W2)
        (broadcastInDim ⟨2, ![M, Q]⟩ (![0, 1] : Fin 2 → Fin 2) h2' (broadcastInDim ⟨2, ![1, Q]⟩ (![1] : Fin 1 → Fin 2) h2 b2))
      = logits X W1 (rowOf b1) W2 (rowOf b2) := by
  rw [host_biased w1 h1 h1' X W1 b1]
  exact host_biased w2 h2 h2' _ W2 b2

/-- (3) Row `p` of `logits` of a block of rows is row `r` of `logits` of the whole array, when row `p` of the block is row
    `r` of the array and the other operands are the same. -/
theorem logits_row {M R K N Q : ℕ} (X : (⟨2, ![M, K]⟩ : Shape).Idx → EReal) (W1 : (⟨2, ![K, N]⟩ : Shape).Idx → EReal)
    (B1 : (⟨2, ![1, N]⟩ : Shape).Idx → EReal) (W2 : (⟨2, ![N, Q]⟩ : Shape).Idx → EReal) (B2 : (⟨2, ![1, Q]⟩ : Shape).Idx → EReal)
    (x0 : (⟨2, ![R, K]⟩ : Shape).Idx → EReal) (p : Fin R) (r : Fin M) (q : Fin Q)
    (h0 : ∀ j : Fin K, x0 (ix2 p j) = X (ix2 r j)) :
    logits x0 W1 B1 W2 B2 (ix2 p q) = logits X W1 B1 W2 B2 (ix2 r q) := by
  refine biasedProduct_row (hidden X W1 B1) W2 B2 (hidden x0 W1 B1) W2 B2 p q r (fun k => ?_) (fun _ => rfl) rfl
  show max (biasedProduct x0 W1 B1 (ix2 p k)) _ = max (biasedProduct X W1 B1 (ix2 r k)) _
  exact congrArg (max · _) (biasedProduct_row X W1 B1 x0 W1 B1 p k r h0 (fun _ => rfl) rfl)

end Cert.Mlp

end
-- ==== Proof.LibSageCombine.lean ====
/-
  One neighbour-and-root combination step over the extended reals.

  For M x K arrays X (the neighbourhood means) and Y (the nodes' own features), K x N arrays Wl and Wr and a 1 x N row B,

      combine X Y Wl Wr B (r, q) = Σ_k X(r, k) · Wl(k, q) + Σ_k Y(r, k) · Wr(k, q) + B(0, q).

  Three facts. (1) What the matrix unit computes on a block of rows — operands narrowed to a shorter float format (the
  identity on the extended reals), two products accumulated from zero and added, a one-row array broadcast down the rows
  added last — is `combine` of the blocks. (2) What the host computes — the first product, plus the bias vector broadcast
  to a row and then down the rows, plus the second product — is `combine` of the whole arrays: addition of extended reals
  is commutative and associative, so the order of the three summands does not matter. (3) An entry of `combine` depends
  on one row of X and of Y only, so a computation tiled by rows assembles the whole array.

  Likewise for the two dense layers with a positive part between them when the matrix unit is fed full-width floats.
-/
import proofs.«142914_j49752901157176_1_alg».proof.Proof.LibTwoLayer

noncomputable section

namespace Cert.Sage

open Idealize.ShloMosaic Idealize.ShloMosaic.ValueIdx Cert.MatrixProduct Cert.Gcn Cert.Mlp

/-- Two matrix products and a row vector, added. -/
def combine {M K N : ℕ} (X Y : (⟨2, ![M, K]⟩ : Shape).Idx → EReal) (Wl Wr : (⟨2, ![K, N]⟩ : Shape).Idx → EReal)
    (B : (⟨2, ![1, N]⟩ : Shape).Idx → EReal) : (⟨2, ![M, N]⟩ : Shape).Idx → EReal :=
  fun i => mm X Wl i + mm Y Wr i + B (ix2 (0 : Fin 1) (i 1))

/-- (3) Entry `j` of `combine` of blocks is entry `i` of `combine` of the whole arrays, when row `j 0` of each row block is
    row `i 0` of its array, column `j 1` of each right factor is column `i 1` of the whole one, and the rows agree there. -/
theorem combine_block {M R K N Q : ℕ} (X Y : (⟨2, ![M, K]⟩ : Shape).Idx → EReal) (Wl Wr : (⟨2, ![K, N]⟩ : Shape).Idx → EReal)
    (B : (⟨2, ![1, N]⟩ : Shape).Idx → EReal)
    (x0 x1 : (⟨2, ![R, K]⟩ : Shape).Idx → EReal) (x2 x3 : (⟨2, ![K, Q]⟩ : Shape).Idx → EReal) (x4 : (⟨2, ![1, Q]⟩ : Shape).Idx → EReal)
    (j : (⟨2, ![R, Q]⟩ : Shape).Idx) (i : (⟨2, ![M, N]⟩ : Shape).Idx)
    (h0 : ∀ k : Fin K, x0 (ix2 (j 0) k) = X (ix2 (i 0) k)) (h1 : ∀ k : Fin K, x1 (ix2 (j 0) k) = Y (ix2 (i 0) k))
    (h2 : ∀ k : Fin K, x2 (ix2 k (j 1)) = Wl (ix2 k (i 1))) (h3 : ∀ k : Fin K, x3 (ix2 k (j 1)) = Wr (ix2 k (i 1)))
    (h4 : x4 (ix2 (0 : Fin 1) (j 1)) = B (ix2 (0 : Fin 1) (i 1))) :
    combine x0 x1 x2 x3 x4 j = combine X Y Wl Wr B i := by
  show mm x0 x2 j + mm x1 x3 j + x4 (ix2 (0 : Fin 1) (j 1)) = mm X Wl i + mm Y Wr i + B (ix2 (0 : Fin 1) (i 1))
  rw [mm_of_row_col X Wl x0 x2 j i h0 h2, mm_of_row_col Y Wr x1 x3 j i h1 h3, h4]

/-- (1) The matrix unit's step on a block, its four matrix operands already narrowed. -/
theorem block_combine {R K N : ℕ} {φ : FTy}
    (w : DotDims.WF ⟨2, ![R, K]⟩ ⟨2, ![K, N]⟩ ⟨2, ![R, N]⟩ [1] [0] [0] [1] [] [])
    (h2 : (⟨2, ![1, N]⟩ : Shape).ShapeCasts ⟨2, ![1, N]⟩) (hbc : (⟨2, ![1, N]⟩ : Shape).Broadcasts ⟨2, ![R, N]⟩)
    (a0 a1 : FVec Ideal ⟨2, ![R, K]⟩ φ) (b0 b1 : FVec Ideal ⟨2, ![K, N]⟩ φ) (x4 : FVec Ideal ⟨2, ![1, N]⟩ .f32) :
    addf (addf (matmul (⟨[1], [0], [0], [1], [], [], w⟩ : DotDims ⟨2, ![R, K]⟩ ⟨2, ![K, N]⟩ ⟨2, ![R, N]⟩) none a0 b0
                  (constant (F := Ideal) ⟨2, ![R, N]⟩ .f32 0x00000000#32))
               (matmul (⟨[1], [0], [0], [1], [], [], w⟩ : DotDims ⟨2, ![R, K]⟩ ⟨2, ![K, N]⟩ ⟨2, ![R, N]⟩) none a1 b1
                  (constant (F := Ideal) ⟨2, ![R, N]⟩ .f32 0x00000000#32)))
        (broadcastTo ⟨2, ![R, N]⟩ (shapeCast ⟨2, ![1, N]⟩ x4 h2) hbc)
      = combine a0 a1 b0 b1 x4 := by
  funext j
  obtain ⟨p, q, rfl⟩ : ∃ (p : Fin R) (q : Fin N), j = ix2 p q := ⟨j 0, j 1, eq_ix2 j⟩
  rw [addf_apply, addf_apply, matmul_zero_eq_mm, matmul_zero_eq_mm, shapeCast_self, broadcastTo_1b_ab_apply]
  rfl

/-- (2) The host's step: product, plus the bias vector as a row repeated down the rows, plus the second product. -/
theorem host_combine {M K N : ℕ}
    (w : DotDims.WF ⟨2, ![M, K]⟩ ⟨2, ![K, N]⟩ ⟨2, ![M, N]⟩ [1] [0] [0] [1] [] [])
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (A Y : FVec Ideal ⟨2, ![M, K]⟩ .f32) (Wl Wr : FVec Ideal ⟨2, ![K, N]⟩ .f32) (b : FVec Ideal ⟨1, ![N]⟩ .f32) :
    addf (addf (Host.dotGeneral (⟨[1], [0], [0], [1], [], [], w⟩ : DotDims ⟨2, ![M, K]⟩ ⟨2, ![K, N]⟩ ⟨2, ![M, N]⟩) none A Wl)
               (broadcastInDim ⟨2, ![M, N]⟩ (![0, 1] : Fin 2 → Fin 2) h2 (broadcastInDim ⟨2, ![1, N]⟩ (![1] : Fin 1 → Fin 2) h1 b)))
        (Host.dotGeneral (⟨[1], [0], [0], [1], [], [], w⟩ : DotDims ⟨2, ![M, K]⟩ ⟨2, ![K, N]⟩ ⟨2, ![M, N]⟩) none Y Wr)
      = combine A Y Wl Wr (rowOf b) := by
  funext j
  rw [addf_apply, host_biased w h1 h2 A Wl b, dotGeneral_eq_mm]
  show mm A Wl j + rowOf b (ix2 (0 : Fin 1) (j 1)) + mm Y Wr j = mm A Wl j + mm Y Wr j + rowOf b (ix2 (0 : Fin 1) (j 1))
  exact add_right_comm _ _ _

/-- The matrix unit's two dense layers on full-width floats: products accumulated from zero, a one-row array broadcast
    down the rows added to each, the larger of the first sum and zero taken between them. -/
theorem block_logits_wide {R K N Q : ℕ}
    (w1 : DotDims.WF ⟨2, ![R, K]⟩ ⟨2, ![K, N]⟩ ⟨2, ![R, N]⟩ [1] [0] [0] [1] [] [])
    (w2 : DotDims.WF ⟨2, ![R, N]⟩ ⟨2, ![N, Q]⟩ ⟨2, ![R, Q]⟩ [1] [0] [0] [1] [] [])
    (h0 : (⟨2, ![R, K]⟩ : Shape).ShapeCasts ⟨2, ![R, K]⟩)
    (h1 : (⟨2, ![1, N]⟩ : Shape).ShapeCasts ⟨2, ![1, N]⟩) (hbc1 : (⟨2, ![1, N]⟩ : Shape).Broadcasts ⟨2, ![R, N]⟩)
    (h2 : (⟨2, ![1, Q]⟩ : Shape).ShapeCasts ⟨2, ![1, Q]⟩) (hbc2 : (⟨2, ![1, Q]⟩ : Shape).Broadcasts ⟨2, ![R, Q]⟩)
    (x0 : FVec Ideal ⟨2, ![R, K]⟩ .f32) (x1 : FVec Ideal ⟨2, ![K, N]⟩ .f32) (x2 : FVec Ideal ⟨2, ![1, N]⟩ .f32)
    (x3 : FVec Ideal ⟨2, ![N, Q]⟩ .f32) (x4 : FVec Ideal ⟨2, ![1, Q]⟩ .f32) :
    addf (matmul (⟨[1], [0], [0], [1], [], [], w2⟩ : DotDims ⟨2, ![R, N]⟩ ⟨2, ![N, Q]⟩ ⟨2, ![R, Q]⟩) none
          (maximumf
            (addf (matmul (⟨[1], [0], [0], [1], [], [], w1⟩ : DotDims ⟨2, ![R, K]⟩ ⟨2, ![K, N]⟩ ⟨2, ![R, N]⟩) none
                  (shapeCast ⟨2, ![R, K]⟩ x0 h0) x1 (constant (F := Ideal) ⟨2, ![R, N]⟩ .f32 0x00000000#32))
              (broadcastTo ⟨2, ![R, N]⟩ (shapeCast ⟨2, ![1, N]⟩ x2 h1) hbc1))
            (broadcast ⟨2, ![R, N]⟩ (Scalar.ofBits (F := Ideal) .f32 0x00000000#32)))
          x3
          (constant (F := Ideal) ⟨2, ![R, Q]⟩ .f32 0x00000000#32))
        (broadcastTo ⟨2, ![R, Q]⟩ (shapeCast ⟨2, ![1, Q]⟩ x4 h2) hbc2)
      = logits x0 x1 x2 x3 x4 := by
  have e1 : addf (matmul (⟨[1], [0], [0], [1], [], [], w1⟩ : DotDims ⟨2, ![R, K]⟩ ⟨2, ![K, N]⟩ ⟨2, ![R, N]⟩) none
                  (shapeCast ⟨2, ![R, K]⟩ x0 h0) x1 (constant (F := Ideal) ⟨2, ![R, N]⟩ .f32 0x00000000#32))
              (broadcastTo ⟨2, ![R, N]⟩ (shapeCast ⟨2, ![1, N]⟩ x2 h1) hbc1) = biasedProduct x0 x1 x2 := by
    funext j
    obtain ⟨p, q, rfl⟩ : ∃ (p : Fin R) (q : Fin N), j = ix2 p q := ⟨j 0, j 1, eq_ix2 j⟩
    rw [addf_apply, matmul_zero_eq_mm, shapeCast_self, shapeCast_self, broadcastTo_1b_ab_apply]
    rfl
  rw [e1]
  funext j
  obtain ⟨p, q, rfl⟩ : ∃ (p : Fin R) (q : Fin Q), j = ix2 p q := ⟨j 0, j 1, eq_ix2 j⟩
  rw [addf_apply, matmul_zero_eq_mm, shapeCast_self, broadcastTo_1b_ab_apply]
  rfl

/-- Entry `j` of the two layers on blocks is entry `i` of the two layers on the whole arrays, when row `j 0` of the row
    block is row `i 0` of the array, column `j 1` of the last factor and of the last row is column `i 1` of the whole
    ones, and the middle operands agree. -/
theorem logits_block {M R K N Q : ℕ}
    (X : (⟨2, ![M, K]⟩ : Shape).Idx → EReal) (W1 : (⟨2, ![K, N]⟩ : Shape).Idx → EReal) (B1 : (⟨2, ![1, N]⟩ : Shape).Idx → EReal)
    (W2 : (⟨2, ![N, Q]⟩ : Shape).Idx → EReal) (B2 : (⟨2, ![1, Q]⟩ : Shape).Idx → EReal)
    (x0 : (⟨2, ![R, K]⟩ : Shape).Idx → EReal) (x1 : (⟨2, ![K, N]⟩ : Shape).Idx → EReal) (x2 : (⟨2, ![1, N]⟩ : Shape).Idx → EReal)
    (x3 : (⟨2, ![N, Q]⟩ : Shape).Idx → EReal) (x4 : (⟨2, ![1, Q]⟩ : Shape).Idx → EReal)
    (j : (⟨2, ![R, Q]⟩ : Shape).Idx) (i : (⟨2, ![M, Q]⟩ : Shape).Idx)
    (h0 : ∀ k : Fin K, x0 (ix2 (j 0) k) = X (ix2 (i 0) k))
    (h1 : ∀ (a : Fin K) (b : Fin N), x1 (ix2 a b) = W1 (ix2 a b))
    (h2 : ∀ b : Fin N, x2 (ix2 (0 : Fin 1) b) = B1 (ix2 (0 : Fin 1) b))
    (h3 : ∀ a : Fin N, x3 (ix2 a (j 1)) = W2 (ix2 a (i 1)))
    (h4 : x4 (ix2 (0 : Fin 1) (j 1)) = B2 (ix2 (0 : Fin 1) (i 1))) :
    logits x0 x1 x2 x3 x4 j = logits X W1 B1 W2 B2 i := by
  show mm (hidden x0 x1 x2) x3 j + x4 (ix2 (0 : Fin 1) (j 1)) = mm (hidden X W1 B1) W2 i + B2 (ix2 (0 : Fin 1) (i 1))
  rw [h4]
  refine congrArg (· + B2 (ix2 (0 : Fin 1) (i 1))) (mm_of_row_col (hidden X W1 B1) W2 (hidden x0 x1 x2) x3 j i (fun k => ?_) h3)
  show max (mm x0 x1 (ix2 (j 0) k) + x2 (ix2 (0 : Fin 1) k)) _ = max (mm X W1 (ix2 (i 0) k) + B1 (ix2 (0 : Fin 1) k)) _
  rw [h2 k, mm_of_row_col X W1 x0 x1 (ix2 (j 0) k) (ix2 (i 0) k) h0 (fun c => h1 c k)]

end Cert.Sage

end
-- ==== Proof.Region0.lean ====
/-
  Region 0 of the kernel program: one neighbour-and-root combination over 60000 nodes, computed 30 blocks of 2000
  rows at a time. Block t of the output holds rows 2000·t … 2000·t + 1999; each entry depends on one row of the two
  row-indexed operands, so the 30 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k0_pay1 (F := Ideal) x0 x1 x2 x3 x4 = combine x0 x1 x2 x3 x4 := by
  unfold k0_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section AtEntry

variable (V : (c : Dev nD) → (b : Ref sig .tc) → Buf (Elt Ideal) ((c : Thread nD τ).loc b))

/-- The whole output array as one function of the arrays the region finds. -/
abbrev whole (c : Dev nD) : S60000x256.Idx → EReal :=
  combine (M := 60000) (K := 256) (N := 256) (V c main_v24) (V c main_arg2) (V c main_v1) (V c main_v3) (V c main_call0_v0)

set_option maxHeartbeats 2000000 in
/-- What point t writes back is block t of the whole array. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 60000) (R := 2000) (K := 256) (N := 256) (Q := 256) (V c main_v24) (V c main_arg2) (V c main_v1) (V c main_v3) (V c main_call0_v0)
    (iblk0 V c 0 t) (iblk0 V c 1 t) (iblk0 V c 2 t) (iblk0 V c 3 t) (iblk0 V c 4 t) j
    (((cfg0.win 5).blk t).view.emb j) ?_ ?_ ?_ ?_ ?_
  · intro k
    show V c main_v24 (((cfg0.win 0).blk t).view.emb (ix2 (j 0) k)) = V c main_v24 (ix2 ((((cfg0.win 5).blk t).view.emb j) 0) k)
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 256 + 1 * k.val = k.val; omega
  · intro k
    show V c main_arg2 (((cfg0.win 1).blk t).view.emb (ix2 (j 0) k)) = V c main_arg2 (ix2 ((((cfg0.win 5).blk t).view.emb j) 0) k)
    refine congrArg _ (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 256 + 1 * k.val = k.val; omega
  · intro k
    show V c main_v1 (((cfg0.win 2).blk t).view.emb (ix2 k (j 1))) = V c main_v1 (ix2 k ((((cfg0.win 5).blk t).view.emb j) 1))
    refine congrArg _ (funext fun a => Fin.ext ?_)
    match a with
    | ⟨0, _⟩ => show win0_2.index t (0 : Fin 2) * 256 + 1 * k.val = k.val; omega
    | ⟨1, _⟩ => show win0_2.index t (1 : Fin 2) * 256 + 1 * (j 1).val = win0_5.index t (1 : Fin 2) * 256 + 1 * (j 1).val; omega
  · intro k
    show V c main_v3 (((cfg0.win 3).blk t).view.emb (ix2 k (j 1))) = V c main_v3 (ix2 k ((((cfg0.win 5).blk t).view.emb j) 1))
    refine congrArg _ (funext fun a => Fin.ext ?_)
    match a with
    | ⟨0, _⟩ => show win0_3.index t (0 : Fin 2) * 256 + 1 * k.val = k.val; omega
    | ⟨1, _⟩ => show win0_3.index t (1 : Fin 2) * 256 + 1 * (j 1).val = win0_5.index t (1 : Fin 2) * 256 + 1 * (j 1).val; omega
  · show V c main_call0_v0 (((cfg0.win 4).blk t).view.emb (ix2 (0 : Fin 1) (j 1))) = V c main_call0_v0 (ix2 (0 : Fin 1) ((((cfg0.win 5).blk t).view.emb j) 1))
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + 1 * (j 1).val; omega

/-- An index of the array lies in point t's block iff each coordinate lies in the block's range on its axis. -/
theorem mem_block (t : Fin cfg0.N) (i : S60000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v25).slice (win0_5.rect t)).set ↔ _
  rw [View.set_slice_whole, Rect.mem_set_unit]
  exact Iff.rfl

/-- Every index of the array lies in some point's block: row r in block r / 2000. -/
theorem covered (i : S60000x256.Idx) : ∃ t : Fin cfg0.N, (cfg0.win 5).flush t = true ∧ i ∈ ((cfg0.win 5).blk t).view.set := by
  have hi0 : (i 0).val < 60000 := (i 0).isLt
  have hi1 : (i 1).val < 256 := (i 1).isLt
  have hN : grid0.N = 30 := N_0
  have ht : (i 0).val / 2000 < grid0.N := by omega
  obtain ⟨-, -, -, -, -, -, -, -, -, -, f0, f1⟩ := index_facts ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    rw [f1]; omega

/-- The output array after the region is the combination of the arrays the region finds. -/
theorem final (c : Dev nD) : (dat0 V c).arrAt 5 cfg0.N = whole V c :=
  (dat0 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call0_v0) :
    W2 m ρ c (Proc.devRef .tc r) = W1 m ρ c (Proc.devRef .tc r) :=
  StableHlo.after_of_forall_not_mem (b := Proc.devRef .tc r) _ _ (List.forall_iff_forall_mem.mp (by
    simp only [hostOps0_1, List.Forall, StableHlo.reshape_writes, Finset.mem_singleton]
    exact StableHlo.devRef_ne_of_ne h))

/-- The bias row the region finds is the bias vector as a row. -/
theorem bias_row (c : Dev nD) :
    W2 m ρ c (Proc.devRef .tc main_call0_v0) = rowOf (W1 m ρ c (Proc.devRef .tc main_v5)) := by
  show StableHlo.after hostOps0_1 (W1 m ρ c) (Proc.devRef .tc main_call0_v0) = _
  after_results
  exact cast_row_eq_rowOf _ _

/-- The region's result in the host's spelling, over the contents before the bias row was laid out. -/
theorem result (c : Dev nD) :
    W3 m ρ c (no_index (Proc.devRef .tc main_v25)) =
      addf (F := Ideal) (addf (F := Ideal) (Host.dotGeneral (F := Ideal) (φ₁ := .f32) (φ₂ := .f32) Cert.ReferenceIdeal.dot_S60000x256_S256x256_S60000x256_1_0_0_1_n_n none (W1 m ρ c (Proc.devRef .tc main_v24)) (W1 m ρ c (Proc.devRef .tc main_v1)))
          (broadcastInDim Cert.ReferenceIdeal.S60000x256 ![0, 1] Cert.ReferenceIdeal.Facts₀.bcast_S1x256_S60000x256_0_1 (broadcastInDim Cert.ReferenceIdeal.S1x256 ![1] Cert.ReferenceIdeal.Facts₀.bcast_S256_S1x256_1 (W1 m ρ c (Proc.devRef .tc main_v5)))))
        (Host.dotGeneral (F := Ideal) (φ₁ := .f32) (φ₂ := .f32) Cert.ReferenceIdeal.dot_S60000x256_S256x256_S60000x256_1_0_0_1_n_n none (W1 m ρ c (Proc.devRef .tc main_arg2)) (W1 m ρ c (Proc.devRef .tc main_v3))) := by
  refine (W3_arr m ρ c 5).trans ((final (V2 m ρ) c).trans ?_)
  show combine (M := 60000) (K := 256) (N := 256) (W2 m ρ c (Proc.devRef .tc main_v24)) (W2 m ρ c (Proc.devRef .tc main_arg2)) (W2 m ρ c (Proc.devRef .tc main_v1))
    (W2 m ρ c (Proc.devRef .tc main_v3)) (W2 m ρ c (Proc.devRef .tc main_call0_v0)) = _
  rw [through_reshape m ρ c main_v24 (by decide), through_reshape m ρ c main_arg2 (by decide), through_reshape m ρ c main_v1 (by decide),
    through_reshape m ρ c main_v3 (by decide), bias_row m ρ c]
  exact (host_combine Cert.ReferenceIdeal.Facts₀.dot_S60000x256_S256x256_S60000x256_1_0_0_1_n_n_wf Cert.ReferenceIdeal.Facts₀.bcast_S256_S1x256_1 Cert.ReferenceIdeal.Facts₀.bcast_S1x256_S60000x256_0_1 _ _ _ _ _).symm

/-- Every buffer other than the result and the bias row is as it was before the bias row was laid out. -/
theorem other (c : Dev nD) (r : Ref sig .tc) (h1 : r ≠ main_v25) (h2 : r ≠ main_call0_v0) :
    W3 m ρ c (no_index (Proc.devRef .tc r)) = W1 m ρ c (Proc.devRef .tc r) := by
  refine Eq.trans ?_ (through_reshape m ρ c r h2)
  by_cases g0 : r = main_v24
  · subst g0; exact (W3_arr m ρ c 0).trans (((dat0 (V2 m ρ) c).arrAt_in 0 rfl _).trans (A_eq0 (V2 m ρ) c 0))
  by_cases g1 : r = main_arg2
  · subst g1; exact (W3_arr m ρ c 1).trans (((dat0 (V2 m ρ) c).arrAt_in 1 rfl _).trans (A_eq0 (V2 m ρ) c 1))
  by_cases g2 : r = main_v1
  · subst g2; exact (W3_arr m ρ c 2).trans (((dat0 (V2 m ρ) c).arrAt_in 2 rfl _).trans (A_eq0 (V2 m ρ) c 2))
  by_cases g3 : r = main_v3
  · subst g3; exact (W3_arr m ρ c 3).trans (((dat0 (V2 m ρ) c).arrAt_in 3 rfl _).trans (A_eq0 (V2 m ρ) c 3))
  exact W3_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region0

end
-- ==== Proof.Region1.lean ====
/-
  Region 1 of the kernel program: one neighbour-and-root combination over 40000 nodes, computed 20 blocks of 2000
  rows at a time. Block t of the output holds rows 2000·t … 2000·t + 1999; each entry depends on one row of the two
  row-indexed operands, so the 20 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k1_pay1 (F := Ideal) x0 x1 x2 x3 x4 = combine x0 x1 x2 x3 x4 := by
  unfold k1_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section AtEntry

variable (V : (c : Dev nD) → (b : Ref sig .tc) → Buf (Elt Ideal) ((c : Thread nD τ).loc b))

/-- The whole output array as one function of the arrays the region finds. -/
abbrev whole (c : Dev nD) : S40000x256.Idx → EReal :=
  combine (M := 40000) (K := 256) (N := 256) (V c main_v50) (V c main_arg1) (V c main_v27) (V c main_v29) (V c main_call1_v0)

set_option maxHeartbeats 2000000 in
/-- What point t writes back is block t of the whole array. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 40000) (R := 2000) (K := 256) (N := 256) (Q := 256) (V c main_v50) (V c main_arg1) (V c main_v27) (V c main_v29) (V c main_call1_v0)
    (iblk1 V c 0 t) (iblk1 V c 1 t) (iblk1 V c 2 t) (iblk1 V c 3 t) (iblk1 V c 4 t) j
    (((cfg1.win 5).blk t).view.emb j) ?_ ?_ ?_ ?_ ?_
  · intro k
    show V c main_v50 (((cfg1.win 0).blk t).view.emb (ix2 (j 0) k)) = V c main_v50 (ix2 ((((cfg1.win 5).blk t).view.emb j) 0) k)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  · intro k
    show V c main_arg1 (((cfg1.win 1).blk t).view.emb (ix2 (j 0) k)) = V c main_arg1 (ix2 ((((cfg1.win 5).blk t).view.emb j) 0) k)
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  · intro k
    show V c main_v27 (((cfg1.win 2).blk t).view.emb (ix2 k (j 1))) = V c main_v27 (ix2 k ((((cfg1.win 5).blk t).view.emb j) 1))
    refine congrArg _ (funext fun a => Fin.ext ?_)
    match a with
    | ⟨0, _⟩ => show win1_2.index t (0 : Fin 2) * 256 + 1 * k.val = k.val; omega
    | ⟨1, _⟩ => show win1_2.index t (1 : Fin 2) * 256 + 1 * (j 1).val = win1_5.index t (1 : Fin 2) * 256 + 1 * (j 1).val; omega
  · intro k
    show V c main_v29 (((cfg1.win 3).blk t).view.emb (ix2 k (j 1))) = V c main_v29 (ix2 k ((((cfg1.win 5).blk t).view.emb j) 1))
    refine congrArg _ (funext fun a => Fin.ext ?_)
    match a with
    | ⟨0, _⟩ => show win1_3.index t (0 : Fin 2) * 256 + 1 * k.val = k.val; omega
    | ⟨1, _⟩ => show win1_3.index t (1 : Fin 2) * 256 + 1 * (j 1).val = win1_5.index t (1 : Fin 2) * 256 + 1 * (j 1).val; omega
  · show V c main_call1_v0 (((cfg1.win 4).blk t).view.emb (ix2 (0 : Fin 1) (j 1))) = V c main_call1_v0 (ix2 (0 : Fin 1) ((((cfg1.win 5).blk t).view.emb j) 1))
    refine congrArg _ (funext fun a => Fin.ext ?_)
    match a with
    | ⟨0, _⟩ => show win1_4.index t (0 : Fin 2) * 1 + 1 * 0 = 0; omega
    | ⟨1, _⟩ => show win1_4.index t (1 : Fin 2) * 256 + 1 * (j 1).val = win1_5.index t (1 : Fin 2) * 256 + 1 * (j 1).val; omega

/-- An index of the array lies in point t's block iff each coordinate lies in the block's range on its axis. -/
theorem mem_block (t : Fin cfg1.N) (i : S40000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v51).slice (win1_5.rect t)).set ↔ _
  rw [View.set_slice_whole, Rect.mem_set_unit]
  exact Iff.rfl

/-- Every index of the array lies in some point's block: row r in block r / 2000. -/
theorem covered (i : S40000x256.Idx) : ∃ t : Fin cfg1.N, (cfg1.win 5).flush t = true ∧ i ∈ ((cfg1.win 5).blk t).view.set := by
  have hi0 : (i 0).val < 40000 := (i 0).isLt
  have hi1 : (i 1).val < 256 := (i 1).isLt
  have hN : grid1.N = 20 := N_1
  have ht : (i 0).val / 2000 < grid1.N := by omega
  obtain ⟨-, -, -, -, -, -, -, -, -, -, f0, f1⟩ := index_facts ⟨(i 0).val / 2000, ht⟩
  refine ⟨⟨(i 0).val / 2000, ht⟩, flush1_5 _, ?_⟩
  rw [mem_block]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win1_5.index ⟨(i 0).val / 2000, ht⟩ (1 : Fin 2) * 256 ≤ (i 1).val ∧ (i 1).val < win1_5.index ⟨(i 0).val / 2000, ht⟩ (1 : Fin 2) * 256 + 256
    rw [f1]; omega

/-- The output array after the region is the combination of the arrays the region finds. -/
theorem final (c : Dev nD) : (dat1 V c).arrAt 5 cfg1.N = whole V c :=
  (dat1 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call1_v0) :
    W5 m ρ c (Proc.devRef .tc r) = W4 m ρ c (Proc.devRef .tc r) :=
  StableHlo.after_of_forall_not_mem (b := Proc.devRef .tc r) _ _ (List.forall_iff_forall_mem.mp (by
    simp only [hostOps1_1, List.Forall, StableHlo.reshape_writes, Finset.mem_singleton]
    exact StableHlo.devRef_ne_of_ne h))

/-- The bias row the region finds is the bias vector as a row. -/
theorem bias_row (c : Dev nD) :
    W5 m ρ c (Proc.devRef .tc main_call1_v0) = rowOf (W4 m ρ c (Proc.devRef .tc main_v31)) := by
  show StableHlo.after hostOps1_1 (W4 m ρ c) (Proc.devRef .tc main_call1_v0) = _
  after_results
  exact cast_row_eq_rowOf _ _

/-- The region's result in the host's spelling, over the contents before the bias row was laid out. -/
theorem result (c : Dev nD) :
    W6 m ρ c (no_index (Proc.devRef .tc main_v51)) =
      addf (F := Ideal) (addf (F := Ideal) (Host.dotGeneral (F := Ideal) (φ₁ := .f32) (φ₂ := .f32) Cert.ReferenceIdeal.dot_S40000x256_S256x256_S40000x256_1_0_0_1_n_n none (W4 m ρ c (Proc.devRef .tc main_v50)) (W4 m ρ c (Proc.devRef .tc main_v27)))
          (broadcastInDim Cert.ReferenceIdeal.S40000x256 ![0, 1] Cert.ReferenceIdeal.Facts₀.bcast_S1x256_S40000x256_0_1 (broadcastInDim Cert.ReferenceIdeal.S1x256 ![1] Cert.ReferenceIdeal.Facts₀.bcast_S256_S1x256_1 (W4 m ρ c (Proc.devRef .tc main_v31)))))
        (Host.dotGeneral (F := Ideal) (φ₁ := .f32) (φ₂ := .f32) Cert.ReferenceIdeal.dot_S40000x256_S256x256_S40000x256_1_0_0_1_n_n none (W4 m ρ c (Proc.devRef .tc main_arg1)) (W4 m ρ c (Proc.devRef .tc main_v29))) := by
  refine (W6_arr m ρ c 5).trans ((final (V5 m ρ) c).trans ?_)
  show combine (M := 40000) (K := 256) (N := 256) (W5 m ρ c (Proc.devRef .tc main_v50)) (W5 m ρ c (Proc.devRef .tc main_arg1)) (W5 m ρ c (Proc.devRef .tc main_v27))
    (W5 m ρ c (Proc.devRef .tc main_v29)) (W5 m ρ c (Proc.devRef .tc main_call1_v0)) = _
  rw [through_reshape m ρ c main_v50 (by decide), through_reshape m ρ c main_arg1 (by decide), through_reshape m ρ c main_v27 (by decide),
    through_reshape m ρ c main_v29 (by decide), bias_row m ρ c]
  exact (host_combine Cert.ReferenceIdeal.Facts₀.dot_S40000x256_S256x256_S40000x256_1_0_0_1_n_n_wf Cert.ReferenceIdeal.Facts₀.bcast_S256_S1x256_1 Cert.ReferenceIdeal.Facts₀.bcast_S1x256_S40000x256_0_1 _ _ _ _ _).symm

/-- Every buffer other than the result and the bias row is as it was before the bias row was laid out. -/
theorem other (c : Dev nD) (r : Ref sig .tc) (h1 : r ≠ main_v51) (h2 : r ≠ main_call1_v0) :
    W6 m ρ c (no_index (Proc.devRef .tc r)) = W4 m ρ c (Proc.devRef .tc r) := by
  refine Eq.trans ?_ (through_reshape m ρ c r h2)
  by_cases g0 : r = main_v50
  · subst g0; exact (W6_arr m ρ c 0).trans (((dat1 (V5 m ρ) c).arrAt_in 0 rfl _).trans (A_eq1 (V5 m ρ) c 0))
  by_cases g1 : r = main_arg1
  · subst g1; exact (W6_arr m ρ c 1).trans (((dat1 (V5 m ρ) c).arrAt_in 1 rfl _).trans (A_eq1 (V5 m ρ) c 1))
  by_cases g2 : r = main_v27
  · subst g2; exact (W6_arr m ρ c 2).trans (((dat1 (V5 m ρ) c).arrAt_in 2 rfl _).trans (A_eq1 (V5 m ρ) c 2))
  by_cases g3 : r = main_v29
  · subst g3; exact (W6_arr m ρ c 3).trans (((dat1 (V5 m ρ) c).arrAt_in 3 rfl _).trans (A_eq1 (V5 m ρ) c 3))
  exact W6_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region1

end
-- ==== Proof.Region2.lean ====
/-
  Region 2 of the kernel program: one neighbour-and-root combination over 40000 nodes, computed 20 blocks of 2000
  rows at a time. Block t of the output holds rows 2000·t … 2000·t + 1999; each entry depends on one row of the two
  row-indexed operands, so the 20 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k2_pay1 (F := Ideal) x0 x1 x2 x3 x4 = combine x0 x1 x2 x3 x4 := by
  unfold k2_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section AtEntry

variable (V : (c : Dev nD) → (b : Ref sig .tc) → Buf (Elt Ideal) ((c : Thread nD τ).loc b))

/-- The whole output array as one function of the arrays the region finds. -/
abbrev whole (c : Dev nD) : S40000x256.Idx → EReal :=
  combine (M := 40000) (K := 256) (N := 256) (V c main_v76) (V c main_arg1) (V c main_v53) (V c main_v55) (V c main_call2_v0)

set_option maxHeartbeats 2000000 in
/-- What point t writes back is block t of the whole array. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 40000) (R := 2000) (K := 256) (N := 256) (Q := 256) (V c main_v76) (V c main_arg1) (V c main_v53) (V c main_v55) (V c main_call2_v0)
    (iblk2 V c 0 t) (iblk2 V c 1 t) (iblk2 V c 2 t) (iblk2 V c 3 t) (iblk2 V c 4 t) j
    (((cfg2.win 5).blk t).view.emb j) ?_ ?_ ?_ ?_ ?_
  · intro k
    show V c main_v76 (((cfg2.win 0).blk t).view.emb (ix2 (j 0) k)) = V c main_v76 (ix2 ((((cfg2.win 5).blk t).view.emb j) 0) k)
    refine congrArg _ (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * k.val = k.val; omega
  · intro k
    show V c main_arg1 (((cfg2.win 1).blk t).view.emb (ix2 (j 0) k)) = V c main_arg1 (ix2 ((((cfg2.win 5).blk t).view.emb j) 0) k)
    refine congrArg _ (funext fun a => Fin.ext ?_)
    match a with
    | ⟨0, _⟩ => show win2_1.index t (0 : Fin 2) * 2000 + 1 * (j 0).val = win2_5.index t (0 : Fin 2) * 2000 + 1 * (j 0).val; omega
    | ⟨1, _⟩ => show win2_1.index t (1 : Fin 2) * 256 + 1 * k.val = k.val; omega
  · intro k
    show V c main_v53 (((cfg2.win 2).blk t).view.emb (ix2 k (j 1))) = V c main_v53 (ix2 k ((((cfg2.win 5).blk t).view.emb j) 1))
    refine congrArg _ (funext fun a => Fin.ext ?_)
    match a with
    | ⟨0, _⟩ => show win2_2.index t (0 : Fin 2) * 256 + 1 * k.val = k.val; omega
    | ⟨1, _⟩ => show win2_2.index t (1 : Fin 2) * 256 + 1 * (j 1).val = win2_5.index t (1 : Fin 2) * 256 + 1 * (j 1).val; omega
  · intro k
    show V c main_v55 (((cfg2.win 3).blk t).view.emb (ix2 k (j 1))) = V c main_v55 (ix2 k ((((cfg2.win 5).blk t).view.emb j) 1))
    refine congrArg _ (funext fun a => Fin.ext ?_)
    match a with
    | ⟨0, _⟩ => show win2_3.index t (0 : Fin 2) * 256 + 1 * k.val = k.val; omega
    | ⟨1, _⟩ => show win2_3.index t (1 : Fin 2) * 256 + 1 * (j 1).val = win2_5.index t (1 : Fin 2) * 256 + 1 * (j 1).val; omega
  · show V c main_call2_v0 (((cfg2.win 4).blk t).view.emb (ix2 (0 : Fin 1) (j 1))) = V c main_call2_v0 (ix2 (0 : Fin 1) ((((cfg2.win 5).blk t).view.emb j) 1))
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * (j 1).val = win2_5.index t (1 : Fin 2) * 256 + 1 * (j 1).val; omega

/-- An index of the array lies in point t's block iff each coordinate lies in the block's range on its axis. -/
theorem mem_block (t : Fin cfg2.N) (i : S40000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v77).slice (win2_5.rect t)).set ↔ _
  rw [View.set_slice_whole, Rect.mem_set_unit]
  exact Iff.rfl

/-- Every index of the array lies in some point's block: row r in block r / 2000. -/
theorem covered (i : S40000x256.Idx) : ∃ t : Fin cfg2.N, (cfg2.win 5).flush t = true ∧ i ∈ ((cfg2.win 5).blk t).view.set := by
  have hi0 : (i 0).val < 40000 := (i 0).isLt
  have hi1 : (i 1).val < 256 := (i 1).isLt
  have hN : grid2.N = 20 := N_2
  have ht : (i 0).val / 2000 < grid2.N := by omega
  obtain ⟨-, -, -, -, -, -, -, -, -, -, f0, f1⟩ := index_facts ⟨(i 0).val / 2000, ht⟩
  refine ⟨⟨(i 0).val / 2000, ht⟩, flush2_5 _, ?_⟩
  rw [mem_block]
  intro a
  match a with
  | ⟨0, _⟩ =>
    show win2_5.index ⟨(i 0).val / 2000, ht⟩ (0 : Fin 2) * 2000 ≤ (i 0).val ∧ (i 0).val < win2_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win2_5.index ⟨(i 0).val / 2000, ht⟩ (1 : Fin 2) * 256 ≤ (i 1).val ∧ (i 1).val < win2_5.index ⟨(i 0).val / 2000, ht⟩ (1 : Fin 2) * 256 + 256
    rw [f1]; omega

/-- The output array after the region is the combination of the arrays the region finds. -/
theorem final (c : Dev nD) : (dat2 V c).arrAt 5 cfg2.N = whole V c :=
  (dat2 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call2_v0) :
    W8 m ρ c (Proc.devRef .tc r) = W7 m ρ c (Proc.devRef .tc r) :=
  StableHlo.after_of_forall_not_mem (b := Proc.devRef .tc r) _ _ (List.forall_iff_forall_mem.mp (by
    simp only [hostOps2_1, List.Forall, StableHlo.reshape_writes, Finset.mem_singleton]
    exact StableHlo.devRef_ne_of_ne h))

/-- The bias row the region finds is the bias vector as a row. -/
theorem bias_row (c : Dev nD) :
    W8 m ρ c (Proc.devRef .tc main_call2_v0) = rowOf (W7 m ρ c (Proc.devRef .tc main_v57)) := by
  show StableHlo.after hostOps2_1 (W7 m ρ c) (Proc.devRef .tc main_call2_v0) = _
  after_results
  exact cast_row_eq_rowOf _ _

/-- The region's result in the host's spelling, over the contents before the bias row was laid out. -/
theorem result (c : Dev nD) :
    W9 m ρ c (no_index (Proc.devRef .tc main_v77)) =
      addf (F := Ideal) (addf (F := Ideal) (Host.dotGeneral (F := Ideal) (φ₁ := .f32) (φ₂ := .f32) Cert.ReferenceIdeal.dot_S40000x256_S256x256_S40000x256_1_0_0_1_n_n none (W7 m ρ c (Proc.devRef .tc main_v76)) (W7 m ρ c (Proc.devRef .tc main_v53)))
          (broadcastInDim Cert.ReferenceIdeal.S40000x256 ![0, 1] Cert.ReferenceIdeal.Facts₀.bcast_S1x256_S40000x256_0_1 (broadcastInDim Cert.ReferenceIdeal.S1x256 ![1] Cert.ReferenceIdeal.Facts₀.bcast_S256_S1x256_1 (W7 m ρ c (Proc.devRef .tc main_v57)))))
        (Host.dotGeneral (F := Ideal) (φ₁ := .f32) (φ₂ := .f32) Cert.ReferenceIdeal.dot_S40000x256_S256x256_S40000x256_1_0_0_1_n_n none (W7 m ρ c (Proc.devRef .tc main_arg1)) (W7 m ρ c (Proc.devRef .tc main_v55))) := by
  refine (W9_arr m ρ c 5).trans ((final (V8 m ρ) c).trans ?_)
  show combine (M := 40000) (K := 256) (N := 256) (W8 m ρ c (Proc.devRef .tc main_v76)) (W8 m ρ c (Proc.devRef .tc main_arg1)) (W8 m ρ c (Proc.devRef .tc main_v53))
    (W8 m ρ c (Proc.devRef .tc main_v55)) (W8 m ρ c (Proc.devRef .tc main_call2_v0)) = _
  rw [through_reshape m ρ c main_v76 (by decide), through_reshape m ρ c main_arg1 (by decide), through_reshape m ρ c main_v53 (by decide),
    through_reshape m ρ c main_v55 (by decide), bias_row m ρ c]
  exact (host_combine Cert.ReferenceIdeal.Facts₀.dot_S40000x256_S256x256_S40000x256_1_0_0_1_n_n_wf Cert.ReferenceIdeal.Facts₀.bcast_S256_S1x256_1 Cert.ReferenceIdeal.Facts₀.bcast_S1x256_S40000x256_0_1 _ _ _ _ _).symm

/-- Every buffer other than the result and the bias row is as it was before the bias row was laid out. -/
theorem other (c : Dev nD) (r : Ref sig .tc) (h1 : r ≠ main_v77) (h2 : r ≠ main_call2_v0) :
    W9 m ρ c (no_index (Proc.devRef .tc r)) = W7 m ρ c (Proc.devRef .tc r) := by
  refine Eq.trans ?_ (through_reshape m ρ c r h2)
  by_cases g0 : r = main_v76
  · subst g0; exact (W9_arr m ρ c 0).trans (((dat2 (V8 m ρ) c).arrAt_in 0 rfl _).trans (A_eq2 (V8 m ρ) c 0))
  by_cases g1 : r = main_arg1
  · subst g1; exact (W9_arr m ρ c 1).trans (((dat2 (V8 m ρ) c).arrAt_in 1 rfl _).trans (A_eq2 (V8 m ρ) c 1))
  by_cases g2 : r = main_v53
  · subst g2; exact (W9_arr m ρ c 2).trans (((dat2 (V8 m ρ) c).arrAt_in 2 rfl _).trans (A_eq2 (V8 m ρ) c 2))
  by_cases g3 : r = main_v55
  · subst g3; exact (W9_arr m ρ c 3).trans (((dat2 (V8 m ρ) c).arrAt_in 3 rfl _).trans (A_eq2 (V8 m ρ) c 3))
  exact W9_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region2

end
-- ==== Proof.Region3.lean ====
/-
  Region 3 of the kernel program: one neighbour-and-root combination over 40000 nodes, computed 20 blocks of 2000
  rows at a time. Block t of the output holds rows 2000·t … 2000·t + 1999; each entry depends on one row of the two
  row-indexed operands, so the 20 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k3_pay1 (F := Ideal) x0 x1 x2 x3 x4 = combine x0 x1 x2 x3 x4 := by
  unfold k3_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

section AtEntry

variable (V : (c : Dev nD) → (b : Ref sig .tc) → Buf (Elt Ideal) ((c : Thread nD τ).loc b))

/-- The whole output array as one function of the arrays the region finds. -/
abbrev whole (c : Dev nD) : S40000x256.Idx → EReal :=
  combine (M := 40000) (K := 256) (N := 256) (V c main_v102) (V c main_arg1) (V c main_v79) (V c main_v81) (V c main_call3_v0)

set_option maxHeartbeats 2000000 in
/-- What point t writes back is block t of the whole array. -/
theorem flushed_eq (c : Dev nD) (t : Fin cfg3.N) :
    (dat3 V c).flushed 5 t = ((cfg3.win 5).blk t).view.read (Elt Ideal) (whole V c) := by
  show (cfg3.win 5).cut (grid3.coords t) ((dat3 V c).after 5 t) = _
  rw [after3_5]
  unfold out3_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 40000) (R := 2000) (K := 256) (N := 256) (Q := 256) (V c main_v102) (V c main_arg1) (V c main_v79) (V c main_v81) (V c main_call3_v0)
    (iblk3 V c 0 t) (iblk3 V c 1 t) (iblk3 V c 2 t) (iblk3 V c 3 t) (iblk3 V c 4 t) j
    (((cfg3.win 5).blk t).view.emb j) ?_ ?_ ?_ ?_ ?_
  · intro k
    show V c main_v102 (((cfg3.win 0).blk t).view.emb (ix2 (j 0) k)) = V c main_v102 (ix2 ((((cfg3.win 5).blk t).view.emb j) 0) k)
    refine congrArg _ (funext fun a => Fin.ext ?_)
    match a with
    | ⟨0, _⟩ => show win3_0.index t (0 : Fin 2) * 2000 + 1 * (j 0).val = win3_5.index t (0 : Fin 2) * 2000 + 1 * (j 0).val; omega
    | ⟨1, _⟩ => show win3_0.index t (1 : Fin 2) * 256 + 1 * k.val = k.val; omega
  · intro k
    show V c main_arg1 (((cfg3.win 1).blk t).view.emb (ix2 (j 0) k)) = V c main_arg1 (ix2 ((((cfg3.win 5).blk t).view.emb j) 0) k)
    refine congrArg _ (funext fun a => Fin.ext ?_)
    match a with
    | ⟨0, _⟩ => show win3_1.index t (0 : Fin 2) * 2000 + 1 * (j 0).val = win3_5.index t (0 : Fin 2) * 2000 + 1 * (j 0).val; omega
    | ⟨1, _⟩ => show win3_1.index t (1 : Fin 2) * 256 + 1 * k.val = k.val; omega
  · intro k
    show V c main_v79 (((cfg3.win 2).blk t).view.emb (ix2 k (j 1))) = V c main_v79 (ix2 k ((((cfg3.win 5).blk t).view.emb j) 1))
    refine congrArg _ (funext fun a => Fin.ext ?_)
    match a with
    | ⟨0, _⟩ => show win3_2.index t (0 : Fin 2) * 256 + 1 * k.val = k.val; omega
    | ⟨1, _⟩ => show win3_2.index t (1 : Fin 2) * 256 + 1 * (j 1).val = win3_5.index t (1 : Fin 2) * 256 + 1 * (j 1).val; omega
  · intro k
    show V c main_v81 (((cfg3.win 3).blk t).view.emb (ix2 k (j 1))) = V c main_v81 (ix2 k ((((cfg3.win 5).blk t).view.emb j) 1))
    refine congrArg _ (funext fun a => Fin.ext ?_)
    match a with
    | ⟨0, _⟩ => show win3_3.index t (0 : Fin 2) * 256 + 1 * k.val = k.val; omega
    | ⟨1, _⟩ => show win3_3.index t (1 : Fin 2) * 256 + 1 * (j 1).val = win3_5.index t (1 : Fin 2) * 256 + 1 * (j 1).val; omega
  · show V c main_call3_v0 (((cfg3.win 4).blk t).view.emb (ix2 (0 : Fin 1) (j 1))) = V c main_call3_v0 (ix2 (0 : Fin 1) ((((cfg3.win 5).blk t).view.emb j) 1))
    refine congrArg _ (funext fun a => Fin.ext ?_)
    match a with
    | ⟨0, _⟩ => show win3_4.index t (0 : Fin 2) * 1 + 1 * 0 = 0; omega
    | ⟨1, _⟩ => show win3_4.index t (1 : Fin 2) * 256 + 1 * (j 1).val = win3_5.index t (1 : Fin 2) * 256 + 1 * (j 1).val; omega

/-- An index of the array lies in point t's block iff each coordinate lies in the block's range on its axis. -/
theorem mem_block (t : Fin cfg3.N) (i : S40000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v103).slice (win3_5.rect t)).set ↔ _
  rw [View.set_slice_whole, Rect.mem_set_unit]
  exact Iff.rfl

/-- Every index of the array lies in some point's block: row r in block r / 2000. -/
theorem covered (i : S40000x256.Idx) : ∃ t : Fin cfg3.N, (cfg3.win 5).flush t = true ∧ i ∈ ((cfg3.win 5).blk t).view.set := by
  have hi0 : (i 0).val < 40000 := (i 0).isLt
  have hi1 : (i 1).val < 256 := (i 1).isLt
  have hN : grid3.N = 20 := N_3
  have ht : (i 0).val / 2000 < grid3.N := by omega
  obtain ⟨-, -, -, -, -, -, -, -, -, -, f0, f1⟩ := index_facts ⟨(i 0).val / 2000, ht⟩
  refine ⟨⟨(i 0).val / 2000, ht⟩, flush3_5 _, ?_⟩
  rw [mem_block]
  intro a
  match a with
  | ⟨0, _⟩ =>
    show win3_5.index ⟨(i 0).val / 2000, ht⟩ (0 : Fin 2) * 2000 ≤ (i 0).val ∧ (i 0).val < win3_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win3_5.index ⟨(i 0).val / 2000, ht⟩ (1 : Fin 2) * 256 ≤ (i 1).val ∧ (i 1).val < win3_5.index ⟨(i 0).val / 2000, ht⟩ (1 : Fin 2) * 256 + 256
    rw [f1]; omega

/-- The output array after the region is the combination of the arrays the region finds. -/
theorem final (c : Dev nD) : (dat3 V c).arrAt 5 cfg3.N = whole V c :=
  (dat3 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call3_v0) :
    W11 m ρ c (Proc.devRef .tc r) = W10 m ρ c (Proc.devRef .tc r) :=
  StableHlo.after_of_forall_not_mem (b := Proc.devRef .tc r) _ _ (List.forall_iff_forall_mem.mp (by
    simp only [hostOps3_1, List.Forall, StableHlo.reshape_writes, Finset.mem_singleton]
    exact StableHlo.devRef_ne_of_ne h))

/-- The bias row the region finds is the bias vector as a row. -/
theorem bias_row (c : Dev nD) :
    W11 m ρ c (Proc.devRef .tc main_call3_v0) = rowOf (W10 m ρ c (Proc.devRef .tc main_v83)) := by
  show StableHlo.after hostOps3_1 (W10 m ρ c) (Proc.devRef .tc main_call3_v0) = _
  after_results
  exact cast_row_eq_rowOf _ _

/-- The region's result in the host's spelling, over the contents before the bias row was laid out. -/
theorem result (c : Dev nD) :
    W12 m ρ c (no_index (Proc.devRef .tc main_v103)) =
      addf (F := Ideal) (addf (F := Ideal) (Host.dotGeneral (F := Ideal) (φ₁ := .f32) (φ₂ := .f32) Cert.ReferenceIdeal.dot_S40000x256_S256x256_S40000x256_1_0_0_1_n_n none (W10 m ρ c (Proc.devRef .tc main_v102)) (W10 m ρ c (Proc.devRef .tc main_v79)))
          (broadcastInDim Cert.ReferenceIdeal.S40000x256 ![0, 1] Cert.ReferenceIdeal.Facts₀.bcast_S1x256_S40000x256_0_1 (broadcastInDim Cert.ReferenceIdeal.S1x256 ![1] Cert.ReferenceIdeal.Facts₀.bcast_S256_S1x256_1 (W10 m ρ c (Proc.devRef .tc main_v83)))))
        (Host.dotGeneral (F := Ideal) (φ₁ := .f32) (φ₂ := .f32) Cert.ReferenceIdeal.dot_S40000x256_S256x256_S40000x256_1_0_0_1_n_n none (W10 m ρ c (Proc.devRef .tc main_arg1)) (W10 m ρ c (Proc.devRef .tc main_v81))) := by
  refine (W12_arr m ρ c 5).trans ((final (V11 m ρ) c).trans ?_)
  show combine (M := 40000) (K := 256) (N := 256) (W11 m ρ c (Proc.devRef .tc main_v102)) (W11 m ρ c (Proc.devRef .tc main_arg1)) (W11 m ρ c (Proc.devRef .tc main_v79))
    (W11 m ρ c (Proc.devRef .tc main_v81)) (W11 m ρ c (Proc.devRef .tc main_call3_v0)) = _
  rw [through_reshape m ρ c main_v102 (by decide), through_reshape m ρ c main_arg1 (by decide), through_reshape m ρ c main_v79 (by decide),
    through_reshape m ρ c main_v81 (by decide), bias_row m ρ c]
  exact (host_combine Cert.ReferenceIdeal.Facts₀.dot_S40000x256_S256x256_S40000x256_1_0_0_1_n_n_wf Cert.ReferenceIdeal.Facts₀.bcast_S256_S1x256_1 Cert.ReferenceIdeal.Facts₀.bcast_S1x256_S40000x256_0_1 _ _ _ _ _).symm

/-- Every buffer other than the result and the bias row is as it was before the bias row was laid out. -/
theorem other (c : Dev nD) (r : Ref sig .tc) (h1 : r ≠ main_v103) (h2 : r ≠ main_call3_v0) :
    W12 m ρ c (no_index (Proc.devRef .tc r)) = W10 m ρ c (Proc.devRef .tc r) := by
  refine Eq.trans ?_ (through_reshape m ρ c r h2)
  by_cases g0 : r = main_v102
  · subst g0; exact (W12_arr m ρ c 0).trans (((dat3 (V11 m ρ) c).arrAt_in 0 rfl _).trans (A_eq3 (V11 m ρ) c 0))
  by_cases g1 : r = main_arg1
  · subst g1; exact (W12_arr m ρ c 1).trans (((dat3 (V11 m ρ) c).arrAt_in 1 rfl _).trans (A_eq3 (V11 m ρ) c 1))
  by_cases g2 : r = main_v79
  · subst g2; exact (W12_arr m ρ c 2).trans (((dat3 (V11 m ρ) c).arrAt_in 2 rfl _).trans (A_eq3 (V11 m ρ) c 2))
  by_cases g3 : r = main_v81
  · subst g3; exact (W12_arr m ρ c 3).trans (((dat3 (V11 m ρ) c).arrAt_in 3 rfl _).trans (A_eq3 (V11 m ρ) c 3))
  exact W12_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region3

end
-- ==== Proof.Region4.lean ====
/-
  Region 4 of the kernel program: one neighbour-and-root combination over 100000 nodes, computed 50 blocks of 2000
  rows at a time. Block t of the output holds rows 2000·t … 2000·t + 1999; each entry depends on one row of the two
  row-indexed operands, so the 50 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k4_pay1 (F := Ideal) x0 x1 x2 x3 x4 = combine x0 x1 x2 x3 x4 := by
  unfold k4_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

section AtEntry

variable (V : (c : Dev nD) → (b : Ref sig .tc) → Buf (Elt Ideal) ((c : Thread nD τ).loc b))

/-- The whole output array as one function of the arrays the region finds. -/
abbrev whole (c : Dev nD) : S100000x256.Idx → EReal :=
  combine (M := 100000) (K := 256) (N := 256) (V c main_v132) (V c main_arg0) (V c main_v109) (V c main_v111) (V c main_call4_v0)

set_option maxHeartbeats 2000000 in
/-- What point t writes back is block t of the whole array. -/
theorem flushed_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5]
  unfold out4_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 100000) (R := 2000) (K := 256) (N := 256) (Q := 256) (V c main_v132) (V c main_arg0) (V c main_v109) (V c main_v111) (V c main_call4_v0)
    (iblk4 V c 0 t) (iblk4 V c 1 t) (iblk4 V c 2 t) (iblk4 V c 3 t) (iblk4 V c 4 t) j
    (((cfg4.win 5).blk t).view.emb j) ?_ ?_ ?_ ?_ ?_
  · intro k
    show V c main_v132 (((cfg4.win 0).blk t).view.emb (ix2 (j 0) k)) = V c main_v132 (ix2 ((((cfg4.win 5).blk t).view.emb j) 0) k)
    refine congrArg _ (funext fun a => Fin.ext ?_)
    match a with
    | ⟨0, _⟩ => show win4_0.index t (0 : Fin 2) * 2000 + 1 * (j 0).val = win4_5.index t (0 : Fin 2) * 2000 + 1 * (j 0).val; omega
    | ⟨1, _⟩ => show win4_0.index t (1 : Fin 2) * 256 + 1 * k.val = k.val; omega
  · intro k
    show V c main_arg0 (((cfg4.win 1).blk t).view.emb (ix2 (j 0) k)) = V c main_arg0 (ix2 ((((cfg4.win 5).blk t).view.emb j) 0) k)
    refine congrArg _ (funext fun a => Fin.ext ?_)
    match a with
    | ⟨0, _⟩ => show win4_1.index t (0 : Fin 2) * 2000 + 1 * (j 0).val = win4_5.index t (0 : Fin 2) * 2000 + 1 * (j 0).val; omega
    | ⟨1, _⟩ => show win4_1.index t (1 : Fin 2) * 256 + 1 * k.val = k.val; omega
  · intro k
    show V c main_v109 (((cfg4.win 2).blk t).view.emb (ix2 k (j 1))) = V c main_v109 (ix2 k ((((cfg4.win 5).blk t).view.emb j) 1))
    refine congrArg _ (funext fun a => Fin.ext ?_)
    match a with
    | ⟨0, _⟩ => show win4_2.index t (0 : Fin 2) * 256 + 1 * k.val = k.val; omega
    | ⟨1, _⟩ => show win4_2.index t (1 : Fin 2) * 256 + 1 * (j 1).val = win4_5.index t (1 : Fin 2) * 256 + 1 * (j 1).val; omega
  · intro k
    show V c main_v111 (((cfg4.win 3).blk t).view.emb (ix2 k (j 1))) = V c main_v111 (ix2 k ((((cfg4.win 5).blk t).view.emb j) 1))
    refine congrArg _ (funext fun a => Fin.ext ?_)
    match a with
    | ⟨0, _⟩ => show win4_3.index t (0 : Fin 2) * 256 + 1 * k.val = k.val; omega
    | ⟨1, _⟩ => show win4_3.index t (1 : Fin 2) * 256 + 1 * (j 1).val = win4_5.index t (1 : Fin 2) * 256 + 1 * (j 1).val; omega
  · show V c main_call4_v0 (((cfg4.win 4).blk t).view.emb (ix2 (0 : Fin 1) (j 1))) = V c main_call4_v0 (ix2 (0 : Fin 1) ((((cfg4.win 5).blk t).view.emb j) 1))
    refine congrArg _ (funext fun a => Fin.ext ?_)
    match a with
    | ⟨0, _⟩ => show win4_4.index t (0 : Fin 2) * 1 + 1 * 0 = 0; omega
    | ⟨1, _⟩ => show win4_4.index t (1 : Fin 2) * 256 + 1 * (j 1).val = win4_5.index t (1 : Fin 2) * 256 + 1 * (j 1).val; omega

/-- An index of the array lies in point t's block iff each coordinate lies in the block's range on its axis. -/
theorem mem_block (t : Fin cfg4.N) (i : S100000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v133).slice (win4_5.rect t)).set ↔ _
  rw [View.set_slice_whole, Rect.mem_set_unit]
  exact Iff.rfl

/-- Every index of the array lies in some point's block: row r in block r / 2000. -/
theorem covered (i : S100000x256.Idx) : ∃ t : Fin cfg4.N, (cfg4.win 5).flush t = true ∧ i ∈ ((cfg4.win 5).blk t).view.set := by
  have hi0 : (i 0).val < 100000 := (i 0).isLt
  have hi1 : (i 1).val < 256 := (i 1).isLt
  have hN : grid4.N = 50 := N_4
  have ht : (i 0).val / 2000 < grid4.N := by omega
  obtain ⟨-, -, -, -, -, -, -, -, -, -, f0, f1⟩ := index_facts ⟨(i 0).val / 2000, ht⟩
  refine ⟨⟨(i 0).val / 2000, ht⟩, flush4_5 _, ?_⟩
  rw [mem_block]
  intro a
  match a with
  | ⟨0, _⟩ =>
    show win4_5.index ⟨(i 0).val / 2000, ht⟩ (0 : Fin 2) * 2000 ≤ (i 0).val ∧ (i 0).val < win4_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win4_5.index ⟨(i 0).val / 2000, ht⟩ (1 : Fin 2) * 256 ≤ (i 1).val ∧ (i 1).val < win4_5.index ⟨(i 0).val / 2000, ht⟩ (1 : Fin 2) * 256 + 256
    rw [f1]; omega

/-- The output array after the region is the combination of the arrays the region finds. -/
theorem final (c : Dev nD) : (dat4 V c).arrAt 5 cfg4.N = whole V c :=
  (dat4 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call4_v0) :
    W14 m ρ c (Proc.devRef .tc r) = W13 m ρ c (Proc.devRef .tc r) :=
  StableHlo.after_of_forall_not_mem (b := Proc.devRef .tc r) _ _ (List.forall_iff_forall_mem.mp (by
    simp only [hostOps4_1, List.Forall, StableHlo.reshape_writes, Finset.mem_singleton]
    exact StableHlo.devRef_ne_of_ne h))

/-- The bias row the region finds is the bias vector as a row. -/
theorem bias_row (c : Dev nD) :
    W14 m ρ c (Proc.devRef .tc main_call4_v0) = rowOf (W13 m ρ c (Proc.devRef .tc main_v113)) := by
  show StableHlo.after hostOps4_1 (W13 m ρ c) (Proc.devRef .tc main_call4_v0) = _
  after_results
  exact cast_row_eq_rowOf _ _

/-- The region's result in the host's spelling, over the contents before the bias row was laid out. -/
theorem result (c : Dev nD) :
    W15 m ρ c (no_index (Proc.devRef .tc main_v133)) =
      addf (F := Ideal) (addf (F := Ideal) (Host.dotGeneral (F := Ideal) (φ₁ := .f32) (φ₂ := .f32) Cert.ReferenceIdeal.dot_S100000x256_S256x256_S100000x256_1_0_0_1_n_n none (W13 m ρ c (Proc.devRef .tc main_v132)) (W13 m ρ c (Proc.devRef .tc main_v109)))
          (broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 (W13 m ρ c (Proc.devRef .tc main_v113)))))
        (Host.dotGeneral (F := Ideal) (φ₁ := .f32) (φ₂ := .f32) Cert.ReferenceIdeal.dot_S100000x256_S256x256_S100000x256_1_0_0_1_n_n none (W13 m ρ c (Proc.devRef .tc main_arg0)) (W13 m ρ c (Proc.devRef .tc main_v111))) := by
  refine (W15_arr m ρ c 5).trans ((final (V14 m ρ) c).trans ?_)
  show combine (M := 100000) (K := 256) (N := 256) (W14 m ρ c (Proc.devRef .tc main_v132)) (W14 m ρ c (Proc.devRef .tc main_arg0)) (W14 m ρ c (Proc.devRef .tc main_v109))
    (W14 m ρ c (Proc.devRef .tc main_v111)) (W14 m ρ c (Proc.devRef .tc main_call4_v0)) = _
  rw [through_reshape m ρ c main_v132 (by decide), through_reshape m ρ c main_arg0 (by decide), through_reshape m ρ c main_v109 (by decide),
    through_reshape m ρ c main_v111 (by decide), bias_row m ρ c]
  exact (host_combine Cert.ReferenceIdeal.Facts₀.dot_S100000x256_S256x256_S100000x256_1_0_0_1_n_n_wf Cert.ReferenceIdeal.Facts₀.bcast_S256_S1x256_1 Cert.ReferenceIdeal.Facts₀.bcast_S1x256_S100000x256_0_1 _ _ _ _ _).symm

/-- Every buffer other than the result and the bias row is as it was before the bias row was laid out. -/
theorem other (c : Dev nD) (r : Ref sig .tc) (h1 : r ≠ main_v133) (h2 : r ≠ main_call4_v0) :
    W15 m ρ c (no_index (Proc.devRef .tc r)) = W13 m ρ c (Proc.devRef .tc r) := by
  refine Eq.trans ?_ (through_reshape m ρ c r h2)
  by_cases g0 : r = main_v132
  · subst g0; exact (W15_arr m ρ c 0).trans (((dat4 (V14 m ρ) c).arrAt_in 0 rfl _).trans (A_eq4 (V14 m ρ) c 0))
  by_cases g1 : r = main_arg0
  · subst g1; exact (W15_arr m ρ c 1).trans (((dat4 (V14 m ρ) c).arrAt_in 1 rfl _).trans (A_eq4 (V14 m ρ) c 1))
  by_cases g2 : r = main_v109
  · subst g2; exact (W15_arr m ρ c 2).trans (((dat4 (V14 m ρ) c).arrAt_in 2 rfl _).trans (A_eq4 (V14 m ρ) c 2))
  by_cases g3 : r = main_v111
  · subst g3; exact (W15_arr m ρ c 3).trans (((dat4 (V14 m ρ) c).arrAt_in 3 rfl _).trans (A_eq4 (V14 m ρ) c 3))
  exact W15_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region4

end
-- ==== Proof.Region5.lean ====
/-
  Region 5 of the kernel program: one neighbour-and-root combination over 60000 nodes, computed 30 blocks of 2000
  rows at a time. Block t of the output holds rows 2000·t … 2000·t + 1999; each entry depends on one row of the two
  row-indexed operands, so the 30 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region5

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k5_pay1 (F := Ideal) x0 x1 x2 x3 x4 = combine x0 x1 x2 x3 x4 := by
  unfold k5_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

section AtEntry

variable (V : (c : Dev nD) → (b : Ref sig .tc) → Buf (Elt Ideal) ((c : Thread nD τ).loc b))

/-- The whole output array as one function of the arrays the region finds. -/
abbrev whole (c : Dev nD) : S60000x256.Idx → EReal :=
  combine (M := 60000) (K := 256) (N := 256) (V c main_v161) (V c main_v136) (V c main_v138) (V c main_v140) (V c main_call8_v0)

set_option maxHeartbeats 2000000 in
/-- What point t writes back is block t of the whole array. -/
theorem flushed_eq (c : Dev nD) (t : Fin cfg5.N) :
    (dat5 V c).flushed 5 t = ((cfg5.win 5).blk t).view.read (Elt Ideal) (whole V c) := by
  show (cfg5.win 5).cut (grid5.coords t) ((dat5 V c).after 5 t) = _
  rw [after5_5]
  unfold out5_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 60000) (R := 2000) (K := 256) (N := 256) (Q := 256) (V c main_v161) (V c main_v136) (V c main_v138) (V c main_v140) (V c main_call8_v0)
    (iblk5 V c 0 t) (iblk5 V c 1 t) (iblk5 V c 2 t) (iblk5 V c 3 t) (iblk5 V c 4 t) j
    (((cfg5.win 5).blk t).view.emb j) ?_ ?_ ?_ ?_ ?_
  · intro k
    show V c main_v161 (((cfg5.win 0).blk t).view.emb (ix2 (j 0) k)) = V c main_v161 (ix2 ((((cfg5.win 5).blk t).view.emb j) 0) k)
    refine congrArg _ (funext fun a => Fin.ext ?_)
    match a with
    | ⟨0, _⟩ => show win5_0.index t (0 : Fin 2) * 2000 + 1 * (j 0).val = win5_5.index t (0 : Fin 2) * 2000 + 1 * (j 0).val; omega
    | ⟨1, _⟩ => show win5_0.index t (1 : Fin 2) * 256 + 1 * k.val = k.val; omega
  · intro k
    show V c main_v136 (((cfg5.win 1).blk t).view.emb (ix2 (j 0) k)) = V c main_v136 (ix2 ((((cfg5.win 5).blk t).view.emb j) 0) k)
    refine congrArg _ (funext fun a => Fin.ext ?_)
    match a with
    | ⟨0, _⟩ => show win5_1.index t (0 : Fin 2) * 2000 + 1 * (j 0).val = win5_5.index t (0 : Fin 2) * 2000 + 1 * (j 0).val; omega
    | ⟨1, _⟩ => show win5_1.index t (1 : Fin 2) * 256 + 1 * k.val = k.val; omega
  · intro k
    show V c main_v138 (((cfg5.win 2).blk t).view.emb (ix2 k (j 1))) = V c main_v138 (ix2 k ((((cfg5.win 5).blk t).view.emb j) 1))
    refine congrArg _ (funext fun a => Fin.ext ?_)
    match a with
    | ⟨0, _⟩ => show win5_2.index t (0 : Fin 2) * 256 + 1 * k.val = k.val; omega
    | ⟨1, _⟩ => show win5_2.index t (1 : Fin 2) * 256 + 1 * (j 1).val = win5_5.index t (1 : Fin 2) * 256 + 1 * (j 1).val; omega
  · intro k
    show V c main_v140 (((cfg5.win 3).blk t).view.emb (ix2 k (j 1))) = V c main_v140 (ix2 k ((((cfg5.win 5).blk t).view.emb j) 1))
    refine congrArg _ (funext fun a => Fin.ext ?_)
    match a with
    | ⟨0, _⟩ => show win5_3.index t (0 : Fin 2) * 256 + 1 * k.val = k.val; omega
    | ⟨1, _⟩ => show win5_3.index t (1 : Fin 2) * 256 + 1 * (j 1).val = win5_5.index t (1 : Fin 2) * 256 + 1 * (j 1).val; omega
  · show V c main_call8_v0 (((cfg5.win 4).blk t).view.emb (ix2 (0 : Fin 1) (j 1))) = V c main_call8_v0 (ix2 (0 : Fin 1) ((((cfg5.win 5).blk t).view.emb j) 1))
    refine congrArg _ (funext fun a => Fin.ext ?_)
    match a with
    | ⟨0, _⟩ => show win5_4.index t (0 : Fin 2) * 1 + 1 * 0 = 0; omega
    | ⟨1, _⟩ => show win5_4.index t (1 : Fin 2) * 256 + 1 * (j 1).val = win5_5.index t (1 : Fin 2) * 256 + 1 * (j 1).val; omega

/-- An index of the array lies in point t's block iff each coordinate lies in the block's range on its axis. -/
theorem mem_block (t : Fin cfg5.N) (i : S60000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v162).slice (win5_5.rect t)).set ↔ _
  rw [View.set_slice_whole, Rect.mem_set_unit]
  exact Iff.rfl

/-- Every index of the array lies in some point's block: row r in block r / 2000. -/
theorem covered (i : S60000x256.Idx) : ∃ t : Fin cfg5.N, (cfg5.win 5).flush t = true ∧ i ∈ ((cfg5.win 5).blk t).view.set := by
  have hi0 : (i 0).val < 60000 := (i 0).isLt
  have hi1 : (i 1).val < 256 := (i 1).isLt
  have hN : grid5.N = 30 := N_5
  have ht : (i 0).val / 2000 < grid5.N := by omega
  obtain ⟨-, -, -, -, -, -, -, -, -, -, f0, f1⟩ := index_facts ⟨(i 0).val / 2000, ht⟩
  refine ⟨⟨(i 0).val / 2000, ht⟩, flush5_5 _, ?_⟩
  rw [mem_block]
  intro a
  match a with
  | ⟨0, _⟩ =>
    show win5_5.index ⟨(i 0).val / 2000, ht⟩ (0 : Fin 2) * 2000 ≤ (i 0).val ∧ (i 0).val < win5_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win5_5.index ⟨(i 0).val / 2000, ht⟩ (1 : Fin 2) * 256 ≤ (i 1).val ∧ (i 1).val < win5_5.index ⟨(i 0).val / 2000, ht⟩ (1 : Fin 2) * 256 + 256
    rw [f1]; omega

/-- The output array after the region is the combination of the arrays the region finds. -/
theorem final (c : Dev nD) : (dat5 V c).arrAt 5 cfg5.N = whole V c :=
  (dat5 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call8_v0) :
    W20 m ρ c (Proc.devRef .tc r) = W19 m ρ c (Proc.devRef .tc r) :=
  StableHlo.after_of_forall_not_mem (b := Proc.devRef .tc r) _ _ (List.forall_iff_forall_mem.mp (by
    simp only [hostOps5_4, List.Forall, StableHlo.reshape_writes, Finset.mem_singleton]
    exact StableHlo.devRef_ne_of_ne h))

/-- The bias row the region finds is the bias vector as a row. -/
theorem bias_row (c : Dev nD) :
    W20 m ρ c (Proc.devRef .tc main_call8_v0) = rowOf (W19 m ρ c (Proc.devRef .tc main_v142)) := by
  show StableHlo.after hostOps5_4 (W19 m ρ c) (Proc.devRef .tc main_call8_v0) = _
  after_results
  exact cast_row_eq_rowOf _ _

/-- The region's result in the host's spelling, over the contents before the bias row was laid out. -/
theorem result (c : Dev nD) :
    W21 m ρ c (no_index (Proc.devRef .tc main_v162)) =
      addf (F := Ideal) (addf (F := Ideal) (Host.dotGeneral (F := Ideal) (φ₁ := .f32) (φ₂ := .f32) Cert.ReferenceIdeal.dot_S60000x256_S256x256_S60000x256_1_0_0_1_n_n none (W19 m ρ c (Proc.devRef .tc main_v161)) (W19 m ρ c (Proc.devRef .tc main_v138)))
          (broadcastInDim Cert.ReferenceIdeal.S60000x256 ![0, 1] Cert.ReferenceIdeal.Facts₀.bcast_S1x256_S60000x256_0_1 (broadcastInDim Cert.ReferenceIdeal.S1x256 ![1] Cert.ReferenceIdeal.Facts₀.bcast_S256_S1x256_1 (W19 m ρ c (Proc.devRef .tc main_v142)))))
        (Host.dotGeneral (F := Ideal) (φ₁ := .f32) (φ₂ := .f32) Cert.ReferenceIdeal.dot_S60000x256_S256x256_S60000x256_1_0_0_1_n_n none (W19 m ρ c (Proc.devRef .tc main_v136)) (W19 m ρ c (Proc.devRef .tc main_v140))) := by
  refine (W21_arr m ρ c 5).trans ((final (V20 m ρ) c).trans ?_)
  show combine (M := 60000) (K := 256) (N := 256) (W20 m ρ c (Proc.devRef .tc main_v161)) (W20 m ρ c (Proc.devRef .tc main_v136)) (W20 m ρ c (Proc.devRef .tc main_v138))
    (W20 m ρ c (Proc.devRef .tc main_v140)) (W20 m ρ c (Proc.devRef .tc main_call8_v0)) = _
  rw [through_reshape m ρ c main_v161 (by decide), through_reshape m ρ c main_v136 (by decide), through_reshape m ρ c main_v138 (by decide),
    through_reshape m ρ c main_v140 (by decide), bias_row m ρ c]
  exact (host_combine Cert.ReferenceIdeal.Facts₀.dot_S60000x256_S256x256_S60000x256_1_0_0_1_n_n_wf Cert.ReferenceIdeal.Facts₀.bcast_S256_S1x256_1 Cert.ReferenceIdeal.Facts₀.bcast_S1x256_S60000x256_0_1 _ _ _ _ _).symm

/-- Every buffer other than the result and the bias row is as it was before the bias row was laid out. -/
theorem other (c : Dev nD) (r : Ref sig .tc) (h1 : r ≠ main_v162) (h2 : r ≠ main_call8_v0) :
    W21 m ρ c (no_index (Proc.devRef .tc r)) = W19 m ρ c (Proc.devRef .tc r) := by
  refine Eq.trans ?_ (through_reshape m ρ c r h2)
  by_cases g0 : r = main_v161
  · subst g0; exact (W21_arr m ρ c 0).trans (((dat5 (V20 m ρ) c).arrAt_in 0 rfl _).trans (A_eq5 (V20 m ρ) c 0))
  by_cases g1 : r = main_v136
  · subst g1; exact (W21_arr m ρ c 1).trans (((dat5 (V20 m ρ) c).arrAt_in 1 rfl _).trans (A_eq5 (V20 m ρ) c 1))
  by_cases g2 : r = main_v138
  · subst g2; exact (W21_arr m ρ c 2).trans (((dat5 (V20 m ρ) c).arrAt_in 2 rfl _).trans (A_eq5 (V20 m ρ) c 2))
  by_cases g3 : r = main_v140
  · subst g3; exact (W21_arr m ρ c 3).trans (((dat5 (V20 m ρ) c).arrAt_in 3 rfl _).trans (A_eq5 (V20 m ρ) c 3))
  exact W21_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region5

end
-- ==== Proof.Region6.lean ====
/-
  Region 6 of the kernel program: one neighbour-and-root combination over 40000 nodes, computed 20 blocks of 2000
  rows at a time. Block t of the output holds rows 2000·t … 2000·t + 1999; each entry depends on one row of the two
  row-indexed operands, so the 20 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region6

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k6_pay1 (F := Ideal) x0 x1 x2 x3 x4 = combine x0 x1 x2 x3 x4 := by
  unfold k6_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

section AtEntry

variable (V : (c : Dev nD) → (b : Ref sig .tc) → Buf (Elt Ideal) ((c : Thread nD τ).loc b))

/-- The whole output array as one function of the arrays the region finds. -/
abbrev whole (c : Dev nD) : S40000x256.Idx → EReal :=
  combine (M := 40000) (K := 256) (N := 256) (V c main_v187) (V c main_v135) (V c main_v164) (V c main_v166) (V c main_call9_v0)

set_option maxHeartbeats 2000000 in
/-- What point t writes back is block t of the whole array. -/
theorem flushed_eq (c : Dev nD) (t : Fin cfg6.N) :
    (dat6 V c).flushed 5 t = ((cfg6.win 5).blk t).view.read (Elt Ideal) (whole V c) := by
  show (cfg6.win 5).cut (grid6.coords t) ((dat6 V c).after 5 t) = _
  rw [after6_5]
  unfold out6_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 40000) (R := 2000) (K := 256) (N := 256) (Q := 256) (V c main_v187) (V c main_v135) (V c main_v164) (V c main_v166) (V c main_call9_v0)
    (iblk6 V c 0 t) (iblk6 V c 1 t) (iblk6 V c 2 t) (iblk6 V c 3 t) (iblk6 V c 4 t) j
    (((cfg6.win 5).blk t).view.emb j) ?_ ?_ ?_ ?_ ?_
  · intro k
    show V c main_v187 (((cfg6.win 0).blk t).view.emb (ix2 (j 0) k)) = V c main_v187 (ix2 ((((cfg6.win 5).blk t).view.emb j) 0) k)
    refine congrArg _ (funext fun a => Fin.ext ?_)
    match a with
    | ⟨0, _⟩ => show win6_0.index t (0 : Fin 2) * 2000 + 1 * (j 0).val = win6_5.index t (0 : Fin 2) * 2000 + 1 * (j 0).val; omega
    | ⟨1, _⟩ => show win6_0.index t (1 : Fin 2) * 256 + 1 * k.val = k.val; omega
  · intro k
    show V c main_v135 (((cfg6.win 1).blk t).view.emb (ix2 (j 0) k)) = V c main_v135 (ix2 ((((cfg6.win 5).blk t).view.emb j) 0) k)
    refine congrArg _ (funext fun a => Fin.ext ?_)
    match a with
    | ⟨0, _⟩ => show win6_1.index t (0 : Fin 2) * 2000 + 1 * (j 0).val = win6_5.index t (0 : Fin 2) * 2000 + 1 * (j 0).val; omega
    | ⟨1, _⟩ => show win6_1.index t (1 : Fin 2) * 256 + 1 * k.val = k.val; omega
  · intro k
    show V c main_v164 (((cfg6.win 2).blk t).view.emb (ix2 k (j 1))) = V c main_v164 (ix2 k ((((cfg6.win 5).blk t).view.emb j) 1))
    refine congrArg _ (funext fun a => Fin.ext ?_)
    match a with
    | ⟨0, _⟩ => show win6_2.index t (0 : Fin 2) * 256 + 1 * k.val = k.val; omega
    | ⟨1, _⟩ => show win6_2.index t (1 : Fin 2) * 256 + 1 * (j 1).val = win6_5.index t (1 : Fin 2) * 256 + 1 * (j 1).val; omega
  · intro k
    show V c main_v166 (((cfg6.win 3).blk t).view.emb (ix2 k (j 1))) = V c main_v166 (ix2 k ((((cfg6.win 5).blk t).view.emb j) 1))
    refine congrArg _ (funext fun a => Fin.ext ?_)
    match a with
    | ⟨0, _⟩ => show win6_3.index t (0 : Fin 2) * 256 + 1 * k.val = k.val; omega
    | ⟨1, _⟩ => show win6_3.index t (1 : Fin 2) * 256 + 1 * (j 1).val = win6_5.index t (1 : Fin 2) * 256 + 1 * (j 1).val; omega
  · show V c main_call9_v0 (((cfg6.win 4).blk t).view.emb (ix2 (0 : Fin 1) (j 1))) = V c main_call9_v0 (ix2 (0 : Fin 1) ((((cfg6.win 5).blk t).view.emb j) 1))
    refine congrArg _ (funext fun a => Fin.ext ?_)
    match a with
    | ⟨0, _⟩ => show win6_4.index t (0 : Fin 2) * 1 + 1 * 0 = 0; omega
    | ⟨1, _⟩ => show win6_4.index t (1 : Fin 2) * 256 + 1 * (j 1).val = win6_5.index t (1 : Fin 2) * 256 + 1 * (j 1).val; omega

/-- An index of the array lies in point t's block iff each coordinate lies in the block's range on its axis. -/
theorem mem_block (t : Fin cfg6.N) (i : S40000x256.Idx) :
    i ∈ ((cfg6.win 5).blk t).view.set ↔ ∀ a : Fin 2, win6_5.index t a * S2000x256.size a ≤ (i a).val ∧ (i a).val < win6_5.index t a * S2000x256.size a + S2000x256.size a := by
  show i ∈ ((View.whole main_v188).slice (win6_5.rect t)).set ↔ _
  rw [View.set_slice_whole, Rect.mem_set_unit]
  exact Iff.rfl

/-- Every index of the array lies in some point's block: row r in block r / 2000. -/
theorem covered (i : S40000x256.Idx) : ∃ t : Fin cfg6.N, (cfg6.win 5).flush t = true ∧ i ∈ ((cfg6.win 5).blk t).view.set := by
  have hi0 : (i 0).val < 40000 := (i 0).isLt
  have hi1 : (i 1).val < 256 := (i 1).isLt
  have hN : grid6.N = 20 := N_6
  have ht : (i 0).val / 2000 < grid6.N := by omega
  obtain ⟨-, -, -, -, -, -, -, -, -, -, f0, f1⟩ := index_facts ⟨(i 0).val / 2000, ht⟩
  refine ⟨⟨(i 0).val / 2000, ht⟩, flush6_5 _, ?_⟩
  rw [mem_block]
  intro a
  match a with
  | ⟨0, _⟩ =>
    show win6_5.index ⟨(i 0).val / 2000, ht⟩ (0 : Fin 2) * 2000 ≤ (i 0).val ∧ (i 0).val < win6_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win6_5.index ⟨(i 0).val / 2000, ht⟩ (1 : Fin 2) * 256 ≤ (i 1).val ∧ (i 1).val < win6_5.index ⟨(i 0).val / 2000, ht⟩ (1 : Fin 2) * 256 + 256
    rw [f1]; omega

/-- The output array after the region is the combination of the arrays the region finds. -/
theorem final (c : Dev nD) : (dat6 V c).arrAt 5 cfg6.N = whole V c :=
  (dat6 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call9_v0) :
    W23 m ρ c (Proc.devRef .tc r) = W22 m ρ c (Proc.devRef .tc r) :=
  StableHlo.after_of_forall_not_mem (b := Proc.devRef .tc r) _ _ (List.forall_iff_forall_mem.mp (by
    simp only [hostOps6_1, List.Forall, StableHlo.reshape_writes, Finset.mem_singleton]
    exact StableHlo.devRef_ne_of_ne h))

/-- The bias row the region finds is the bias vector as a row. -/
theorem bias_row (c : Dev nD) :
    W23 m ρ c (Proc.devRef .tc main_call9_v0) = rowOf (W22 m ρ c (Proc.devRef .tc main_v168)) := by
  show StableHlo.after hostOps6_1 (W22 m ρ c) (Proc.devRef .tc main_call9_v0) = _
  after_results
  exact cast_row_eq_rowOf _ _

/-- The region's result in the host's spelling, over the contents before the bias row was laid out. -/
theorem result (c : Dev nD) :
    W24 m ρ c (no_index (Proc.devRef .tc main_v188)) =
      addf (F := Ideal) (addf (F := Ideal) (Host.dotGeneral (F := Ideal) (φ₁ := .f32) (φ₂ := .f32) Cert.ReferenceIdeal.dot_S40000x256_S256x256_S40000x256_1_0_0_1_n_n none (W22 m ρ c (Proc.devRef .tc main_v187)) (W22 m ρ c (Proc.devRef .tc main_v164)))
          (broadcastInDim Cert.ReferenceIdeal.S40000x256 ![0, 1] Cert.ReferenceIdeal.Facts₀.bcast_S1x256_S40000x256_0_1 (broadcastInDim Cert.ReferenceIdeal.S1x256 ![1] Cert.ReferenceIdeal.Facts₀.bcast_S256_S1x256_1 (W22 m ρ c (Proc.devRef .tc main_v168)))))
        (Host.dotGeneral (F := Ideal) (φ₁ := .f32) (φ₂ := .f32) Cert.ReferenceIdeal.dot_S40000x256_S256x256_S40000x256_1_0_0_1_n_n none (W22 m ρ c (Proc.devRef .tc main_v135)) (W22 m ρ c (Proc.devRef .tc main_v166))) := by
  refine (W24_arr m ρ c 5).trans ((final (V23 m ρ) c).trans ?_)
  show combine (M := 40000) (K := 256) (N := 256) (W23 m ρ c (Proc.devRef .tc main_v187)) (W23 m ρ c (Proc.devRef .tc main_v135)) (W23 m ρ c (Proc.devRef .tc main_v164))
    (W23 m ρ c (Proc.devRef .tc main_v166)) (W23 m ρ c (Proc.devRef .tc main_call9_v0)) = _
  rw [through_reshape m ρ c main_v187 (by decide), through_reshape m ρ c main_v135 (by decide), through_reshape m ρ c main_v164 (by decide),
    through_reshape m ρ c main_v166 (by decide), bias_row m ρ c]
  exact (host_combine Cert.ReferenceIdeal.Facts₀.dot_S40000x256_S256x256_S40000x256_1_0_0_1_n_n_wf Cert.ReferenceIdeal.Facts₀.bcast_S256_S1x256_1 Cert.ReferenceIdeal.Facts₀.bcast_S1x256_S40000x256_0_1 _ _ _ _ _).symm

/-- Every buffer other than the result and the bias row is as it was before the bias row was laid out. -/
theorem other (c : Dev nD) (r : Ref sig .tc) (h1 : r ≠ main_v188) (h2 : r ≠ main_call9_v0) :
    W24 m ρ c (no_index (Proc.devRef .tc r)) = W22 m ρ c (Proc.devRef .tc r) := by
  refine Eq.trans ?_ (through_reshape m ρ c r h2)
  by_cases g0 : r = main_v187
  · subst g0; exact (W24_arr m ρ c 0).trans (((dat6 (V23 m ρ) c).arrAt_in 0 rfl _).trans (A_eq6 (V23 m ρ) c 0))
  by_cases g1 : r = main_v135
  · subst g1; exact (W24_arr m ρ c 1).trans (((dat6 (V23 m ρ) c).arrAt_in 1 rfl _).trans (A_eq6 (V23 m ρ) c 1))
  by_cases g2 : r = main_v164
  · subst g2; exact (W24_arr m ρ c 2).trans (((dat6 (V23 m ρ) c).arrAt_in 2 rfl _).trans (A_eq6 (V23 m ρ) c 2))
  by_cases g3 : r = main_v166
  · subst g3; exact (W24_arr m ρ c 3).trans (((dat6 (V23 m ρ) c).arrAt_in 3 rfl _).trans (A_eq6 (V23 m ρ) c 3))
  exact W24_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region6

end
-- ==== Proof.Region7.lean ====
/-
  Region 7 of the kernel program: one neighbour-and-root combination over 40000 nodes, computed 20 blocks of 2000
  rows at a time. Block t of the output holds rows 2000·t … 2000·t + 1999; each entry depends on one row of the two
  row-indexed operands, so the 20 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region7

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k7_pay1 (F := Ideal) x0 x1 x2 x3 x4 = combine x0 x1 x2 x3 x4 := by
  unfold k7_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

section AtEntry

variable (V : (c : Dev nD) → (b : Ref sig .tc) → Buf (Elt Ideal) ((c : Thread nD τ).loc b))

/-- The whole output array as one function of the arrays the region finds. -/
abbrev whole (c : Dev nD) : S40000x256.Idx → EReal :=
  combine (M := 40000) (K := 256) (N := 256) (V c main_v213) (V c main_v135) (V c main_v190) (V c main_v192) (V c main_call10_v0)

set_option maxHeartbeats 2000000 in
/-- What point t writes back is block t of the whole array. -/
theorem flushed_eq (c : Dev nD) (t : Fin cfg7.N) :
    (dat7 V c).flushed 5 t = ((cfg7.win 5).blk t).view.read (Elt Ideal) (whole V c) := by
  show (cfg7.win 5).cut (grid7.coords t) ((dat7 V c).after 5 t) = _
  rw [after7_5]
  unfold out7_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 40000) (R := 2000) (K := 256) (N := 256) (Q := 256) (V c main_v213) (V c main_v135) (V c main_v190) (V c main_v192) (V c main_call10_v0)
    (iblk7 V c 0 t) (iblk7 V c 1 t) (iblk7 V c 2 t) (iblk7 V c 3 t) (iblk7 V c 4 t) j
    (((cfg7.win 5).blk t).view.emb j) ?_ ?_ ?_ ?_ ?_
  · intro k
    show V c main_v213 (((cfg7.win 0).blk t).view.emb (ix2 (j 0) k)) = V c main_v213 (ix2 ((((cfg7.win 5).blk t).view.emb j) 0) k)
    refine congrArg _ (funext fun a => Fin.ext ?_)
    match a with
    | ⟨0, _⟩ => show win7_0.index t (0 : Fin 2) * 2000 + 1 * (j 0).val = win7_5.index t (0 : Fin 2) * 2000 + 1 * (j 0).val; omega
    | ⟨1, _⟩ => show win7_0.index t (1 : Fin 2) * 256 + 1 * k.val = k.val; omega
  · intro k
    show V c main_v135 (((cfg7.win 1).blk t).view.emb (ix2 (j 0) k)) = V c main_v135 (ix2 ((((cfg7.win 5).blk t).view.emb j) 0) k)
    refine congrArg _ (funext fun a => Fin.ext ?_)
    match a with
    | ⟨0, _⟩ => show win7_1.index t (0 : Fin 2) * 2000 + 1 * (j 0).val = win7_5.index t (0 : Fin 2) * 2000 + 1 * (j 0).val; omega
    | ⟨1, _⟩ => show win7_1.index t (1 : Fin 2) * 256 + 1 * k.val = k.val; omega
  · intro k
    show V c main_v190 (((cfg7.win 2).blk t).view.emb (ix2 k (j 1))) = V c main_v190 (ix2 k ((((cfg7.win 5).blk t).view.emb j) 1))
    refine congrArg _ (funext fun a => Fin.ext ?_)
    match a with
    | ⟨0, _⟩ => show win7_2.index t (0 : Fin 2) * 256 + 1 * k.val = k.val; omega
    | ⟨1, _⟩ => show win7_2.index t (1 : Fin 2) * 256 + 1 * (j 1).val = win7_5.index t (1 : Fin 2) * 256 + 1 * (j 1).val; omega
  · intro k
    show V c main_v192 (((cfg7.win 3).blk t).view.emb (ix2 k (j 1))) = V c main_v192 (ix2 k ((((cfg7.win 5).blk t).view.emb j) 1))
    refine congrArg _ (funext fun a => Fin.ext ?_)
    match a with
    | ⟨0, _⟩ => show win7_3.index t (0 : Fin 2) * 256 + 1 * k.val = k.val; omega
    | ⟨1, _⟩ => show win7_3.index t (1 : Fin 2) * 256 + 1 * (j 1).val = win7_5.index t (1 : Fin 2) * 256 + 1 * (j 1).val; omega
  · show V c main_call10_v0 (((cfg7.win 4).blk t).view.emb (ix2 (0 : Fin 1) (j 1))) = V c main_call10_v0 (ix2 (0 : Fin 1) ((((cfg7.win 5).blk t).view.emb j) 1))
    refine congrArg _ (funext fun a => Fin.ext ?_)
    match a with
    | ⟨0, _⟩ => show win7_4.index t (0 : Fin 2) * 1 + 1 * 0 = 0; omega
    | ⟨1, _⟩ => show win7_4.index t (1 : Fin 2) * 256 + 1 * (j 1).val = win7_5.index t (1 : Fin 2) * 256 + 1 * (j 1).val; omega

/-- An index of the array lies in point t's block iff each coordinate lies in the block's range on its axis. -/
theorem mem_block (t : Fin cfg7.N) (i : S40000x256.Idx) :
    i ∈ ((cfg7.win 5).blk t).view.set ↔ ∀ a : Fin 2, win7_5.index t a * S2000x256.size a ≤ (i a).val ∧ (i a).val < win7_5.index t a * S2000x256.size a + S2000x256.size a := by
  show i ∈ ((View.whole main_v214).slice (win7_5.rect t)).set ↔ _
  rw [View.set_slice_whole, Rect.mem_set_unit]
  exact Iff.rfl

/-- Every index of the array lies in some point's block: row r in block r / 2000. -/
theorem covered (i : S40000x256.Idx) : ∃ t : Fin cfg7.N, (cfg7.win 5).flush t = true ∧ i ∈ ((cfg7.win 5).blk t).view.set := by
  have hi0 : (i 0).val < 40000 := (i 0).isLt
  have hi1 : (i 1).val < 256 := (i 1).isLt
  have hN : grid7.N = 20 := N_7
  have ht : (i 0).val / 2000 < grid7.N := by omega
  obtain ⟨-, -, -, -, -, -, -, -, -, -, f0, f1⟩ := index_facts ⟨(i 0).val / 2000, ht⟩
  refine ⟨⟨(i 0).val / 2000, ht⟩, flush7_5 _, ?_⟩
  rw [mem_block]
  intro a
  match a with
  | ⟨0, _⟩ =>
    show win7_5.index ⟨(i 0).val / 2000, ht⟩ (0 : Fin 2) * 2000 ≤ (i 0).val ∧ (i 0).val < win7_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win7_5.index ⟨(i 0).val / 2000, ht⟩ (1 : Fin 2) * 256 ≤ (i 1).val ∧ (i 1).val < win7_5.index ⟨(i 0).val / 2000, ht⟩ (1 : Fin 2) * 256 + 256
    rw [f1]; omega

/-- The output array after the region is the combination of the arrays the region finds. -/
theorem final (c : Dev nD) : (dat7 V c).arrAt 5 cfg7.N = whole V c :=
  (dat7 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call10_v0) :
    W26 m ρ c (Proc.devRef .tc r) = W25 m ρ c (Proc.devRef .tc r) :=
  StableHlo.after_of_forall_not_mem (b := Proc.devRef .tc r) _ _ (List.forall_iff_forall_mem.mp (by
    simp only [hostOps7_1, List.Forall, StableHlo.reshape_writes, Finset.mem_singleton]
    exact StableHlo.devRef_ne_of_ne h))

/-- The bias row the region finds is the bias vector as a row. -/
theorem bias_row (c : Dev nD) :
    W26 m ρ c (Proc.devRef .tc main_call10_v0) = rowOf (W25 m ρ c (Proc.devRef .tc main_v194)) := by
  show StableHlo.after hostOps7_1 (W25 m ρ c) (Proc.devRef .tc main_call10_v0) = _
  after_results
  exact cast_row_eq_rowOf _ _

/-- The region's result in the host's spelling, over the contents before the bias row was laid out. -/
theorem result (c : Dev nD) :
    W27 m ρ c (no_index (Proc.devRef .tc main_v214)) =
      addf (F := Ideal) (addf (F := Ideal) (Host.dotGeneral (F := Ideal) (φ₁ := .f32) (φ₂ := .f32) Cert.ReferenceIdeal.dot_S40000x256_S256x256_S40000x256_1_0_0_1_n_n none (W25 m ρ c (Proc.devRef .tc main_v213)) (W25 m ρ c (Proc.devRef .tc main_v190)))
          (broadcastInDim Cert.ReferenceIdeal.S40000x256 ![0, 1] Cert.ReferenceIdeal.Facts₀.bcast_S1x256_S40000x256_0_1 (broadcastInDim Cert.ReferenceIdeal.S1x256 ![1] Cert.ReferenceIdeal.Facts₀.bcast_S256_S1x256_1 (W25 m ρ c (Proc.devRef .tc main_v194)))))
        (Host.dotGeneral (F := Ideal) (φ₁ := .f32) (φ₂ := .f32) Cert.ReferenceIdeal.dot_S40000x256_S256x256_S40000x256_1_0_0_1_n_n none (W25 m ρ c (Proc.devRef .tc main_v135)) (W25 m ρ c (Proc.devRef .tc main_v192))) := by
  refine (W27_arr m ρ c 5).trans ((final (V26 m ρ) c).trans ?_)
  show combine (M := 40000) (K := 256) (N := 256) (W26 m ρ c (Proc.devRef .tc main_v213)) (W26 m ρ c (Proc.devRef .tc main_v135)) (W26 m ρ c (Proc.devRef .tc main_v190))
    (W26 m ρ c (Proc.devRef .tc main_v192)) (W26 m ρ c (Proc.devRef .tc main_call10_v0)) = _
  rw [through_reshape m ρ c main_v213 (by decide), through_reshape m ρ c main_v135 (by decide), through_reshape m ρ c main_v190 (by decide),
    through_reshape m ρ c main_v192 (by decide), bias_row m ρ c]
  exact (host_combine Cert.ReferenceIdeal.Facts₀.dot_S40000x256_S256x256_S40000x256_1_0_0_1_n_n_wf Cert.ReferenceIdeal.Facts₀.bcast_S256_S1x256_1 Cert.ReferenceIdeal.Facts₀.bcast_S1x256_S40000x256_0_1 _ _ _ _ _).symm

/-- Every buffer other than the result and the bias row is as it was before the bias row was laid out. -/
theorem other (c : Dev nD) (r : Ref sig .tc) (h1 : r ≠ main_v214) (h2 : r ≠ main_call10_v0) :
    W27 m ρ c (no_index (Proc.devRef .tc r)) = W25 m ρ c (Proc.devRef .tc r) := by
  refine Eq.trans ?_ (through_reshape m ρ c r h2)
  by_cases g0 : r = main_v213
  · subst g0; exact (W27_arr m ρ c 0).trans (((dat7 (V26 m ρ) c).arrAt_in 0 rfl _).trans (A_eq7 (V26 m ρ) c 0))
  by_cases g1 : r = main_v135
  · subst g1; exact (W27_arr m ρ c 1).trans (((dat7 (V26 m ρ) c).arrAt_in 1 rfl _).trans (A_eq7 (V26 m ρ) c 1))
  by_cases g2 : r = main_v190
  · subst g2; exact (W27_arr m ρ c 2).trans (((dat7 (V26 m ρ) c).arrAt_in 2 rfl _).trans (A_eq7 (V26 m ρ) c 2))
  by_cases g3 : r = main_v192
  · subst g3; exact (W27_arr m ρ c 3).trans (((dat7 (V26 m ρ) c).arrAt_in 3 rfl _).trans (A_eq7 (V26 m ρ) c 3))
  exact W27_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region7

end
-- ==== Proof.Region8.lean ====
/-
  Region 8 of the kernel program: one neighbour-and-root combination over 40000 nodes, computed 20 blocks of 2000
  rows at a time. Block t of the output holds rows 2000·t … 2000·t + 1999; each entry depends on one row of the two
  row-indexed operands, so the 20 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region8

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k8_pay1 (F := Ideal) x0 x1 x2 x3 x4 = combine x0 x1 x2 x3 x4 := by
  unfold k8_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

section AtEntry

variable (V : (c : Dev nD) → (b : Ref sig .tc) → Buf (Elt Ideal) ((c : Thread nD τ).loc b))

/-- The whole output array as one function of the arrays the region finds. -/
abbrev whole (c : Dev nD) : S40000x256.Idx → EReal :=
  combine (M := 40000) (K := 256) (N := 256) (V c main_v239) (V c main_v135) (V c main_v216) (V c main_v218) (V c main_call11_v0)

set_option maxHeartbeats 2000000 in
/-- What point t writes back is block t of the whole array. -/
theorem flushed_eq (c : Dev nD) (t : Fin cfg8.N) :
    (dat8 V c).flushed 5 t = ((cfg8.win 5).blk t).view.read (Elt Ideal) (whole V c) := by
  show (cfg8.win 5).cut (grid8.coords t) ((dat8 V c).after 5 t) = _
  rw [after8_5]
  unfold out8_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 40000) (R := 2000) (K := 256) (N := 256) (Q := 256) (V c main_v239) (V c main_v135) (V c main_v216) (V c main_v218) (V c main_call11_v0)
    (iblk8 V c 0 t) (iblk8 V c 1 t) (iblk8 V c 2 t) (iblk8 V c 3 t) (iblk8 V c 4 t) j
    (((cfg8.win 5).blk t).view.emb j) ?_ ?_ ?_ ?_ ?_
  · intro k
    show V c main_v239 (((cfg8.win 0).blk t).view.emb (ix2 (j 0) k)) = V c main_v239 (ix2 ((((cfg8.win 5).blk t).view.emb j) 0) k)
    refine congrArg _ (funext fun a => Fin.ext ?_)
    match a with
    | ⟨0, _⟩ => show win8_0.index t (0 : Fin 2) * 2000 + 1 * (j 0).val = win8_5.index t (0 : Fin 2) * 2000 + 1 * (j 0).val; omega
    | ⟨1, _⟩ => show win8_0.index t (1 : Fin 2) * 256 + 1 * k.val = k.val; omega
  · intro k
    show V c main_v135 (((cfg8.win 1).blk t).view.emb (ix2 (j 0) k)) = V c main_v135 (ix2 ((((cfg8.win 5).blk t).view.emb j) 0) k)
    refine congrArg _ (funext fun a => Fin.ext ?_)
    match a with
    | ⟨0, _⟩ => show win8_1.index t (0 : Fin 2) * 2000 + 1 * (j 0).val = win8_5.index t (0 : Fin 2) * 2000 + 1 * (j 0).val; omega
    | ⟨1, _⟩ => show win8_1.index t (1 : Fin 2) * 256 + 1 * k.val = k.val; omega
  · intro k
    show V c main_v216 (((cfg8.win 2).blk t).view.emb (ix2 k (j 1))) = V c main_v216 (ix2 k ((((cfg8.win 5).blk t).view.emb j) 1))
    refine congrArg _ (funext fun a => Fin.ext ?_)
    match a with
    | ⟨0, _⟩ => show win8_2.index t (0 : Fin 2) * 256 + 1 * k.val = k.val; omega
    | ⟨1, _⟩ => show win8_2.index t (1 : Fin 2) * 256 + 1 * (j 1).val = win8_5.index t (1 : Fin 2) * 256 + 1 * (j 1).val; omega
  · intro k
    show V c main_v218 (((cfg8.win 3).blk t).view.emb (ix2 k (j 1))) = V c main_v218 (ix2 k ((((cfg8.win 5).blk t).view.emb j) 1))
    refine congrArg _ (funext fun a => Fin.ext ?_)
    match a with
    | ⟨0, _⟩ => show win8_3.index t (0 : Fin 2) * 256 + 1 * k.val = k.val; omega
    | ⟨1, _⟩ => show win8_3.index t (1 : Fin 2) * 256 + 1 * (j 1).val = win8_5.index t (1 : Fin 2) * 256 + 1 * (j 1).val; omega
  · show V c main_call11_v0 (((cfg8.win 4).blk t).view.emb (ix2 (0 : Fin 1) (j 1))) = V c main_call11_v0 (ix2 (0 : Fin 1) ((((cfg8.win 5).blk t).view.emb j) 1))
    refine congrArg _ (funext fun a => Fin.ext ?_)
    match a with
    | ⟨0, _⟩ => show win8_4.index t (0 : Fin 2) * 1 + 1 * 0 = 0; omega
    | ⟨1, _⟩ => show win8_4.index t (1 : Fin 2) * 256 + 1 * (j 1).val = win8_5.index t (1 : Fin 2) * 256 + 1 * (j 1).val; omega

/-- An index of the array lies in point t's block iff each coordinate lies in the block's range on its axis. -/
theorem mem_block (t : Fin cfg8.N) (i : S40000x256.Idx) :
    i ∈ ((cfg8.win 5).blk t).view.set ↔ ∀ a : Fin 2, win8_5.index t a * S2000x256.size a ≤ (i a).val ∧ (i a).val < win8_5.index t a * S2000x256.size a + S2000x256.size a := by
  show i ∈ ((View.whole main_v240).slice (win8_5.rect t)).set ↔ _
  rw [View.set_slice_whole, Rect.mem_set_unit]
  exact Iff.rfl

/-- Every index of the array lies in some point's block: row r in block r / 2000. -/
theorem covered (i : S40000x256.Idx) : ∃ t : Fin cfg8.N, (cfg8.win 5).flush t = true ∧ i ∈ ((cfg8.win 5).blk t).view.set := by
  have hi0 : (i 0).val < 40000 := (i 0).isLt
  have hi1 : (i 1).val < 256 := (i 1).isLt
  have hN : grid8.N = 20 := N_8
  have ht : (i 0).val / 2000 < grid8.N := by omega
  obtain ⟨-, -, -, -, -, -, -, -, -, -, f0, f1⟩ := index_facts ⟨(i 0).val / 2000, ht⟩
  refine ⟨⟨(i 0).val / 2000, ht⟩, flush8_5 _, ?_⟩
  rw [mem_block]
  intro a
  match a with
  | ⟨0, _⟩ =>
    show win8_5.index ⟨(i 0).val / 2000, ht⟩ (0 : Fin 2) * 2000 ≤ (i 0).val ∧ (i 0).val < win8_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win8_5.index ⟨(i 0).val / 2000, ht⟩ (1 : Fin 2) * 256 ≤ (i 1).val ∧ (i 1).val < win8_5.index ⟨(i 0).val / 2000, ht⟩ (1 : Fin 2) * 256 + 256
    rw [f1]; omega

/-- The output array after the region is the combination of the arrays the region finds. -/
theorem final (c : Dev nD) : (dat8 V c).arrAt 5 cfg8.N = whole V c :=
  (dat8 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call11_v0) :
    W29 m ρ c (Proc.devRef .tc r) = W28 m ρ c (Proc.devRef .tc r) :=
  StableHlo.after_of_forall_not_mem (b := Proc.devRef .tc r) _ _ (List.forall_iff_forall_mem.mp (by
    simp only [hostOps8_1, List.Forall, StableHlo.reshape_writes, Finset.mem_singleton]
    exact StableHlo.devRef_ne_of_ne h))

/-- The bias row the region finds is the bias vector as a row. -/
theorem bias_row (c : Dev nD) :
    W29 m ρ c (Proc.devRef .tc main_call11_v0) = rowOf (W28 m ρ c (Proc.devRef .tc main_v220)) := by
  show StableHlo.after hostOps8_1 (W28 m ρ c) (Proc.devRef .tc main_call11_v0) = _
  after_results
  exact cast_row_eq_rowOf _ _

/-- The region's result in the host's spelling, over the contents before the bias row was laid out. -/
theorem result (c : Dev nD) :
    W30 m ρ c (no_index (Proc.devRef .tc main_v240)) =
      addf (F := Ideal) (addf (F := Ideal) (Host.dotGeneral (F := Ideal) (φ₁ := .f32) (φ₂ := .f32) Cert.ReferenceIdeal.dot_S40000x256_S256x256_S40000x256_1_0_0_1_n_n none (W28 m ρ c (Proc.devRef .tc main_v239)) (W28 m ρ c (Proc.devRef .tc main_v216)))
          (broadcastInDim Cert.ReferenceIdeal.S40000x256 ![0, 1] Cert.ReferenceIdeal.Facts₀.bcast_S1x256_S40000x256_0_1 (broadcastInDim Cert.ReferenceIdeal.S1x256 ![1] Cert.ReferenceIdeal.Facts₀.bcast_S256_S1x256_1 (W28 m ρ c (Proc.devRef .tc main_v220)))))
        (Host.dotGeneral (F := Ideal) (φ₁ := .f32) (φ₂ := .f32) Cert.ReferenceIdeal.dot_S40000x256_S256x256_S40000x256_1_0_0_1_n_n none (W28 m ρ c (Proc.devRef .tc main_v135)) (W28 m ρ c (Proc.devRef .tc main_v218))) := by
  refine (W30_arr m ρ c 5).trans ((final (V29 m ρ) c).trans ?_)
  show combine (M := 40000) (K := 256) (N := 256) (W29 m ρ c (Proc.devRef .tc main_v239)) (W29 m ρ c (Proc.devRef .tc main_v135)) (W29 m ρ c (Proc.devRef .tc main_v216))
    (W29 m ρ c (Proc.devRef .tc main_v218)) (W29 m ρ c (Proc.devRef .tc main_call11_v0)) = _
  rw [through_reshape m ρ c main_v239 (by decide), through_reshape m ρ c main_v135 (by decide), through_reshape m ρ c main_v216 (by decide),
    through_reshape m ρ c main_v218 (by decide), bias_row m ρ c]
  exact (host_combine Cert.ReferenceIdeal.Facts₀.dot_S40000x256_S256x256_S40000x256_1_0_0_1_n_n_wf Cert.ReferenceIdeal.Facts₀.bcast_S256_S1x256_1 Cert.ReferenceIdeal.Facts₀.bcast_S1x256_S40000x256_0_1 _ _ _ _ _).symm

/-- Every buffer other than the result and the bias row is as it was before the bias row was laid out. -/
theorem other (c : Dev nD) (r : Ref sig .tc) (h1 : r ≠ main_v240) (h2 : r ≠ main_call11_v0) :
    W30 m ρ c (no_index (Proc.devRef .tc r)) = W28 m ρ c (Proc.devRef .tc r) := by
  refine Eq.trans ?_ (through_reshape m ρ c r h2)
  by_cases g0 : r = main_v239
  · subst g0; exact (W30_arr m ρ c 0).trans (((dat8 (V29 m ρ) c).arrAt_in 0 rfl _).trans (A_eq8 (V29 m ρ) c 0))
  by_cases g1 : r = main_v135
  · subst g1; exact (W30_arr m ρ c 1).trans (((dat8 (V29 m ρ) c).arrAt_in 1 rfl _).trans (A_eq8 (V29 m ρ) c 1))
  by_cases g2 : r = main_v216
  · subst g2; exact (W30_arr m ρ c 2).trans (((dat8 (V29 m ρ) c).arrAt_in 2 rfl _).trans (A_eq8 (V29 m ρ) c 2))
  by_cases g3 : r = main_v218
  · subst g3; exact (W30_arr m ρ c 3).trans (((dat8 (V29 m ρ) c).arrAt_in 3 rfl _).trans (A_eq8 (V29 m ρ) c 3))
  exact W30_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region8

end
-- ==== Proof.Region9.lean ====
/-
  Region 9 of the kernel program: one neighbour-and-root combination over 100000 nodes, computed 50 blocks of 2000
  rows at a time. Block t of the output holds rows 2000·t … 2000·t + 1999; each entry depends on one row of the two
  row-indexed operands, so the 50 blocks assemble the whole array Σ_k X(r,k)·Wl(k,q) + Σ_k Y(r,k)·Wr(k,q) + B(0,q),
  which is also what the host's spelling (product, plus the bias vector as a repeated row, plus product) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region9

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Sage

theorem offsets_zero : (![0, 0] : Fin 2 → Nat) = fun _ => 0 := funext fun a => by fin_cases a <;> rfl

/-- The body's arithmetic on one point's blocks is the combination of those blocks. -/
theorem payload_eq (x0 x1 : Vec Ideal S2000x256 .f32) (x2 x3 : Vec Ideal S256x256 .f32) (x4 : Vec Ideal S1x256 .f32) :
    k9_pay1 (F := Ideal) x0 x1 x2 x3 x4 = combine x0 x1 x2 x3 x4 := by
  unfold k9_pay1
  refine (block_combine dot_S2000x256_S256x256_S2000x256_1_0_0_1_n_n_wf shapeCasts_S1x256_S1x256 broadcasts_S1x256_S2000x256 _ _ _ _ x4).trans ?_
  simp only [shapeCast_self]
  rfl

/-- The printed index maps over the grid: the row-indexed windows move with the output's block row t, every other
    block index is 0. -/
theorem index_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0
    ∧ win9_5.index t (0 : Fin 2) = t.val ∧ win9_5.index t (1 : Fin 2) = 0 :=
  (by decide +kernel : ∀ t : Fin grid9.N, _)

section AtEntry

variable (V : (c : Dev nD) → (b : Ref sig .tc) → Buf (Elt Ideal) ((c : Thread nD τ).loc b))

/-- The whole output array as one function of the arrays the region finds. -/
abbrev whole (c : Dev nD) : S100000x256.Idx → EReal :=
  combine (M := 100000) (K := 256) (N := 256) (V c main_v269) (V c main_v134) (V c main_v246) (V c main_v248) (V c main_call12_v0)

set_option maxHeartbeats 2000000 in
/-- What point t writes back is block t of the whole array. -/
theorem flushed_eq (c : Dev nD) (t : Fin cfg9.N) :
    (dat9 V c).flushed 5 t = ((cfg9.win 5).blk t).view.read (Elt Ideal) (whole V c) := by
  show (cfg9.win 5).cut (grid9.coords t) ((dat9 V c).after 5 t) = _
  rw [after9_5]
  unfold out9_5
  rw [View.canon_unit_zero offsets_zero]
  simp only [View.ld_unit_zero (S := S2000x256) offsets_zero, View.ld_unit_zero (S := S256x256) offsets_zero,
    View.ld_unit_zero (S := S1x256) offsets_zero]
  rw [payload_eq]
  obtain ⟨a0, a1, b0, b1, c0, c1, d0, d1, e0, e1, f0, f1⟩ := index_facts t
  funext j
  have hj0 : (j 0).val < 2000 := (j 0).isLt
  have hj1 : (j 1).val < 256 := (j 1).isLt
  refine combine_block (M := 100000) (R := 2000) (K := 256) (N := 256) (Q := 256) (V c main_v269) (V c main_v134) (V c main_v246) (V c main_v248) (V c main_call12_v0)
    (iblk9 V c 0 t) (iblk9 V c 1 t) (iblk9 V c 2 t) (iblk9 V c 3 t) (iblk9 V c 4 t) j
    (((cfg9.win 5).blk t).view.emb j) ?_ ?_ ?_ ?_ ?_
  · intro k
    show V c main_v269 (((cfg9.win 0).blk t).view.emb (ix2 (j 0) k)) = V c main_v269 (ix2 ((((cfg9.win 5).blk t).view.emb j) 0) k)
    refine congrArg _ (funext fun a => Fin.ext ?_)
    match a with
    | ⟨0, _⟩ => show win9_0.index t (0 : Fin 2) * 2000 + 1 * (j 0).val = win9_5.index t (0 : Fin 2) * 2000 + 1 * (j 0).val; omega
    | ⟨1, _⟩ => show win9_0.index t (1 : Fin 2) * 256 + 1 * k.val = k.val; omega
  · intro k
    show V c main_v134 (((cfg9.win 1).blk t).view.emb (ix2 (j 0) k)) = V c main_v134 (ix2 ((((cfg9.win 5).blk t).view.emb j) 0) k)
    refine congrArg _ (funext fun a => Fin.ext ?_)
    match a with
    | ⟨0, _⟩ => show win9_1.index t (0 : Fin 2) * 2000 + 1 * (j 0).val = win9_5.index t (0 : Fin 2) * 2000 + 1 * (j 0).val; omega
    | ⟨1, _⟩ => show win9_1.index t (1 : Fin 2) * 256 + 1 * k.val = k.val; omega
  · intro k
    show V c main_v246 (((cfg9.win 2).blk t).view.emb (ix2 k (j 1))) = V c main_v246 (ix2 k ((((cfg9.win 5).blk t).view.emb j) 1))
    refine congrArg _ (funext fun a => Fin.ext ?_)
    match a with
    | ⟨0, _⟩ => show win9_2.index t (0 : Fin 2) * 256 + 1 * k.val = k.val; omega
    | ⟨1, _⟩ => show win9_2.index t (1 : Fin 2) * 256 + 1 * (j 1).val = win9_5.index t (1 : Fin 2) * 256 + 1 * (j 1).val; omega
  · intro k
    show V c main_v248 (((cfg9.win 3).blk t).view.emb (ix2 k (j 1))) = V c main_v248 (ix2 k ((((cfg9.win 5).blk t).view.emb j) 1))
    refine congrArg _ (funext fun a => Fin.ext ?_)
    match a with
    | ⟨0, _⟩ => show win9_3.index t (0 : Fin 2) * 256 + 1 * k.val = k.val; omega
    | ⟨1, _⟩ => show win9_3.index t (1 : Fin 2) * 256 + 1 * (j 1).val = win9_5.index t (1 : Fin 2) * 256 + 1 * (j 1).val; omega
  · show V c main_call12_v0 (((cfg9.win 4).blk t).view.emb (ix2 (0 : Fin 1) (j 1))) = V c main_call12_v0 (ix2 (0 : Fin 1) ((((cfg9.win 5).blk t).view.emb j) 1))
    refine congrArg _ (funext fun a => Fin.ext ?_)
    match a with
    | ⟨0, _⟩ => show win9_4.index t (0 : Fin 2) * 1 + 1 * 0 = 0; omega
    | ⟨1, _⟩ => show win9_4.index t (1 : Fin 2) * 256 + 1 * (j 1).val = win9_5.index t (1 : Fin 2) * 256 + 1 * (j 1).val; omega

/-- An index of the array lies in point t's block iff each coordinate lies in the block's range on its axis. -/
theorem mem_block (t : Fin cfg9.N) (i : S100000x256.Idx) :
    i ∈ ((cfg9.win 5).blk t).view.set ↔ ∀ a : Fin 2, win9_5.index t a * S2000x256.size a ≤ (i a).val ∧ (i a).val < win9_5.index t a * S2000x256.size a + S2000x256.size a := by
  show i ∈ ((View.whole main_v270).slice (win9_5.rect t)).set ↔ _
  rw [View.set_slice_whole, Rect.mem_set_unit]
  exact Iff.rfl

/-- Every index of the array lies in some point's block: row r in block r / 2000. -/
theorem covered (i : S100000x256.Idx) : ∃ t : Fin cfg9.N, (cfg9.win 5).flush t = true ∧ i ∈ ((cfg9.win 5).blk t).view.set := by
  have hi0 : (i 0).val < 100000 := (i 0).isLt
  have hi1 : (i 1).val < 256 := (i 1).isLt
  have hN : grid9.N = 50 := N_9
  have ht : (i 0).val / 2000 < grid9.N := by omega
  obtain ⟨-, -, -, -, -, -, -, -, -, -, f0, f1⟩ := index_facts ⟨(i 0).val / 2000, ht⟩
  refine ⟨⟨(i 0).val / 2000, ht⟩, flush9_5 _, ?_⟩
  rw [mem_block]
  intro a
  match a with
  | ⟨0, _⟩ =>
    show win9_5.index ⟨(i 0).val / 2000, ht⟩ (0 : Fin 2) * 2000 ≤ (i 0).val ∧ (i 0).val < win9_5.index ⟨(i 0).val / 2000, ht⟩ (0 : Fin 2) * 2000 + 2000
    rw [f0]; show (i 0).val / 2000 * 2000 ≤ (i 0).val ∧ (i 0).val < (i 0).val / 2000 * 2000 + 2000; omega
  | ⟨1, _⟩ =>
    show win9_5.index ⟨(i 0).val / 2000, ht⟩ (1 : Fin 2) * 256 ≤ (i 1).val ∧ (i 1).val < win9_5.index ⟨(i 0).val / 2000, ht⟩ (1 : Fin 2) * 256 + 256
    rw [f1]; omega

/-- The output array after the region is the combination of the arrays the region finds. -/
theorem final (c : Dev nD) : (dat9 V c).arrAt 5 cfg9.N = whole V c :=
  (dat9 V c).arrAt_eq_of_cover 5 (whole V c) (fun t _ => flushed_eq V c t) (covered)

end AtEntry

section InTheRun

variable (m : (ℓ : Loc nD τ sig) → Buf (Elt Ideal) ℓ) (ρ : Dev nD → PrngReg)

/-- The one reshape before the region writes only the bias row. -/
theorem through_reshape (c : Dev nD) (r : Ref sig .tc) (h : r ≠ main_call12_v0) :
    W32 m ρ c (Proc.devRef .tc r) = W31 m ρ c (Proc.devRef .tc r) :=
  StableHlo.after_of_forall_not_mem (b := Proc.devRef .tc r) _ _ (List.forall_iff_forall_mem.mp (by
    simp only [hostOps9_1, List.Forall, StableHlo.reshape_writes, Finset.mem_singleton]
    exact StableHlo.devRef_ne_of_ne h))

/-- The bias row the region finds is the bias vector as a row. -/
theorem bias_row (c : Dev nD) :
    W32 m ρ c (Proc.devRef .tc main_call12_v0) = rowOf (W31 m ρ c (Proc.devRef .tc main_v250)) := by
  show StableHlo.after hostOps9_1 (W31 m ρ c) (Proc.devRef .tc main_call12_v0) = _
  after_results
  exact cast_row_eq_rowOf _ _

/-- The region's result in the host's spelling, over the contents before the bias row was laid out. -/
theorem result (c : Dev nD) :
    W33 m ρ c (no_index (Proc.devRef .tc main_v270)) =
      addf (F := Ideal) (addf (F := Ideal) (Host.dotGeneral (F := Ideal) (φ₁ := .f32) (φ₂ := .f32) Cert.ReferenceIdeal.dot_S100000x256_S256x256_S100000x256_1_0_0_1_n_n none (W31 m ρ c (Proc.devRef .tc main_v269)) (W31 m ρ c (Proc.devRef .tc main_v246)))
          (broadcastInDim Cert.ReferenceIdeal.S100000x256 ![0, 1] Cert.ReferenceIdeal.Facts₀.bcast_S1x256_S100000x256_0_1 (broadcastInDim Cert.ReferenceIdeal.S1x256 ![1] Cert.ReferenceIdeal.Facts₀.bcast_S256_S1x256_1 (W31 m ρ c (Proc.devRef .tc main_v250)))))
        (Host.dotGeneral (F := Ideal) (φ₁ := .f32) (φ₂ := .f32) Cert.ReferenceIdeal.dot_S100000x256_S256x256_S100000x256_1_0_0_1_n_n none (W31 m ρ c (Proc.devRef .tc main_v134)) (W31 m ρ c (Proc.devRef .tc main_v248))) := by
  refine (W33_arr m ρ c 5).trans ((final (V32 m ρ) c).trans ?_)
  show combine (M := 100000) (K := 256) (N := 256) (W32 m ρ c (Proc.devRef .tc main_v269)) (W32 m ρ c (Proc.devRef .tc main_v134)) (W32 m ρ c (Proc.devRef .tc main_v246))
    (W32 m ρ c (Proc.devRef .tc main_v248)) (W32 m ρ c (Proc.devRef .tc main_call12_v0)) = _
  rw [through_reshape m ρ c main_v269 (by decide), through_reshape m ρ c main_v134 (by decide), through_reshape m ρ c main_v246 (by decide),
    through_reshape m ρ c main_v248 (by decide), bias_row m ρ c]
  exact (host_combine Cert.ReferenceIdeal.Facts₀.dot_S100000x256_S256x256_S100000x256_1_0_0_1_n_n_wf Cert.ReferenceIdeal.Facts₀.bcast_S256_S1x256_1 Cert.ReferenceIdeal.Facts₀.bcast_S1x256_S100000x256_0_1 _ _ _ _ _).symm

/-- Every buffer other than the result and the bias row is as it was before the bias row was laid out. -/
theorem other (c : Dev nD) (r : Ref sig .tc) (h1 : r ≠ main_v270) (h2 : r ≠ main_call12_v0) :
    W33 m ρ c (no_index (Proc.devRef .tc r)) = W31 m ρ c (Proc.devRef .tc r) := by
  refine Eq.trans ?_ (through_reshape m ρ c r h2)
  by_cases g0 : r = main_v269
  · subst g0; exact (W33_arr m ρ c 0).trans (((dat9 (V32 m ρ) c).arrAt_in 0 rfl _).trans (A_eq9 (V32 m ρ) c 0))
  by_cases g1 : r = main_v134
  · subst g1; exact (W33_arr m ρ c 1).trans (((dat9 (V32 m ρ) c).arrAt_in 1 rfl _).trans (A_eq9 (V32 m ρ) c 1))
  by_cases g2 : r = main_v246
  · subst g2; exact (W33_arr m ρ c 2).trans (((dat9 (V32 m ρ) c).arrAt_in 2 rfl _).trans (A_eq9 (V32 m ρ) c 2))
  by_cases g3 : r = main_v248
  · subst g3; exact (W33_arr m ρ c 3).trans (((dat9 (V32 m ρ) c).arrAt_in 3 rfl _).trans (A_eq9 (V32 m ρ) c 3))
  exact W33_of_ne m ρ c r (fun w => by
    match w with
    | ⟨0, _⟩ => exact fun e => g0 e.symm
    | ⟨1, _⟩ => exact fun e => g1 e.symm
    | ⟨2, _⟩ => exact fun e => g2 e.symm
    | ⟨3, _⟩ => exact fun e => g3 e.symm
    | ⟨4, _⟩ => exact fun e => h2 e.symm
    | ⟨5, _⟩ => exact fun e => h1 e.symm)

end InTheRun

end Cert.KernelIdeal.Region9

end
-- ==== Proof.ArgKeep.lean ====
/-
  The argument arrays through the kernel program's run.

  No host operation and no region writes an argument array: a region reads it through an input window or does not touch
  it. So at every region's exit each argument array still holds its launch contents. Stated once per region exit, for a
  variable argument, it lets a value be read back through the run without walking an argument down operation by operation.
-/
import proofs.«142914_j49752901157176_1_alg».proof.Proof.Region0
import proofs.«142914_j49752901157176_1_alg».proof.Proof.Region1
import proofs.«142914_j49752901157176_1_alg».proof.Proof.Region2
import proofs.«142914_j49752901157176_1_alg».proof.Proof.Region3
import proofs.«142914_j49752901157176_1_alg».proof.Proof.Region4
import proofs.«142914_j49752901157176_1_alg».proof.Proof.Region5
import proofs.«142914_j49752901157176_1_alg».proof.Proof.Region6
import proofs.«142914_j49752901157176_1_alg».proof.Proof.Region7
import proofs.«142914_j49752901157176_1_alg».proof.Proof.Region8
import proofs.«142914_j49752901157176_1_alg».proof.Proof.Region9

set_option maxRecDepth 16384

noncomputable section

namespace Cert.KernelIdeal.ArgKeep

open Idealize.ShloMosaic Idealize.ShloMosaic.TcCoe Idealize.SL.Sem Idealize.ShloMosaic.StableHlo
open Cert.KernelIdeal Cert.KernelIdeal.Gen Cert.KernelIdeal.GenP

/-- The program's 22 argument arrays. -/
abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- An argument array is none of the buffers outside the list. -/
theorem ne_of_mem {r x : Ref sig .tc} (h : r ∈ args) (hx : x ∉ args) : r ≠ x := fun e => hx (e ▸ h)

set_option maxHeartbeats 2000000 in
/-- The operations of this stretch write no argument array. -/
theorem cross_hostOps0 (V : Valuation τ sig (Elt Ideal)) (r : Ref sig .tc) (h : r ∈ args) :
    StableHlo.after hostOps0 V (Proc.devRef .tc r) = V (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps1 (V : Valuation τ sig (Elt Ideal)) (r : Ref sig .tc) (h : r ∈ args) :
    StableHlo.after hostOps1 V (Proc.devRef .tc r) = V (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps2 (V : Valuation τ sig (Elt Ideal)) (r : Ref sig .tc) (h : r ∈ args) :
    StableHlo.after hostOps2 V (Proc.devRef .tc r) = V (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps3 (V : Valuation τ sig (Elt Ideal)) (r : Ref sig .tc) (h : r ∈ args) :
    StableHlo.after hostOps3 V (Proc.devRef .tc r) = V (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps4 (V : Valuation τ sig (Elt Ideal)) (r : Ref sig .tc) (h : r ∈ args) :
    StableHlo.after hostOps4 V (Proc.devRef .tc r) = V (Proc.devRef .tc r) :=
  StableHlo.after_of_forall_not_mem (b := Proc.devRef .tc r) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps5_3 (V : Valuation τ sig (Elt Ideal)) (r : Ref sig .tc) (h : r ∈ args) :
    StableHlo.after hostOps5_3 V (Proc.devRef .tc r) = V (Proc.devRef .tc r) :=
  StableHlo.after_of_forall_not_mem (b := Proc.devRef .tc r) _ _ (List.forall_iff_forall_mem.mp (by
    simp only [hostOps5_3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps5_2 (V : Valuation τ sig (Elt Ideal)) (r : Ref sig .tc) (h : r ∈ args) :
    StableHlo.after hostOps5_2 V (Proc.devRef .tc r) = V (Proc.devRef .tc r) :=
  StableHlo.after_of_forall_not_mem (b := Proc.devRef .tc r) _ _ (List.forall_iff_forall_mem.mp (by
    simp only [hostOps5_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps5_1 (V : Valuation τ sig (Elt Ideal)) (r : Ref sig .tc) (h : r ∈ args) :
    StableHlo.after hostOps5_1 V (Proc.devRef .tc r) = V (Proc.devRef .tc r) :=
  StableHlo.after_of_forall_not_mem (b := Proc.devRef .tc r) _ _ (List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps5 (V : Valuation τ sig (Elt Ideal)) (r : Ref sig .tc) (h : r ∈ args) :
    StableHlo.after hostOps5 V (Proc.devRef .tc r) = V (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps6 (V : Valuation τ sig (Elt Ideal)) (r : Ref sig .tc) (h : r ∈ args) :
    StableHlo.after hostOps6 V (Proc.devRef .tc r) = V (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps7 (V : Valuation τ sig (Elt Ideal)) (r : Ref sig .tc) (h : r ∈ args) :
    StableHlo.after hostOps7 V (Proc.devRef .tc r) = V (Proc.devRef .tc r) :=
  StableHlo.after_of_forall_not_mem (b := Proc.devRef .tc r) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps8 (V : Valuation τ sig (Elt Ideal)) (r : Ref sig .tc) (h : r ∈ args) :
    StableHlo.after hostOps8 V (Proc.devRef .tc r) = V (Proc.devRef .tc r) :=
  StableHlo.after_of_forall_not_mem (b := Proc.devRef .tc r) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

set_option maxHeartbeats 2000000 in
/-- The operations of this stretch write no argument array. -/
theorem cross_hostOps9 (V : Valuation τ sig (Elt Ideal)) (r : Ref sig .tc) (h : r ∈ args) :
    StableHlo.after hostOps9 V (Proc.devRef .tc r) = V (Proc.devRef .tc r) :=
  StableHlo.after_of_forall_not_mem (b := Proc.devRef .tc r) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_mem h (by decide))))

section InTheRun

variable (m : (ℓ : Loc nD τ sig) → Buf (Elt Ideal) ℓ) (ρ : Dev nD → PrngReg)

/-- At region 0's exit every argument array holds its launch contents. -/
theorem keep0 (c : Dev nD) (r : Ref sig .tc) (h : r ∈ args) :
    W3 m ρ c (no_index (Proc.devRef .tc r)) = W0 m ρ c (Proc.devRef .tc r) :=
  (Region0.other m ρ c r (ne_of_mem h (by decide)) (ne_of_mem h (by decide))).trans (cross_hostOps0 _ r h)

/-- At region 0's exit every buffer that is neither the region's result, nor its bias row, nor an argument array is as
    it was before the bias row was laid out. -/
theorem rest0 (c : Dev nD) (r : Ref sig .tc) (h1 : r ≠ main_v25) (h2 : r ≠ main_call0_v0) (h3 : r ∉ args) :
    W3 m ρ c (no_index (Proc.devRef .tc r)) = W1 m ρ c (Proc.devRef .tc r) :=
  Region0.other m ρ c r h1 h2

/-- At region 1's exit every argument array holds its launch contents. -/
theorem keep1 (c : Dev nD) (r : Ref sig .tc) (h : r ∈ args) :
    W6 m ρ c (no_index (Proc.devRef .tc r)) = W0 m ρ c (Proc.devRef .tc r) :=
  (Region1.other m ρ c r (ne_of_mem h (by decide)) (ne_of_mem h (by decide))).trans ((cross_hostOps1 _ r h).trans (keep0 m ρ c r h))

/-- At region 1's exit every buffer that is neither the region's result, nor its bias row, nor an argument array is as
    it was before the bias row was laid out. -/
theorem rest1 (c : Dev nD) (r : Ref sig .tc) (h1 : r ≠ main_v51) (h2 : r ≠ main_call1_v0) (h3 : r ∉ args) :
    W6 m ρ c (no_index (Proc.devRef .tc r)) = W4 m ρ c (Proc.devRef .tc r) :=
  Region1.other m ρ c r h1 h2

/-- At region 2's exit every argument array holds its launch contents. -/
theorem keep2 (c : Dev nD) (r : Ref sig .tc) (h : r ∈ args) :
    W9 m ρ c (no_index (Proc.devRef .tc r)) = W0 m ρ c (Proc.devRef .tc r) :=
  (Region2.other m ρ c r (ne_of_mem h (by decide)) (ne_of_mem h (by decide))).trans ((cross_hostOps2 _ r h).trans (keep1 m ρ c r h))

/-- At region 2's exit every buffer that is neither the region's result, nor its bias row, nor an argument array is as
    it was before the bias row was laid out. -/
theorem rest2 (c : Dev nD) (r : Ref sig .tc) (h1 : r ≠ main_v77) (h2 : r ≠ main_call2_v0) (h3 : r ∉ args) :
    W9 m ρ c (no_index (Proc.devRef .tc r)) = W7 m ρ c (Proc.devRef .tc r) :=
  Region2.other m ρ c r h1 h2

/-- At region 3's exit every argument array holds its launch contents. -/
theorem keep3 (c : Dev nD) (r : Ref sig .tc) (h : r ∈ args) :
    W12 m ρ c (no_index (Proc.devRef .tc r)) = W0 m ρ c (Proc.devRef .tc r) :=
  (Region3.other m ρ c r (ne_of_mem h (by decide)) (ne_of_mem h (by decide))).trans ((cross_hostOps3 _ r h).trans (keep2 m ρ c r h))

/-- At region 3's exit every buffer that is neither the region's result, nor its bias row, nor an argument array is as
    it was before the bias row was laid out. -/
theorem rest3 (c : Dev nD) (r : Ref sig .tc) (h1 : r ≠ main_v103) (h2 : r ≠ main_call3_v0) (h3 : r ∉ args) :
    W12 m ρ c (no_index (Proc.devRef .tc r)) = W10 m ρ c (Proc.devRef .tc r) :=
  Region3.other m ρ c r h1 h2

/-- At region 4's exit every argument array holds its launch contents. -/
theorem keep4 (c : Dev nD) (r : Ref sig .tc) (h : r ∈ args) :
    W15 m ρ c (no_index (Proc.devRef .tc r)) = W0 m ρ c (Proc.devRef .tc r) :=
  (Region4.other m ρ c r (ne_of_mem h (by decide)) (ne_of_mem h (by decide))).trans ((cross_hostOps4 _ r h).trans (keep3 m ρ c r h))

/-- At region 4's exit every buffer that is neither the region's result, nor its bias row, nor an argument array is as
    it was before the bias row was laid out. -/
theorem rest4 (c : Dev nD) (r : Ref sig .tc) (h1 : r ≠ main_v133) (h2 : r ≠ main_call4_v0) (h3 : r ∉ args) :
    W15 m ρ c (no_index (Proc.devRef .tc r)) = W13 m ρ c (Proc.devRef .tc r) :=
  Region4.other m ρ c r h1 h2

/-- At region 5's exit every argument array holds its launch contents. -/
theorem keep5 (c : Dev nD) (r : Ref sig .tc) (h : r ∈ args) :
    W21 m ρ c (no_index (Proc.devRef .tc r)) = W0 m ρ c (Proc.devRef .tc r) :=
  (Region5.other m ρ c r (ne_of_mem h (by decide)) (ne_of_mem h (by decide))).trans ((cross_hostOps5_3 _ r h).trans ((cross_hostOps5_2 _ r h).trans ((cross_hostOps5_1 _ r h).trans ((cross_hostOps5 _ r h).trans (keep4 m ρ c r h)))))

/-- At region 5's exit every buffer that is neither the region's result, nor its bias row, nor an argument array is as
    it was before the bias row was laid out. -/
theorem rest5 (c : Dev nD) (r : Ref sig .tc) (h1 : r ≠ main_v162) (h2 : r ≠ main_call8_v0) (h3 : r ∉ args) :
    W21 m ρ c (no_index (Proc.devRef .tc r)) = W19 m ρ c (Proc.devRef .tc r) :=
  Region5.other m ρ c r h1 h2

/-- At region 6's exit every argument array holds its launch contents. -/
theorem keep6 (c : Dev nD) (r : Ref sig .tc) (h : r ∈ args) :
    W24 m ρ c (no_index (Proc.devRef .tc r)) = W0 m ρ c (Proc.devRef .tc r) :=
  (Region6.other m ρ c r (ne_of_mem h (by decide)) (ne_of_mem h (by decide))).trans ((cross_hostOps6 _ r h).trans (keep5 m ρ c r h))

/-- At region 6's exit every buffer that is neither the region's result, nor its bias row, nor an argument array is as
    it was before the bias row was laid out. -/
theorem rest6 (c : Dev nD) (r : Ref sig .tc) (h1 : r ≠ main_v188) (h2 : r ≠ main_call9_v0) (h3 : r ∉ args) :
    W24 m ρ c (no_index (Proc.devRef .tc r)) = W22 m ρ c (Proc.devRef .tc r) :=
  Region6.other m ρ c r h1 h2

/-- At region 7's exit every argument array holds its launch contents. -/
theorem keep7 (c : Dev nD) (r : Ref sig .tc) (h : r ∈ args) :
    W27 m ρ c (no_index (Proc.devRef .tc r)) = W0 m ρ c (Proc.devRef .tc r) :=
  (Region7.other m ρ c r (ne_of_mem h (by decide)) (ne_of_mem h (by decide))).trans ((cross_hostOps7 _ r h).trans (keep6 m ρ c r h))

/-- At region 7's exit every buffer that is neither the region's result, nor its bias row, nor an argument array is as
    it was before the bias row was laid out. -/
theorem rest7 (c : Dev nD) (r : Ref sig .tc) (h1 : r ≠ main_v214) (h2 : r ≠ main_call10_v0) (h3 : r ∉ args) :
    W27 m ρ c (no_index (Proc.devRef .tc r)) = W25 m ρ c (Proc.devRef .tc r) :=
  Region7.other m ρ c r h1 h2

/-- At region 8's exit every argument array holds its launch contents. -/
theorem keep8 (c : Dev nD) (r : Ref sig .tc) (h : r ∈ args) :
    W30 m ρ c (no_index (Proc.devRef .tc r)) = W0 m ρ c (Proc.devRef .tc r) :=
  (Region8.other m ρ c r (ne_of_mem h (by decide)) (ne_of_mem h (by decide))).trans ((cross_hostOps8 _ r h).trans (keep7 m ρ c r h))

/-- At region 8's exit every buffer that is neither the region's result, nor its bias row, nor an argument array is as
    it was before the bias row was laid out. -/
theorem rest8 (c : Dev nD) (r : Ref sig .tc) (h1 : r ≠ main_v240) (h2 : r ≠ main_call11_v0) (h3 : r ∉ args) :
    W30 m ρ c (no_index (Proc.devRef .tc r)) = W28 m ρ c (Proc.devRef .tc r) :=
  Region8.other m ρ c r h1 h2

/-- At region 9's exit every argument array holds its launch contents. -/
theorem keep9 (c : Dev nD) (r : Ref sig .tc) (h : r ∈ args) :
    W33 m ρ c (no_index (Proc.devRef .tc r)) = W0 m ρ c (Proc.devRef .tc r) :=
  (Region9.other m ρ c r (ne_of_mem h (by decide)) (ne_of_mem h (by decide))).trans ((cross_hostOps9 _ r h).trans (keep8 m ρ c r h))

/-- At region 9's exit every buffer that is neither the region's result, nor its bias row, nor an argument array is as
    it was before the bias row was laid out. -/
theorem rest9 (c : Dev nD) (r : Ref sig .tc) (h1 : r ≠ main_v270) (h2 : r ≠ main_call12_v0) (h3 : r ∉ args) :
    W33 m ρ c (no_index (Proc.devRef .tc r)) = W31 m ρ c (Proc.devRef .tc r) :=
  Region9.other m ρ c r h1 h2

end InTheRun

end Cert.KernelIdeal.ArgKeep

end
-- ==== Proof.Stages1.lean ====
/-
  Layer 1 of the kernel program, region by region: each region's result buffer holds the reference program's piece
  for that step, as a function of the argument arrays.
-/
import proofs.«142914_j49752901157176_1_alg».proof.Proof.RefPieces
import proofs.«142914_j49752901157176_1_alg».proof.Proof.Region0
import proofs.«142914_j49752901157176_1_alg».proof.Proof.Region1
import proofs.«142914_j49752901157176_1_alg».proof.Proof.Region2
import proofs.«142914_j49752901157176_1_alg».proof.Proof.Region3
import proofs.«142914_j49752901157176_1_alg».proof.Proof.Region4
import proofs.«142914_j49752901157176_1_alg».proof.Proof.ArgKeep

set_option maxRecDepth 65536

noncomputable section

namespace Cert.KernelIdeal.Stages1

open Idealize.ShloMosaic Idealize.ShloMosaic.TcCoe Idealize.SL.Sem Idealize.ShloMosaic.StableHlo
open Cert.KernelIdeal Cert.KernelIdeal.Gen Cert.KernelIdeal.GenP

set_option maxHeartbeats 400000000 in
/-- Region 0's result: the groundwater nodes' step. -/
theorem gw (m : (ℓ : Loc nD τ sig) → Buf (Elt Ideal) ℓ) (ρ : Dev nD → PrngReg) (c : Dev nD) :
    W3 m ρ c (no_index (Proc.devRef .tc main_v25)) = Cert.ReferenceIdeal.Pieces.gw (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region0.result, ArgKeep.rest0, ArgKeep.keep0]
  rfl

set_option maxHeartbeats 400000000 in
/-- Region 1's result: the channel nodes' step from channel neighbours. -/
theorem o1 (m : (ℓ : Loc nD τ sig) → Buf (Elt Ideal) ℓ) (ρ : Dev nD → PrngReg) (c : Dev nD) :
    W6 m ρ c (no_index (Proc.devRef .tc main_v51)) = Cert.ReferenceIdeal.Pieces.o1 (F := Ideal) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region1.result, ArgKeep.rest1, ArgKeep.keep1, ArgKeep.rest0, ArgKeep.keep0]
  rfl

set_option maxHeartbeats 400000000 in
/-- Region 2's result: the channel nodes' step from surface-water neighbours. -/
theorem o2 (m : (ℓ : Loc nD τ sig) → Buf (Elt Ideal) ℓ) (ρ : Dev nD → PrngReg) (c : Dev nD) :
    W9 m ρ c (no_index (Proc.devRef .tc main_v77)) = Cert.ReferenceIdeal.Pieces.o2 (F := Ideal) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region2.result, ArgKeep.rest2, ArgKeep.keep2, ArgKeep.rest1, ArgKeep.keep1, ArgKeep.rest0, ArgKeep.keep0]
  rfl

set_option maxHeartbeats 400000000 in
/-- Region 3's result: the channel nodes' step from groundwater neighbours. -/
theorem o3 (m : (ℓ : Loc nD τ sig) → Buf (Elt Ideal) ℓ) (ρ : Dev nD → PrngReg) (c : Dev nD) :
    W12 m ρ c (no_index (Proc.devRef .tc main_v103)) = Cert.ReferenceIdeal.Pieces.o3 (F := Ideal) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region3.result, ArgKeep.rest3, ArgKeep.keep3, ArgKeep.rest2, ArgKeep.keep2, ArgKeep.rest1, ArgKeep.keep1, ArgKeep.rest0, ArgKeep.keep0]
  rfl

set_option maxHeartbeats 400000000 in
/-- Region 4's result: the surface-water nodes' self-loop step. -/
theorem hru (m : (ℓ : Loc nD τ sig) → Buf (Elt Ideal) ℓ) (ρ : Dev nD → PrngReg) (c : Dev nD) :
    W15 m ρ c (no_index (Proc.devRef .tc main_v133)) = Cert.ReferenceIdeal.Pieces.hru (F := Ideal) (m ((c.tc : Thread nD τ).loc main_arg0)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region4.result, ArgKeep.rest4, ArgKeep.keep4, ArgKeep.rest3, ArgKeep.keep3, ArgKeep.rest2, ArgKeep.keep2, ArgKeep.rest1, ArgKeep.keep1, ArgKeep.rest0, ArgKeep.keep0]
  rfl

end Cert.KernelIdeal.Stages1

end
-- ==== Proof.Stages2.lean ====
/-
  Layer 2 of the kernel program: the three regions that feed the channel nodes hold the reference program's pieces over
  the layer-1 features.
-/
import proofs.«142914_j49752901157176_1_alg».proof.Proof.Stages1
import proofs.«142914_j49752901157176_1_alg».proof.Proof.Region5
import proofs.«142914_j49752901157176_1_alg».proof.Proof.Region6
import proofs.«142914_j49752901157176_1_alg».proof.Proof.Region7
import proofs.«142914_j49752901157176_1_alg».proof.Proof.Region8

set_option maxRecDepth 65536

noncomputable section

namespace Cert.KernelIdeal.Stages2

open Idealize.ShloMosaic Idealize.ShloMosaic.TcCoe Idealize.SL.Sem Idealize.ShloMosaic.StableHlo
open Cert.KernelIdeal Cert.KernelIdeal.Gen Cert.KernelIdeal.GenP

set_option maxHeartbeats 400000000 in
/-- Region 6's result: the channel nodes' layer-2 step from channel neighbours. -/
theorem p1 (m : (ℓ : Loc nD τ sig) → Buf (Elt Ideal) ℓ) (ρ : Dev nD → PrngReg) (c : Dev nD) :
    W24 m ρ c (no_index (Proc.devRef .tc main_v188)) = Cert.ReferenceIdeal.Pieces.p1 (F := Ideal) (Cert.ReferenceIdeal.Pieces.chan (F := Ideal) (Cert.ReferenceIdeal.Pieces.o1 (F := Ideal) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (Cert.ReferenceIdeal.Pieces.o2 (F := Ideal) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (Cert.ReferenceIdeal.Pieces.o3 (F := Ideal) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region6.result, Stages1.gw, Stages1.o1, Stages1.o2, Stages1.o3, Stages1.hru, ArgKeep.rest6, ArgKeep.keep6, ArgKeep.rest5, ArgKeep.keep5, ArgKeep.rest4, ArgKeep.keep4, ArgKeep.rest3, ArgKeep.keep3, ArgKeep.rest2, ArgKeep.keep2, ArgKeep.rest1, ArgKeep.keep1, ArgKeep.rest0, ArgKeep.keep0]
  rfl

set_option maxHeartbeats 400000000 in
/-- Region 7's result: the channel nodes' layer-2 step from surface-water neighbours. -/
theorem p2 (m : (ℓ : Loc nD τ sig) → Buf (Elt Ideal) ℓ) (ρ : Dev nD → PrngReg) (c : Dev nD) :
    W27 m ρ c (no_index (Proc.devRef .tc main_v214)) = Cert.ReferenceIdeal.Pieces.p2 (F := Ideal) (Cert.ReferenceIdeal.Pieces.posH (F := Ideal) (Cert.ReferenceIdeal.Pieces.hru (F := Ideal) (m ((c.tc : Thread nD τ).loc main_arg0)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)))) (Cert.ReferenceIdeal.Pieces.chan (F := Ideal) (Cert.ReferenceIdeal.Pieces.o1 (F := Ideal) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (Cert.ReferenceIdeal.Pieces.o2 (F := Ideal) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (Cert.ReferenceIdeal.Pieces.o3 (F := Ideal) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region7.result, Stages1.gw, Stages1.o1, Stages1.o2, Stages1.o3, Stages1.hru, ArgKeep.rest7, ArgKeep.keep7, ArgKeep.rest6, ArgKeep.keep6, ArgKeep.rest5, ArgKeep.keep5, ArgKeep.rest4, ArgKeep.keep4, ArgKeep.rest3, ArgKeep.keep3, ArgKeep.rest2, ArgKeep.keep2, ArgKeep.rest1, ArgKeep.keep1, ArgKeep.rest0, ArgKeep.keep0]
  rfl

set_option maxHeartbeats 400000000 in
/-- Region 8's result: the channel nodes' layer-2 step from groundwater neighbours. -/
theorem p3 (m : (ℓ : Loc nD τ sig) → Buf (Elt Ideal) ℓ) (ρ : Dev nD → PrngReg) (c : Dev nD) :
    W30 m ρ c (no_index (Proc.devRef .tc main_v240)) = Cert.ReferenceIdeal.Pieces.p3 (F := Ideal) (Cert.ReferenceIdeal.Pieces.posG (F := Ideal) (Cert.ReferenceIdeal.Pieces.gw (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16)) (m ((c.tc : Thread nD τ).loc main_arg17)))) (Cert.ReferenceIdeal.Pieces.chan (F := Ideal) (Cert.ReferenceIdeal.Pieces.o1 (F := Ideal) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (Cert.ReferenceIdeal.Pieces.o2 (F := Ideal) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (Cert.ReferenceIdeal.Pieces.o3 (F := Ideal) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    Region8.result, Stages1.gw, Stages1.o1, Stages1.o2, Stages1.o3, Stages1.hru, ArgKeep.rest8, ArgKeep.keep8, ArgKeep.rest7, ArgKeep.keep7, ArgKeep.rest6, ArgKeep.keep6, ArgKeep.rest5, ArgKeep.keep5, ArgKeep.rest4, ArgKeep.keep4, ArgKeep.rest3, ArgKeep.keep3, ArgKeep.rest2, ArgKeep.keep2, ArgKeep.rest1, ArgKeep.keep1, ArgKeep.rest0, ArgKeep.keep0]
  rfl

end Cert.KernelIdeal.Stages2

end
-- ==== Proof.Region10.lean ====
/-
  The last region of the kernel program: two dense layers with a positive part between them on the 64 pooled rows, in one
  block. The block is the whole array, so what the one grid point writes back is the whole result
  max(X·W1 + b1, 0)·W2 + b2, which is also what the host's spelling (two products, each followed by its bias vector as a
  repeated row, a maximum against zero between) denotes.
-/
import proofs.«142914_j49752901157176_1_alg».proof.Proof.FrameKernelIdealP
import proofs.«142914_j49752901157176_1_alg».proof.Proof.Gen.ReferenceIdeal
import proofs.«142914_j49752901157176_1_alg».proof.Proof.LibSageCombine
import Idealize.ShloMosaic.Lib.StableHlo.Run

set_option maxRecDepth 16384

noncomputable section

namespace Cert.KernelIdeal.Region10

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.MatrixProduct Cert.Gcn Cert.Mlp Cert.Sage

theorem offsets_zero : (![0, 0] : Fin 2 → Nat) = fun _ => 0 := funext fun a => by fin_cases a <;> rfl

/-- The body's arithmetic on its blocks is the two layers of those blocks. -/
theorem payload_eq (x0 : Vec Ideal S64x288 .f32) (x1 : Vec Ideal S288x128 .f32) (x2 : Vec Ideal S1x128 .f32)
    (x3 : Vec Ideal S128x16 .f32) (x4 : Vec Ideal S1x16 .f32) :
    k10_pay1 (F := Ideal) x0 x1 x2 x3 x4 = logits x0 x1 x2 x3 x4 := by
  unfold k10_pay1
  exact block_logits_wide dot_S64x288_S288x128_S64x128_1_0_0_1_n_n_wf dot_S64x128_S128x16_S64x16_1_0_0_1_n_n_wf
    shapeCasts_S64x288_S64x288 shapeCasts_S1x128_S1x128 broadcasts_S1x128_S64x128 shapeCasts_S1x16_S1x16 broadcasts_S1x16_S64x16
    x0 x1 x2 x3 x4

/-- The printed index maps at the one grid point: every block index is 0. -/
theorem index_facts : ∀ t : Fin cfg10.N,
    win10_0.index t (0 : Fin 2) = 0 ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0 :=
  (by decide +kernel : ∀ t : Fin grid10.N, _)

section AtEntry

variable (V : (c : Dev nD) → (b : Ref sig .tc) → Buf (Elt Ideal) ((c : Thread nD τ).loc b))

/-- The whole result as one function of the arrays the region finds. -/
abbrev whole (c : Dev nD) : S64x16.Idx → EReal :=
  logits (M := 64) (K := 288) (N := 128) (Q := 16) (V c main_v286) (V c main_arg18) (V c main_call16_v0) (V c main_arg20) (V c main_call16_v1)

set_option maxHeartbeats 2000000 in
/-- What the grid point writes back is the whole result. -/
theorem flushed_eq (c : Dev nD) (t : Fin cfg10.N) :
    (dat10 V c).flushed 5 t = ((cfg10.win 5).blk t).view.read (Elt Ideal) (whole V c) := by
  show (cfg10.win 5).cut (grid10.coords t) ((dat10 V c).after 5 t) = _
  rw [after10_5]
  unfold out10_5
  rw [View.canon_unit_zero offsets_zero]
  simp only [View.ld_unit_zero (S := S64x288) offsets_zero, View.ld_unit_zero (S := S288x128) offsets_zero,
    View.ld_unit_zero (S := S1x128) offsets_zero, View.ld_unit_zero (S := S128x16) offsets_zero,
    View.ld_unit_zero (S := S1x16) offsets_zero]
  rw [payload_eq]
  obtain ⟨a0, a1, b0, b1, c0, c1, d0, d1, e0, e1, f0, f1⟩ := index_facts t
  funext j
  have hj0 : (j 0).val < 64 := (j 0).isLt
  have hj1 : (j 1).val < 16 := (j 1).isLt
  refine logits_block (M := 64) (R := 64) (K := 288) (N := 128) (Q := 16) (V c main_v286) (V c main_arg18) (V c main_call16_v0) (V c main_arg20) (V c main_call16_v1)
    (iblk10 V c 0 t) (iblk10 V c 1 t) (iblk10 V c 2 t) (iblk10 V c 3 t) (iblk10 V c 4 t) j
    (((cfg10.win 5).blk t).view.emb j) ?_ ?_ ?_ ?_ ?_
  · intro k
    show V c main_v286 (((cfg10.win 0).blk t).view.emb (ix2 (j 0) k)) = V c main_v286 (ix2 ((((cfg10.win 5).blk t).view.emb j) 0) k)
    refine congrArg _ (funext fun a => Fin.ext ?_)
    match a with
    | ⟨0, _⟩ => show win10_0.index t (0 : Fin 2) * 64 + 1 * (j 0).val = win10_5.index t (0 : Fin 2) * 64 + 1 * (j 0).val; omega
    | ⟨1, _⟩ => show win10_0.index t (1 : Fin 2) * 288 + 1 * k.val = k.val; omega
  · intro a b
    show V c main_arg18 (((cfg10.win 1).blk t).view.emb (ix2 a b)) = V c main_arg18 (ix2 a b)
    refine congrArg _ (funext fun x => Fin.ext ?_)
    match x with
    | ⟨0, _⟩ => show win10_1.index t (0 : Fin 2) * 288 + 1 * a.val = a.val; omega
    | ⟨1, _⟩ => show win10_1.index t (1 : Fin 2) * 128 + 1 * b.val = b.val; omega
  · intro b
    show V c main_call16_v0 (((cfg10.win 2).blk t).view.emb (ix2 (0 : Fin 1) b)) = V c main_call16_v0 (ix2 (0 : Fin 1) b)
    refine congrArg _ (funext fun x => Fin.ext ?_)
    match x with
    | ⟨0, _⟩ => show win10_2.index t (0 : Fin 2) * 1 + 1 * 0 = 0; omega
    | ⟨1, _⟩ => show win10_2.index t (1 : Fin 2) * 128 + 1 * b.val = b.val; omega
  · intro a
    show V c main_arg20 (((cfg10.win 3).blk t).view.emb (ix2 a (j 1))) = V c main_arg20 (ix2 a ((((cfg10.win 5).blk t).view.emb j) 1))
    refine congrArg _ (funext fun x => Fin.ext ?_)
    match x with
    | ⟨0, _⟩ => show win10_3.index t (0 : Fin 2) * 128 + 1 * a.val = a.val; omega
    | ⟨1, _⟩ => show win10_3.index t (1 : Fin 2) * 16 + 1 * (j 1).val = win10_5.index t (1 : Fin 2) * 16 + 1 * (j 1).val; omega
  · show V c main_call16_v1 (((cfg10.win 4).blk t).view.emb (ix2 (0 : Fin 1) (j 1))) = V c main_call16_v1 (ix2 (0 : Fin 1) ((((cfg10.win 5).blk t).view.emb j) 1))
    refine congrArg _ (funext fun x => Fin.ext ?_)
    match x with
    | ⟨0, _⟩ => show win10_4.index t (0 : Fin 2) * 1 + 1 * 0 = 0; omega
    | ⟨1, _⟩ => show win10_4.index t (1 : Fin 2) * 16 + 1 * (j 1).val = win10_5.index t (1 : Fin 2) * 16 + 1 * (j 1).val; omega

/-- An index of the result lies in the point's block iff each coordinate lies in the block's range on its axis. -/
theorem mem_block (t : Fin cfg10.N) (i : S64x16.Idx) :
    i ∈ ((cfg10.win 5).blk t).view.set ↔ ∀ a : Fin 2, win10_5.index t a * S64x16.size a ≤ (i a).val ∧ (i a).val < win10_5.index t a * S64x16.size a + S64x16.size a := by
  show i ∈ ((View.whole main_v287).slice (win10_5.rect t)).set ↔ _
  rw [View.set_slice_whole, Rect.mem_set_unit]
  exact Iff.rfl

/-- Every index of the result lies in the one point's block. -/
theorem covered (i : S64x16.Idx) : ∃ t : Fin cfg10.N, (cfg10.win 5).flush t = true ∧ i ∈ ((cfg10.win 5).blk t).view.set := by
  have hi0 : (i 0).val < 64 := (i 0).isLt
  have hi1 : (i 1).val < 16 := (i 1).isLt
  obtain ⟨-, -, -, -, -, -, -, -, -, -, f0, f1⟩ := index_facts t10_0
  refine ⟨t10_0, flush10_5 _, ?_⟩
  rw [mem_block]
  intro a
  match a with
  | ⟨0, _⟩ =>
    show win10_5.index t10_0 (0 : Fin 2) * 64 ≤ (i 0).val ∧ (i 0).val < win10_5.index t10_0 (0 : Fin 2) * 64 + 64
    rw [f0]; omega
  | ⟨1, _⟩ =>
    show win10_5.index t10_0 (1 : Fin 2) * 16 ≤ (i 1).val ∧ (i 1).val < win10_5.index t10_0 (1 : Fin 2) * 16 + 16
    rw [f1]; omega

/-- The result array after the region is the two layers of the arrays the region finds. -/
theorem final (c : Dev nD) : (dat10 V c).arrAt 5 cfg10.N = whole V c :=
  (dat10 V c).arrAt_eq_of_cover 5 (whole V c) (fun t _ => flushed_eq V c t) (covered)

end AtEntry

section InTheRun

variable (m : (ℓ : Loc nD τ sig) → Buf (Elt Ideal) ℓ) (ρ : Dev nD → PrngReg)

/-- The two reshapes before the region write only the two bias rows. -/
theorem through_reshape (c : Dev nD) (r : Ref sig .tc) (h1 : r ≠ main_call16_v0) (h2 : r ≠ main_call16_v1) :
    W38 m ρ c (Proc.devRef .tc r) = W37 m ρ c (Proc.devRef .tc r) :=
  StableHlo.after_of_forall_not_mem (b := Proc.devRef .tc r) _ _ (List.forall_iff_forall_mem.mp (by
    simp only [hostOps10_4, List.Forall, StableHlo.reshape_writes, Finset.mem_singleton]
    exact ⟨StableHlo.devRef_ne_of_ne h1, StableHlo.devRef_ne_of_ne h2⟩))

/-- The bias rows the region finds are the bias vectors as rows. -/
theorem bias_row1 (c : Dev nD) :
    W38 m ρ c (Proc.devRef .tc main_call16_v0) = rowOf (W37 m ρ c (Proc.devRef .tc main_arg19)) := by
  show StableHlo.after hostOps10_4 (W37 m ρ c) (Proc.devRef .tc main_call16_v0) = _
  after_results
  exact cast_row_eq_rowOf _ _
theorem bias_row2 (c : Dev nD) :
    W38 m ρ c (Proc.devRef .tc main_call16_v1) = rowOf (W37 m ρ c (Proc.devRef .tc main_arg21)) := by
  show StableHlo.after hostOps10_4 (W37 m ρ c) (Proc.devRef .tc main_call16_v1) = _
  after_results
  exact cast_row_eq_rowOf _ _

/-- The region's result in the host's spelling, over the contents before the bias rows were laid out. -/
theorem result (c : Dev nD) :
    W39 m ρ c (no_index (Proc.devRef .tc main_v287)) =
      addf (F := Ideal) (Host.dotGeneral (F := Ideal) (φ₁ := .f32) (φ₂ := .f32) Cert.ReferenceIdeal.dot_S64x128_S128x16_S64x16_1_0_0_1_n_n none
          (maximumf (F := Ideal)
            (addf (F := Ideal) (Host.dotGeneral (F := Ideal) (φ₁ := .f32) (φ₂ := .f32) Cert.ReferenceIdeal.dot_S64x288_S288x128_S64x128_1_0_0_1_n_n none
                (W37 m ρ c (Proc.devRef .tc main_v286)) (W37 m ρ c (Proc.devRef .tc main_arg18)))
              (broadcastInDim Cert.ReferenceIdeal.S64x128 ![0, 1] Cert.ReferenceIdeal.Facts₀.bcast_S1x128_S64x128_0_1
                (broadcastInDim Cert.ReferenceIdeal.S1x128 ![1] Cert.ReferenceIdeal.Facts₀.bcast_S128_S1x128_1 (W37 m ρ c (Proc.devRef .tc main_arg19)))))
            (broadcastInDim Cert.ReferenceIdeal.S64x128 ![] Cert.ReferenceIdeal.Facts₀.bcast_S_S64x128 (constant (F := Ideal) Cert.ReferenceIdeal.S_ .f32 0x00000000#32)))
          (W37 m ρ c (Proc.devRef .tc main_arg20)))
        (broadcastInDim Cert.ReferenceIdeal.S64x16 ![0, 1] Cert.ReferenceIdeal.Facts₀.bcast_S1x16_S64x16_0_1
          (broadcastInDim Cert.ReferenceIdeal.S1x16 ![1] Cert.ReferenceIdeal.Facts₀.bcast_S16_S1x16_1 (W37 m ρ c (Proc.devRef .tc main_arg21)))) := by
  refine (W39_arr m ρ c 5).trans ((final (V38 m ρ) c).trans ?_)
  show logits (M := 64) (K := 288) (N := 128) (Q := 16) (W38 m ρ c (Proc.devRef .tc main_v286)) (W38 m ρ c (Proc.devRef .tc main_arg18)) (W38 m ρ c (Proc.devRef .tc main_call16_v0))
    (W38 m ρ c (Proc.devRef .tc main_arg20)) (W38 m ρ c (Proc.devRef .tc main_call16_v1)) = _
  rw [through_reshape m ρ c main_v286 (by decide) (by decide), through_reshape m ρ c main_arg18 (by decide) (by decide),
    through_reshape m ρ c main_arg20 (by decide) (by decide), bias_row1 m ρ c, bias_row2 m ρ c]
  exact (host_logits Cert.ReferenceIdeal.Facts₀.dot_S64x288_S288x128_S64x128_1_0_0_1_n_n_wf Cert.ReferenceIdeal.Facts₀.dot_S64x128_S128x16_S64x16_1_0_0_1_n_n_wf
    Cert.ReferenceIdeal.Facts₀.bcast_S128_S1x128_1 Cert.ReferenceIdeal.Facts₀.bcast_S1x128_S64x128_0_1 Cert.ReferenceIdeal.Facts₀.bcast_S_S64x128 Cert.ReferenceIdeal.Facts₀.bcast_S16_S1x16_1 Cert.ReferenceIdeal.Facts₀.bcast_S1x16_S64x16_0_1
    _ _ _ _ _).symm

end InTheRun

end Cert.KernelIdeal.Region10

end
-- ==== Proof.ResultValue.lean ====
/-
  The kernel program's result equals the reference program's result.

  Each region leaves in its result buffer the host's spelling of the same combination of the arrays it finds, and every
  other buffer as it was; the stretches of host operations between the regions are, operation for operation, the
  reference program's own. Reading the result buffer back through the run, stage by stage, gives the composition of the
  reference program's pieces over the argument arrays — which is the reference program's composed result.
-/
import proofs.«142914_j49752901157176_1_alg».proof.Proof.Stages2
import proofs.«142914_j49752901157176_1_alg».proof.Proof.Region9
import proofs.«142914_j49752901157176_1_alg».proof.Proof.Region10
import proofs.«142914_j49752901157176_1_alg».proof.Proof.ArgKeep
import proofs.«142914_j49752901157176_1_alg».proof.Proof.RefPieces

set_option maxRecDepth 65536

noncomputable section

namespace Cert.KernelIdeal.ResultValue

open Idealize.ShloMosaic Idealize.ShloMosaic.TcCoe Idealize.SL.Sem Idealize.ShloMosaic.StableHlo
open Cert.KernelIdeal Cert.KernelIdeal.Gen Cert.KernelIdeal.GenP

/-- Two arrays joined along the columns: the 64 pooled rows beside the 64 rows of per-graph inputs. -/
def joinCols (x : (⟨S64x256, .f32⟩ : BufTy).Contents (Elt Ideal)) (y : (⟨S64x32, .f32⟩ : BufTy).Contents (Elt Ideal)) :
    (⟨S64x288, .f32⟩ : BufTy).Contents (Elt Ideal) :=
  concatenate S64x288 1 [⟨S64x256, x⟩, ⟨S64x32, y⟩] concatenates_S64x256_S64x32_S64x288_d1

set_option maxHeartbeats 4000000 in
/-- The head's input is the pooled rows joined with the per-graph inputs. -/
theorem head_input (m : (ℓ : Loc nD τ sig) → Buf (Elt Ideal) ℓ) (ρ : Dev nD → PrngReg) (c : Dev nD) :
    W37 m ρ c (Proc.devRef .tc main_v286)
      = joinCols (W37 m ρ c (Proc.devRef .tc main_v285)) (W37 m ρ c (Proc.devRef .tc main_arg14)) := by
  show StableHlo.after hostOps10_3 (W36 m ρ c) (Proc.devRef .tc main_v286)
    = joinCols (StableHlo.after hostOps10_3 (W36 m ρ c) (Proc.devRef .tc main_v285)) (StableHlo.after hostOps10_3 (W36 m ρ c) (Proc.devRef .tc main_arg14))
  generalize W36 m ρ c = V
  after_results
  rfl

/-- The last region's result over the pooled rows and the per-graph inputs. -/
theorem head_result (m : (ℓ : Loc nD τ sig) → Buf (Elt Ideal) ℓ) (ρ : Dev nD → PrngReg) (c : Dev nD) :
    W39 m ρ c (no_index (Proc.devRef .tc main_v287)) =
      addf (F := Ideal) (Host.dotGeneral (F := Ideal) (φ₁ := .f32) (φ₂ := .f32) Cert.ReferenceIdeal.dot_S64x128_S128x16_S64x16_1_0_0_1_n_n none
          (maximumf (F := Ideal)
            (addf (F := Ideal) (Host.dotGeneral (F := Ideal) (φ₁ := .f32) (φ₂ := .f32) Cert.ReferenceIdeal.dot_S64x288_S288x128_S64x128_1_0_0_1_n_n none
                (joinCols (W37 m ρ c (Proc.devRef .tc main_v285)) (W37 m ρ c (Proc.devRef .tc main_arg14))) (W37 m ρ c (Proc.devRef .tc main_arg18)))
              (broadcastInDim Cert.ReferenceIdeal.S64x128 ![0, 1] Cert.ReferenceIdeal.Facts₀.bcast_S1x128_S64x128_0_1
                (broadcastInDim Cert.ReferenceIdeal.S1x128 ![1] Cert.ReferenceIdeal.Facts₀.bcast_S128_S1x128_1 (W37 m ρ c (Proc.devRef .tc main_arg19)))))
            (broadcastInDim Cert.ReferenceIdeal.S64x128 ![] Cert.ReferenceIdeal.Facts₀.bcast_S_S64x128 (constant (F := Ideal) Cert.ReferenceIdeal.S_ .f32 0x00000000#32)))
          (W37 m ρ c (Proc.devRef .tc main_arg20)))
        (broadcastInDim Cert.ReferenceIdeal.S64x16 ![0, 1] Cert.ReferenceIdeal.Facts₀.bcast_S1x16_S64x16_0_1
          (broadcastInDim Cert.ReferenceIdeal.S1x16 ![1] Cert.ReferenceIdeal.Facts₀.bcast_S16_S1x16_1 (W37 m ρ c (Proc.devRef .tc main_arg21)))) :=
  (Region10.result m ρ c).trans (by rw [head_input m ρ c])

set_option maxHeartbeats 400000000 in
/-- The kernel program's result buffer holds the composition of the reference program's pieces over the argument arrays. -/
theorem kernel_result (m : (ℓ : Loc nD τ sig) → Buf (Elt Ideal) ℓ) (ρ : Dev nD → PrngReg) (c : Dev nD) :
    W39 m ρ c (no_index (Proc.devRef .tc main_v287)) = Cert.ReferenceIdeal.Pieces.out (F := Ideal) (Cert.ReferenceIdeal.Pieces.p1 (F := Ideal) (Cert.ReferenceIdeal.Pieces.chan (F := Ideal) (Cert.ReferenceIdeal.Pieces.o1 (F := Ideal) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (Cert.ReferenceIdeal.Pieces.o2 (F := Ideal) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (Cert.ReferenceIdeal.Pieces.o3 (F := Ideal) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (Cert.ReferenceIdeal.Pieces.p2 (F := Ideal) (Cert.ReferenceIdeal.Pieces.posH (F := Ideal) (Cert.ReferenceIdeal.Pieces.hru (F := Ideal) (m ((c.tc : Thread nD τ).loc main_arg0)) (m ((c.tc : Thread nD τ).loc main_arg11)) (m ((c.tc : Thread nD τ).loc main_arg12)) (m ((c.tc : Thread nD τ).loc main_arg15)) (m ((c.tc : Thread nD τ).loc main_arg16)) (m ((c.tc : Thread nD τ).loc main_arg17)))) (Cert.ReferenceIdeal.Pieces.chan (F := Ideal) (Cert.ReferenceIdeal.Pieces.o1 (F := Ideal) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (Cert.ReferenceIdeal.Pieces.o2 (F := Ideal) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (Cert.ReferenceIdeal.Pieces.o3 (F := Ideal) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (Cert.ReferenceIdeal.Pieces.p3 (F := Ideal) (Cert.ReferenceIdeal.Pieces.posG (F := Ideal) (Cert.ReferenceIdeal.Pieces.gw (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg15)) (m ((c.tc : Thread nD τ).loc main_arg16)) (m ((c.tc : Thread nD τ).loc main_arg17)))) (Cert.ReferenceIdeal.Pieces.chan (F := Ideal) (Cert.ReferenceIdeal.Pieces.o1 (F := Ideal) (m ((c.tc : Thread nD τ).loc main_arg1)) (m ((c.tc : Thread nD τ).loc main_arg5)) (m ((c.tc : Thread nD τ).loc main_arg6)) (m ((c.tc : Thread nD τ).loc main_arg15)) (m ((c.tc : Thread nD τ).loc main_arg16)) (m ((c.tc : Thread nD τ).loc main_arg17))) (Cert.ReferenceIdeal.Pieces.o2 (F := Ideal) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg15)) (m ((c.tc : Thread nD τ).loc main_arg16)) (m ((c.tc : Thread nD τ).loc main_arg17))) (Cert.ReferenceIdeal.Pieces.o3 (F := Ideal) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17)))) (m ((c.tc : Thread nD τ).loc main_arg9)) (m ((c.tc : Thread nD τ).loc main_arg10)) (m ((c.tc : Thread nD τ).loc main_arg15)) (m ((c.tc : Thread nD τ).loc main_arg16)) (m ((c.tc : Thread nD τ).loc main_arg17))) (m ((c.tc : Thread nD τ).loc main_arg13)) (m ((c.tc : Thread nD τ).loc main_arg14)) (m ((c.tc : Thread nD τ).loc main_arg18)) (m ((c.tc : Thread nD τ).loc main_arg19)) (m ((c.tc : Thread nD τ).loc main_arg20)) (m ((c.tc : Thread nD τ).loc main_arg21)) := by
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    head_result, Stages2.p1, Stages2.p2, Stages2.p3, ArgKeep.rest9, ArgKeep.keep9, ArgKeep.rest8, ArgKeep.keep8, ArgKeep.rest7, ArgKeep.keep7, ArgKeep.rest6, ArgKeep.keep6, ArgKeep.rest5, ArgKeep.keep5, ArgKeep.rest4, ArgKeep.keep4, ArgKeep.rest3, ArgKeep.keep3, ArgKeep.rest2, ArgKeep.keep2, ArgKeep.rest1, ArgKeep.keep1, ArgKeep.rest0, ArgKeep.keep0]
  rfl

/-- The two programs' results agree when their memories agree on the arguments. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19))
    (h20 : m' ((c.tc : Thread Cert.ReferenceIdeal.nD Cert.ReferenceIdeal.τ).loc Cert.ReferenceIdeal.main_arg20) = m ((c.tc : Thread nD τ).loc main_arg20))
    (h21 : m' ((c.tc : Thread Cert.ReferenceIdeal.nD Cert.ReferenceIdeal.τ).loc Cert.ReferenceIdeal.main_arg21) = m ((c.tc : Thread nD τ).loc main_arg21)) :
    Cert.ReferenceIdeal.ValueP.res_main_v345 m' c = W39 m ρ c (Proc.devRef .tc main_v287) := by
  rw [Cert.ReferenceIdeal.Pieces.composed_eq, h0, h1, h2, h3, h4, h5, h6, h7, h8, h9, h10, h11, h12, h13, h14, h15, h16, h17, h18, h19, h20, h21]
  exact (kernel_result m ρ c).symm

end Cert.KernelIdeal.ResultValue

end
-- ==== Proof.lean ====
/-
  The certificate of a two-layer graph network over three kinds of nodes and five kinds of edges, followed by a pooled
  two-layer head.

  Both programs compute, per layer and per edge kind, the mean of the source features gathered along the edges into each
  destination node, then  mean · Wl + b + x_dst · Wr ; the three results landing on the channel nodes are averaged; a
  positive part closes the layer; after two layers the channel features are averaged per graph, joined with the
  per-graph inputs, and passed through  max(x · W1 + b1, 0) · W2 + b2.  The kernel program computes each
  mean · Wl + x_dst · Wr + b  on the matrix unit, 2000 rows at a time, with the operands narrowed to a shorter float
  format, and the head in one block; everything else is the same host operations in both programs. Over the extended
  reals narrowing is the identity, a product into a zero accumulator is the plain finite sum, addition is commutative and
  associative, and a row-tiled product assembles the whole one — so the two results are equal, element by element. No
  finiteness of the inputs is used.

  The three frame claims are the generated frame runs (the reference's is its run with the result dropped); the
  idealization rewrote nothing, so its claim is trivial.
-/
import proofs.«142914_j49752901157176_1_alg».proof.Defs
import proofs.«142914_j49752901157176_1_alg».proof.Proof.Gen.Kernel
import proofs.«142914_j49752901157176_1_alg».proof.Proof.FrameKernelP
import proofs.«142914_j49752901157176_1_alg».proof.Proof.Gen.KernelIdeal
import proofs.«142914_j49752901157176_1_alg».proof.Proof.FrameKernelIdealP
import proofs.«142914_j49752901157176_1_alg».proof.Proof.Gen.ReferenceIdeal
import proofs.«142914_j49752901157176_1_alg».proof.Proof.RunReferenceIdealP
import proofs.«142914_j49752901157176_1_alg».proof.Proof.RunReferenceIdealP2
import proofs.«142914_j49752901157176_1_alg».proof.Proof.Gen.Pre_finite_inputs
import proofs.«142914_j49752901157176_1_alg».proof.Proof.KernelRun
import proofs.«142914_j49752901157176_1_alg».proof.Proof.ResultValue
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both idealized programs end with the same result array: the kernel program's final contents of its result buffer. -/
theorem algebraic : Cert.algebraic_KernelIdeal_ReferenceIdeal := by
  intro m ρ m' ρ' _ hagree
  refine ⟨fun c => Cert.KernelIdeal.GenP.W39 m ρ c (Proc.devRef .tc Cert.KernelIdeal.main_v287),
    Cert.KernelIdeal.KernelRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11, a12, a13, a14, a15, a16, a17, a18, a19, a20, a21⟩ := hagree c
  exact Cert.KernelIdeal.ResultValue.result_eq m ρ m' c a0 a1 a2 a3 a4 a5 a6 a7 a8 a9 a10 a11 a12 a13 a14 a15 a16 a17 a18 a19 a20 a21

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
